-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S2x1600000 : Shape := ⟨2, ![2, 1600000]⟩
abbrev S1600000 : Shape := ⟨1, ![1600000]⟩
abbrev S100x32 : Shape := ⟨2, ![100, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x10 : Shape := ⟨2, ![8, 10]⟩
abbrev S10 : Shape := ⟨1, ![10]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S100x32 : S_.BroadcastsInDim S100x32 (![] : Fin 0 → Fin S100x32.rank)
  reducesTo_S100x32_S_d0_1 : S100x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x10 : S_.BroadcastsInDim S8x10 (![] : Fin 0 → Fin S8x10.rank)
  reducesTo_S8x10_S_d0_1 : S8x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S8 .f32) (main_arg9 : FVec F S8x10 .f32) (main_arg10 : FVec F S10 .f32) (main_v33 : IVec S_ 1) : IVec S_ 1 :=
  let main_v34 : FVec F S8 .f32 := Host.absf main_arg8
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S8x10 .f32 := Host.absf main_arg9
  let main_cst_14 : FVec F S_ .f32 := constant S_ .f32 0x7F800000#32
  let main_v40 : FVec F S8x10 .f32 := broadcastInDim S8x10 ![] bcast_S_S8x10 main_cst_14
  let main_v41 : IVec S8x10 1 := cmpf .olt main_v39 main_v40
  let main_c_15 : IVec S_ 1 := constantI S_ 1 1#1
  let main_v42 : IVec S_ 1 := (fun x v => Host.reduce IntOp.andi x v reducesTo_S8x10_S_d0_1 h_S_) main_v41 main_c_15
  let main_v43 : IVec S_ 1 := andi main_v38 main_v42
  let main_v44 : FVec F S10 .f32 := Host.absf main_arg10
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg5 : FVec F S32x16 .f32) (main_arg6 : FVec F S16 .f32) (main_arg7 : FVec F S16x8 .f32) (main_arg8 : FVec F S8 .f32) (main_arg9 : FVec F S8x10 .f32) (main_arg10 : FVec F S10 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg5
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x8 .f32 := Host.absf main_arg7
  let main_cst_10 : FVec F S_ .f32 := constant S_ .f32 0x7F800000#32
  let main_v30 : FVec F S16x8 .f32 := broadcastInDim S16x8 ![] bcast_S_S16x8 main_cst_10
  let main_v31 : IVec S16x8 1 := cmpf .olt main_v29 main_v30
  let main_c_11 : IVec S_ 1 := constantI S_ 1 1#1
  let main_v32 : IVec S_ 1 := (fun x v => Host.reduce IntOp.andi x v reducesTo_S16x8_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x100 .f32) (main_arg1 : IVec S2x1600000 32) (main_arg2 : FVec F S1600000 .f32) (main_arg3 : FVec F S100x32 .f32) (main_arg4 : FVec F S32 .f32) (main_arg5 : FVec F S32x16 .f32) (main_arg6 : FVec F S16 .f32) (main_arg7 : FVec F S16x8 .f32) (main_arg8 : FVec F S8 .f32) (main_arg9 : FVec F S8x10 .f32) (main_arg10 : FVec F S10 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100x32 .f32 := Host.absf main_arg3
  let main_cst_2 : FVec F S_ .f32 := constant S_ .f32 0x7F800000#32
  let main_v10 : FVec F S100x32 .f32 := broadcastInDim S100x32 ![] bcast_S_S100x32 main_cst_2
  let main_v11 : IVec S100x32 1 := cmpf .olt main_v9 main_v10
  let main_c_3 : IVec S_ 1 := constantI S_ 1 1#1
  let main_v12 : IVec S_ 1 := (fun x v => Host.reduce IntOp.andi x v reducesTo_S100x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_v13 main_v16
-- ==== Kernel.lean ====
abbrev S100000x100 : Shape := ⟨2, ![100000, 100]⟩
abbrev S2x1600000 : Shape := ⟨2, ![2, 1600000]⟩
abbrev S1600000 : Shape := ⟨1, ![1600000]⟩
abbrev S100x32 : Shape := ⟨2, ![100, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x10 : Shape := ⟨2, ![8, 10]⟩
abbrev S10 : Shape := ⟨1, ![10]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x32 : Shape := ⟨2, ![100000, 32]⟩
abbrev S5000x100 : Shape := ⟨2, ![5000, 100]⟩
abbrev S5000x1 : Shape := ⟨2, ![5000, 1]⟩
abbrev S5000x32 : Shape := ⟨2, ![5000, 32]⟩
abbrev S1600000x32 : Shape := ⟨2, ![1600000, 32]⟩
abbrev S1x32 : Shape := ⟨2, ![1, 32]⟩
abbrev S1x16 : Shape := ⟨2, ![1, 16]⟩
abbrev S1x8 : Shape := ⟨2, ![1, 8]⟩
abbrev S1x10 : Shape := ⟨2, ![1, 10]⟩
abbrev S100000x10 : Shape := ⟨2, ![100000, 10]⟩
abbrev S5000x10 : Shape := ⟨2, ![5000, 10]⟩
abbrev S5000x16 : Shape := ⟨2, ![5000, 16]⟩
abbrev S5000x8 : Shape := ⟨2, ![5000, 8]⟩
abbrev S5000 : Shape := ⟨1, ![5000]⟩

abbrev nBuf : Space → Nat
  | .hbm => 54
  | .vmem => 24
  | .smem => 0
  | _ => 0

abbrev bufTy : (tb : Table) → Fin (tcTables nBuf tb) → BufTy
  | .hbm, ⟨0, _⟩ => ⟨S100000x100, .f32⟩
  | .hbm, ⟨1, _⟩ => ⟨S2x1600000, .i32⟩
  | .hbm, ⟨2, _⟩ => ⟨S1600000, .f32⟩
  | .hbm, ⟨3, _⟩ => ⟨S100x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S16x8, .f32⟩
  | .hbm, ⟨8, _⟩ => ⟨S8, .f32⟩
  | .hbm, ⟨9, _⟩ => ⟨S8x10, .f32⟩
  | .hbm, ⟨10, _⟩ => ⟨S10, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x32, .f32⟩
  | .hbm, ⟨30, _⟩ => ⟨S100000x32, .bf16⟩
  | .hbm, ⟨31, _⟩ => ⟨S1x1600000, .i32⟩
  | .hbm, ⟨32, _⟩ => ⟨S1600000, .i32⟩
  | .hbm, ⟨33, _⟩ => ⟨S1x1600000, .i32⟩
  | .hbm, ⟨34, _⟩ => ⟨S1600000, .i32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x32, .bf16⟩
  | .hbm, ⟨44, _⟩ => ⟨S1600000x32, .f32⟩
  | .hbm, ⟨45, _⟩ => ⟨S_, .f32⟩
  | .hbm, ⟨46, _⟩ => ⟨S100000x32, .f32⟩
  | .hbm, ⟨47, _⟩ => ⟨S1600000x1, .i32⟩
  | .hbm, ⟨48, _⟩ => ⟨S100000x32, .f32⟩
  | .hbm, ⟨49, _⟩ => ⟨S1x32, .f32⟩
  | .hbm, ⟨50, _⟩ => ⟨S1x16, .f32⟩
  | .hbm, ⟨51, _⟩ => ⟨S1x8, .f32⟩
  | .hbm, ⟨52, _⟩ => ⟨S1x10, .f32⟩
  | .hbm, ⟨53, _⟩ => ⟨S100000x10, .f32⟩
  | .local _ .vmem, ⟨0, _⟩ => ⟨S5000x100, .f32⟩
  | .local _ .vmem, ⟨1, _⟩ => ⟨S5000x100, .f32⟩
  | .local _ .vmem, ⟨2, _⟩ => ⟨S100x32, .f32⟩
  | .local _ .vmem, ⟨3, _⟩ => ⟨S5000x1, .f32⟩
  | .local _ .vmem, ⟨4, _⟩ => ⟨S5000x1, .f32⟩
  | .local _ .vmem, ⟨5, _⟩ => ⟨S5000x32, .f32⟩
  | .local _ .vmem, ⟨6, _⟩ => ⟨S5000x32, .f32⟩
  | .local _ .vmem, ⟨7, _⟩ => ⟨S5000x32, .bf16⟩
  | .local _ .vmem, ⟨8, _⟩ => ⟨S5000x32, .bf16⟩
  | .local _ .vmem, ⟨9, _⟩ => ⟨S5000x32, .f32⟩
  | .local _ .vmem, ⟨10, _⟩ => ⟨S5000x32, .f32⟩
  | .local _ .vmem, ⟨11, _⟩ => ⟨S5000x1, .f32⟩
  | .local _ .vmem, ⟨12, _⟩ => ⟨S5000x1, .f32⟩
  | .local _ .vmem, ⟨13, _⟩ => ⟨S5000x32, .f32⟩
  | .local _ .vmem, ⟨14, _⟩ => ⟨S5000x32, .f32⟩
  | .local _ .vmem, ⟨15, _⟩ => ⟨S1x32, .f32⟩
  | .local _ .vmem, ⟨16, _⟩ => ⟨S32x16, .f32⟩
  | .local _ .vmem, ⟨17, _⟩ => ⟨S1x16, .f32⟩
  | .local _ .vmem, ⟨18, _⟩ => ⟨S16x8, .f32⟩
  | .local _ .vmem, ⟨19, _⟩ => ⟨S1x8, .f32⟩
  | .local _ .vmem, ⟨20, _⟩ => ⟨S8x10, .f32⟩
  | .local _ .vmem, ⟨21, _⟩ => ⟨S1x10, .f32⟩
  | .local _ .vmem, ⟨22, _⟩ => ⟨S5000x10, .f32⟩
  | .local _ .vmem, ⟨23, _⟩ => ⟨S5000x10, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg10_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem10_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x32 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x10 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x10 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x10 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x100_S5000x100_0_0 : ∀ a, (![0, 0] : Fin 2 → Nat) a + S5000x100.size a ≤ S5000x100.size a
  h_S5000x100 : 0 < S5000x100.numel
  bitsLt_bf16_f32 : FTy.bits .bf16 < FTy.bits .f32
  inb_S100x32_S100x32_0_0 : ∀ a, (![0, 0] : Fin 2 → Nat) a + S100x32.size a ≤ S100x32.size a
  h_S100x32 : 0 < S100x32.numel
  inb_S5000x32_S5000x32_0_0 : ∀ a, (![0, 0] : Fin 2 → Nat) a + S5000x32.size a ≤ S5000x32.size a
  h_S5000x32 : 0 < S5000x32.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  packedbf16_S5000x32_S5000x32_0_0 : (Rect.unit (s := S5000x32) ![0, 0] S5000x32.size inb_S5000x32_S5000x32_0_0).PackedRows (EltTy.packing .bf16)
  bcast_S_S100000x32 : S_.BroadcastsInDim S100000x32 (![] : Fin 0 → Fin S100000x32.rank)
  shapeCasts_S32_S1x32 : S32.ShapeCasts S1x32
  shapeCasts_S16_S1x16 : S16.ShapeCasts S1x16
  shapeCasts_S8_S1x8 : S8.ShapeCasts S1x8
  shapeCasts_S10_S1x10 : S10.ShapeCasts S1x10
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S8x10_S8x10_0_0 : ∀ a, (![0, 0] : Fin 2 → Nat) a + S8x10.size a ≤ S8x10.size a
  h_S8x10 : 0 < S8x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  shapeCasts_S5000_S5000x1 : S5000.ShapeCasts S5000x1
  broadcasts_S5000x1_S5000x10 : S5000x1.Broadcasts S5000x10
  inb_S5000x10_S5000x10_0_0 : ∀ a, (![0, 0] : Fin 2 → Nat) a + S5000x10.size a ≤ S5000x10.size a
  h_S5000x10 : 0 < S5000x10.numel
  scatter_S100000_S1600000x1_S1600000_n_0_0_1_wf : ScatterDims.WF S100000 S1600000x1 S1600000 [] [0] [0] 1
  dot_S5000x100_S100x32_S5000x32_1_0_0_1_n_n_wf : DotDims.WF S5000x100 S100x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x16_S5000x16_1_0_0_1_n_n_wf : DotDims.WF S5000x32 S32x16 S5000x16 [1] [0] [0] [1] [] []
  dot_S5000x16_S16x8_S5000x8_1_0_0_1_n_n_wf : DotDims.WF S5000x16 S16x8 S5000x8 [1] [0] [0] [1] [] []
  dot_S5000x8_S8x10_S5000x10_1_0_0_1_n_n_wf : DotDims.WF S5000x8 S8x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S100000x100.size a
  hwx0_0 : ∀ i : grid0.Coords, EltTy.bits .f32 = 32 ∨ (Rect.block (s := S100000x100) S5000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x32.size a ≤ S100x32.size a
  hwx0_1 : ∀ i : grid0.Coords, EltTy.bits .f32 = 32 ∨ (Rect.block (s := S100x32) S100x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x32.size a ≤ S100000x32.size a
  hwx0_4 : ∀ i : grid0.Coords, EltTy.bits .bf16 = 32 ∨ (Rect.block (s := S100000x32) S5000x32.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x16.size a ≤ S32x16.size a
  hwx1_4 : ∀ i : grid1.Coords, EltTy.bits .f32 = 32 ∨ (Rect.block (s := S32x16) S32x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x8.size a ≤ S16x8.size a
  hwx1_6 : ∀ i : grid1.Coords, EltTy.bits .f32 = 32 ∨ (Rect.block (s := S16x8) S16x8.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x8.size a ≤ S1x8.size a
  hwx1_7 : ∀ i : grid1.Coords, EltTy.bits .f32 = 32 ∨ (Rect.block (s := S1x8) S1x8.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S8x10.size a ≤ S8x10.size a
  hwx1_8 : ∀ i : grid1.Coords, EltTy.bits .f32 = 32 ∨ (Rect.block (s := S8x10) S8x10.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x10.size a ≤ S1x10.size a
  hwx1_9 : ∀ i : grid1.Coords, EltTy.bits .f32 = 32 ∨ (Rect.block (s := S1x10) S1x10.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x10.size a ≤ S100000x10.size a
  hwx1_10 : ∀ i : grid1.Coords, EltTy.bits .f32 = 32 ∨ (Rect.block (s := S100000x10) S5000x10.size (cc1_transform_10 i) (hinb1_10 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x100_S100x32_S5000x32_1_0_0_1_n_n : DotDims S5000x100 S100x32 S5000x32 where
  lhsContracting := [1]
  rhsContracting := [0]
  lhsNonContracting := [0]
  rhsNonContracting := [1]
  lhsBatch := []
  rhsBatch := []
  wf := dot_S5000x100_S100x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def dot_S5000x16_S16x8_S5000x8_1_0_0_1_n_n : DotDims S5000x16 S16x8 S5000x8 where
  lhsContracting := [1]
  rhsContracting := [0]
  lhsNonContracting := [0]
  rhsNonContracting := [1]
  lhsBatch := []
  rhsBatch := []
  wf := dot_S5000x16_S16x8_S5000x8_1_0_0_1_n_n_wf
def dot_S5000x8_S8x10_S5000x10_1_0_0_1_n_n : DotDims S5000x8 S8x10 S5000x10 where
  lhsContracting := [1]
  rhsContracting := [0]
  lhsNonContracting := [0]
  rhsNonContracting := [1]
  lhsBatch := []
  rhsBatch := []
  wf := dot_S5000x8_S8x10_S5000x10_1_0_0_1_n_n_wf

abbrev win0_0 : Pipeline.Window sig grid0 :=
  Pipeline.Window.ofSpec (Memref.whole main_arg0) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S100x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S5000x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S5000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v29) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14_0) S5000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S32x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S16x8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32) S1x8.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S8x10.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33) S1x10.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v34) S5000x10.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x100 : Shape := ⟨2, ![100000, 100]⟩
abbrev S2x1600000 : Shape := ⟨2, ![2, 1600000]⟩
abbrev S1600000 : Shape := ⟨1, ![1600000]⟩
abbrev S100x32 : Shape := ⟨2, ![100, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x10 : Shape := ⟨2, ![8, 10]⟩
abbrev S10 : Shape := ⟨1, ![10]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S1700000x32 : Shape := ⟨2, ![1700000, 32]⟩
abbrev S1x32 : Shape := ⟨2, ![1, 32]⟩
abbrev S100000x16 : Shape := ⟨2, ![100000, 16]⟩
abbrev S1x16 : Shape := ⟨2, ![1, 16]⟩
abbrev S100000x8 : Shape := ⟨2, ![100000, 8]⟩
abbrev S1x8 : Shape := ⟨2, ![1, 8]⟩
abbrev S100000x10 : Shape := ⟨2, ![100000, 10]⟩
abbrev S1x10 : Shape := ⟨2, ![1, 10]⟩
abbrev S100000x1 : Shape := ⟨2, ![100000, 1]⟩

abbrev nBuf : Space → Nat
  | .hbm => 103
  | .vmem => 0
  | .smem => 0
  | _ => 0

abbrev bufTy : (tb : Table) → Fin (tcTables nBuf tb) → BufTy
  | .hbm, ⟨0, _⟩ => ⟨S100000x100, .f32⟩
  | .hbm, ⟨1, _⟩ => ⟨S2x1600000, .i32⟩
  | .hbm, ⟨2, _⟩ => ⟨S1600000, .f32⟩
  | .hbm, ⟨3, _⟩ => ⟨S100x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S16x8, .f32⟩
  | .hbm, ⟨8, _⟩ => ⟨S8, .f32⟩
  | .hbm, ⟨9, _⟩ => ⟨S8x10, .f32⟩
  | .hbm, ⟨10, _⟩ => ⟨S10, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x32, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x32, .f32⟩
  | .hbm, ⟨57, _⟩ => ⟨S1700000x1, .f32⟩
  | .hbm, ⟨58, _⟩ => ⟨S1700000x32, .f32⟩
  | .hbm, ⟨59, _⟩ => ⟨S1700000x32, .f32⟩
  | .hbm, ⟨60, _⟩ => ⟨S_, .f32⟩
  | .hbm, ⟨61, _⟩ => ⟨S100000x32, .f32⟩
  | .hbm, ⟨62, _⟩ => ⟨S1700000x1, .i32⟩
  | .hbm, ⟨63, _⟩ => ⟨S100000x32, .f32⟩
  | .hbm, ⟨64, _⟩ => ⟨S1x32, .f32⟩
  | .hbm, ⟨65, _⟩ => ⟨S100000x32, .f32⟩
  | .hbm, ⟨66, _⟩ => ⟨S100000x32, .f32⟩
  | .hbm, ⟨67, _⟩ => ⟨S_, .f32⟩
  | .hbm, ⟨68, _⟩ => ⟨S100000x32, .f32⟩
  | .hbm, ⟨69, _⟩ => ⟨S100000x32, .f32⟩
  | .hbm, ⟨70, _⟩ => ⟨S100000x16, .f32⟩
  | .hbm, ⟨71, _⟩ => ⟨S1x16, .f32⟩
  | .hbm, ⟨72, _⟩ => ⟨S100000x16, .f32⟩
  | .hbm, ⟨73, _⟩ => ⟨S100000x16, .f32⟩
  | .hbm, ⟨74, _⟩ => ⟨S_, .f32⟩
  | .hbm, ⟨75, _⟩ => ⟨S100000x16, .f32⟩
  | .hbm, ⟨76, _⟩ => ⟨S100000x16, .f32⟩
  | .hbm, ⟨77, _⟩ => ⟨S100000x8, .f32⟩
  | .hbm, ⟨78, _⟩ => ⟨S1x8, .f32⟩
  | .hbm, ⟨79, _⟩ => ⟨S100000x8, .f32⟩
  | .hbm, ⟨80, _⟩ => ⟨S100000x8, .f32⟩
  | .hbm, ⟨81, _⟩ => ⟨S_, .f32⟩
  | .hbm, ⟨82, _⟩ => ⟨S100000x8, .f32⟩
  | .hbm, ⟨83, _⟩ => ⟨S100000x8, .f32⟩
  | .hbm, ⟨84, _⟩ => ⟨S100000x10, .f32⟩
  | .hbm, ⟨85, _⟩ => ⟨S1x10, .f32⟩
  | .hbm, ⟨86, _⟩ => ⟨S100000x10, .f32⟩
  | .hbm, ⟨87, _⟩ => ⟨S100000x10, .f32⟩
  | .hbm, ⟨88, _⟩ => ⟨S_, .f32⟩
  | .hbm, ⟨89, _⟩ => ⟨S100000, .f32⟩
  | .hbm, ⟨90, _⟩ => ⟨S_, .f32⟩
  | .hbm, ⟨91, _⟩ => ⟨S100000, .f32⟩
  | .hbm, ⟨92, _⟩ => ⟨S100000, .f32⟩
  | .hbm, ⟨93, _⟩ => ⟨S100000x1, .f32⟩
  | .hbm, ⟨94, _⟩ => ⟨S100000x10, .f32⟩
  | .hbm, ⟨95, _⟩ => ⟨S100000x10, .f32⟩
  | .hbm, ⟨96, _⟩ => ⟨S100000x10, .f32⟩
  | .hbm, ⟨97, _⟩ => ⟨S_, .f32⟩
  | .hbm, ⟨98, _⟩ => ⟨S100000, .f32⟩
  | .hbm, ⟨99, _⟩ => ⟨S100000x1, .f32⟩
  | .hbm, ⟨100, _⟩ => ⟨S100000x1, .f32⟩
  | .hbm, ⟨101, _⟩ => ⟨S100000x10, .f32⟩
  | .hbm, ⟨102, _⟩ => ⟨S100000x10, .f32⟩
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call2_cst : Ref sig .tc := ⟨.hbm, 81, rfl⟩
abbrev main_call2_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_call3_cst : Ref sig .tc := ⟨.hbm, 88, rfl⟩
abbrev main_call3_v0 : Ref sig .tc := ⟨.hbm, 89, rfl⟩
abbrev main_call3_cst_0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_v6 : Ref sig .tc := ⟨.hbm, 96, rfl⟩
abbrev main_call3_cst_1 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_v61 : Ref sig .tc := ⟨.hbm, 102, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S100000x8 : S_.BroadcastsInDim S100000x8 (![] : Fin 0 → Fin S100000x8.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x100_S100x32_S100000x32_1_0_0_1_n_n_wf : DotDims.WF S100000x100 S100x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x16_S100000x16_1_0_0_1_n_n_wf : DotDims.WF S100000x32 S32x16 S100000x16 [1] [0] [0] [1] [] []
  dot_S100000x16_S16x8_S100000x8_1_0_0_1_n_n_wf : DotDims.WF S100000x16 S16x8 S100000x8 [1] [0] [0] [1] [] []
  dot_S100000x8_S8x10_S100000x10_1_0_0_1_n_n_wf : DotDims.WF S100000x8 S8x10 S100000x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x100_S100x32_S100000x32_1_0_0_1_n_n : DotDims S100000x100 S100x32 S100000x32 where
  lhsContracting := [1]
  rhsContracting := [0]
  lhsNonContracting := [0]
  rhsNonContracting := [1]
  lhsBatch := []
  rhsBatch := []
  wf := dot_S100000x100_S100x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def dot_S100000x8_S8x10_S100000x10_1_0_0_1_n_n : DotDims S100000x8 S8x10 S100000x10 where
  lhsContracting := [1]
  rhsContracting := [0]
  lhsNonContracting := [0]
  rhsNonContracting := [1]
  lhsBatch := []
  rhsBatch := []
  wf := dot_S100000x8_S8x10_S100000x10_1_0_0_1_n_n_wf

class Facts : Prop extends Facts₀ where

variable [Facts]
-- ==== Proof.LibTypedRefs.lean ====
/- Typed references of module-local functions: carrying a value to its buffer's type and back.
   An operation of a called function reads its operands' buffers through the value's type and writes its result back
   through it (a transport along the equation "the buffer's type is the value's type", in each direction). Whatever the
   equation's proof, the two transports undo each other. With these two facts a run read through several such
   operations loses its transports by rewriting, without the type equations ever being evaluated. Any signature, any
   values. -/
import Idealize.ShloMosaic.Lib.StableHlo

namespace Cert.Lib.TypedRefs

open Idealize.ShloMosaic Idealize.ShloMosaic.StableHlo

variable {sig : RefSig} {Val : EltTy → Type} {T : BufTy}

/-- To the buffer's type and back: the value. -/
theorem ofBuf_toBuf (x : TRef sig T) (v : T.Contents Val) : x.ofBuf (x.toBuf v) = v := by
  obtain ⟨r, h, hd, hu⟩ := x
  subst h
  rfl

/-- To the value's type and back: the buffer's contents. -/
theorem toBuf_ofBuf (x : TRef sig T) (v : x.ref.ty.Contents Val) : x.toBuf (x.ofBuf v) = v := by
  obtain ⟨r, h, hd, hu⟩ := x
  subst h
  rfl

end Cert.Lib.TypedRefs
-- ==== Proof.KRun.lean ====
/-
  The idealized kernel's run with its result named. The program is four stretches: host operations, the projection
  region, host operations (the gather and the scatter-add), the head region. Every weakly fair execution ends with every
  unscoped buffer at the contents the last boundary names; read at the result buffer this says what the program
  returns, and read at an argument it says the argument is unchanged.
-/
import proofs.«175213_j3616362463494_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result buffer ends at the last boundary's contents and the eleven
    arguments end as launched. -/
theorem run_result : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.ValueRun

end
-- ==== Proof.Spec.lean ====
/-
  The function both programs compute, written once over explicit coordinates.

  A graph of 100000 nodes and 1600000 directed edges is given by an integer array of two rows (sources, targets). Every
  node also has a self-loop. With deg v the number of edges landing on v plus one and dinv v = (max (deg v) eps)^(-1/2),
  the normalised aggregate of the projected features h = x · W at node v and channel c is

        sum over the edges e landing on v and the self-loop of   h (source e) c · (dinv (source e) · dinv (target e)).

  One program computes this sum literally over the 1700000 rows "edges, then self-loops" (`aggR`); the other pulls the
  target's factor dinv v out of the edge sum and adds the self-loop's term h v c · (dinv v · dinv v) separately (`aggK`).
  Where every entry is a real number these agree by distributivity. The aggregate then passes through the same head on
  both sides: a bias and a rectifier, three dense layers (two rectified), and a logarithmic softmax over the ten classes
  (`headRow`). Rows are named by 32-bit words: a word used to READ a row is first normalised (a negative word has the
  extent added) and then clamped into range; a word used to ADD INTO a row is used as it is and dropped when out of range.
-/
import Idealize.ShloMosaic.Lib.ValueIdx
import Idealize.ShloMosaic.PureOps.Ideal

noncomputable section

open scoped BigOperators

namespace Cert.Gcn

open Idealize.ShloMosaic Idealize.ShloMosaic.ValueIdx

/-! ## The four constants, as the extended reals their patterns denote -/

abbrev zero : EReal := Ideal.ofBits .f32 0x00000000#32
abbrev one : EReal := Ideal.ofBits .f32 0x3F800000#32
abbrev eps : EReal := Ideal.ofBits .f32 0x2B8CBCCC#32
abbrev ninf : EReal := Ideal.ofBits .f32 0xFF800000#32

/-! ## Rows named by words -/

/-- The row a word names when it is read: signed, clamped into [0, n - 1]. -/
def clampPos (n : Nat) (hn : 0 < n) (w : BitVec 32) : Fin n := ⟨min w.toInt.toNat (n - 1), by omega⟩

/-- The row a word names when something is added into it: signed, and no row at all outside [0, n). -/
def landOf (n : Nat) (w : BitVec 32) : Option (Fin n) :=
  if h : 0 ≤ w.toInt ∧ w.toInt < (n : Int) then some ⟨w.toInt.toNat, by omega⟩ else none

/-- A negative word has the number of nodes added before it is used to read a row. -/
def norm (w : BitVec 32) : BitVec 32 := Scalar.select (IntOp.cmpi .slt w 0#32) (IntOp.addi w 100000#32) w

theorem nodes_pos : 0 < 100000 := by decide

variable (ei : (⟨2, ![2, 1600000]⟩ : Shape).Idx → BitVec 32)

/-- Edge e's source word and target word. -/
def srcW (e : Fin 1600000) : BitVec 32 := ei (ix2 (0 : Fin 2) e)
def dstW (e : Fin 1600000) : BitVec 32 := ei (ix2 (1 : Fin 2) e)

/-- The node edge e reads its features from, and the node it adds into (if any). -/
def sp (e : Fin 1600000) : Fin 100000 := clampPos 100000 nodes_pos (norm (srcW ei e))
def lp (e : Fin 1600000) : Option (Fin 100000) := landOf 100000 (dstW ei e)

/-- Row r of the edge array followed by the node numbers 0 … 99999: the 1700000 words "edges, then self-loops". -/
def catW (r : Fin 2) (e : Fin 1700000) : BitVec 32 :=
  if h : e.val < 1600000 then ei (ix2 r ⟨e.val, h⟩) else BitVec.ofNat 32 (e.val - 1600000)

/-- For the joined list: where row e reads its features, where it reads the target's factor, and where it adds. -/
def spR (e : Fin 1700000) : Fin 100000 := clampPos 100000 nodes_pos (norm (catW ei 0 e))
def dpR (e : Fin 1700000) : Fin 100000 := clampPos 100000 nodes_pos (norm (catW ei 1 e))
def lpR (e : Fin 1700000) : Option (Fin 100000) := landOf 100000 (catW ei 1 e)

/-! ## Degrees and their inverse square roots -/

/-- (max d eps)^(-1/2). -/
def dinvOf (d : EReal) : EReal := Ideal.rsqrt (max d eps)

/-- The degree counted over the edges, the self-loop's one added afterwards. -/
def degK (v : Fin 100000) : EReal := (zero + ∑ e ∈ Finset.univ.filter (fun e : Fin 1600000 => lp ei e = some v), one) + one
def dinvK (v : Fin 100000) : EReal := dinvOf (degK ei v)

/-- The degree counted over the joined list. -/
def degR (v : Fin 100000) : EReal := zero + ∑ e ∈ Finset.univ.filter (fun e : Fin 1700000 => lpR ei e = some v), one
def dinvR (v : Fin 100000) : EReal := dinvOf (degR ei v)

/-! ## The projection and the two spellings of the aggregate -/

variable (x : (⟨2, ![100000, 100]⟩ : Shape).Idx → EReal) (wc : (⟨2, ![100, 32]⟩ : Shape).Idx → EReal)

/-- h = x · W at (v, c). -/
def hlin (v : Fin 100000) (c : Fin 32) : EReal := ∑ k : Fin 100, x (ix2 v k) * wc (ix2 k c)

/-- The target's factor pulled out of the edge sum, the self-loop's term added separately. -/
def aggK (v : Fin 100000) (c : Fin 32) : EReal :=
  dinvK ei v * (zero + ∑ e ∈ Finset.univ.filter (fun e : Fin 1600000 => lp ei e = some v), hlin x wc (sp ei e) c * dinvK ei (sp ei e))
    + hlin x wc v c * (dinvK ei v * dinvK ei v)

/-- The literal sum over the joined list. -/
def aggR (v : Fin 100000) (c : Fin 32) : EReal :=
  zero + ∑ e ∈ Finset.univ.filter (fun e : Fin 1700000 => lpR ei e = some v),
    hlin x wc (spR ei e) c * (dinvR ei (spR ei e) * dinvR ei (dpR ei e))

/-! ## The head: bias and rectifier, three dense layers, logarithmic softmax -/

def relu (a : EReal) : EReal := max a zero

/-- One dense layer's affine map at output q: the sum over k of z k · w (k, q), plus b q. -/
def affine {K D : Nat} (z : Fin K → EReal) (w : (⟨2, ![K, D]⟩ : Shape).Idx → EReal) (b : Fin D → EReal) (q : Fin D) : EReal :=
  (∑ k : Fin K, z k * w (ix2 k q)) + b q

/-- The ten logits of one node from its aggregate row a. -/
def logits (a : Fin 32 → EReal) (bc : Fin 32 → EReal) (w1 : (⟨2, ![32, 16]⟩ : Shape).Idx → EReal) (b1 : Fin 16 → EReal)
    (w2 : (⟨2, ![16, 8]⟩ : Shape).Idx → EReal) (b2 : Fin 8 → EReal) (w3 : (⟨2, ![8, 10]⟩ : Shape).Idx → EReal) (b3 : Fin 10 → EReal)
    (q : Fin 10) : EReal :=
  affine (fun k => relu (affine (fun j => relu (affine (fun c => relu (a c + bc c)) w1 b1 j)) w2 b2 k)) w3 b3 q

/-- log softmax of ten logits, shifted by their maximum (the maximum folded from minus infinity). -/
def logSoftmax (z : Fin 10 → EReal) (q : Fin 10) : EReal :=
  (z q - (Finset.univ : Finset (Fin 10)).fold max ninf z)
    - Ideal.log (∑ q' : Fin 10, Ideal.exp (z q' - (Finset.univ : Finset (Fin 10)).fold max ninf z))

def headRow (a : Fin 32 → EReal) (bc : Fin 32 → EReal) (w1 : (⟨2, ![32, 16]⟩ : Shape).Idx → EReal) (b1 : Fin 16 → EReal)
    (w2 : (⟨2, ![16, 8]⟩ : Shape).Idx → EReal) (b2 : Fin 8 → EReal) (w3 : (⟨2, ![8, 10]⟩ : Shape).Idx → EReal) (b3 : Fin 10 → EReal)
    (q : Fin 10) : EReal :=
  logSoftmax (logits a bc w1 b1 w2 b2 w3 b3) q

end Cert.Gcn

end
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.LibKeepdims.lean ====
/-
  A reduction along the last axis of an `[a, b]` array that keeps its dimension (`keepdims=True`): the `[a]` result is
  re-laid as a column `[a, 1]` and the column is spread back over the `b` lanes of every row. Read at an index, the
  column at `(i, u)` is the vector at `i`, the spread column at `(p, c)` is the column at `(p, 0)`, and the source
  index that a one-axis reduction along axis 1 visits for row `p` and coordinate `k` is `(p, k)`. Stated for any
  extents `a`, `b` and any element type.
-/
import Idealize.ShloMosaic.Lib.Pipeline.Value
import Idealize.ShloMosaic.Lib.ValueIdx
import Idealize.ShloMosaic.PureOps.Reduce

namespace Cert.Lib.Keepdims

open Idealize.ShloMosaic Idealize.ShloMosaic.ValueIdx

variable {α : Type}

/-- An `[a]` vector cast to the column `[a, 1]` reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector re-laid as a column and spread over the lanes reads, at `(p, c)`, the vector at `p`. -/
theorem column_spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A one-axis reduction of `[a, b]` along axis 1 visits, for row `p` and coordinate `k` of the reduced axis, the
    source index `(p, k)`. -/
theorem lift_axis1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Cert.Lib.Keepdims
-- ==== Proof.Payload0.lean ====
/-
  The first kernel body's arithmetic, read at one entry.

  The body forms the product of a [5000, 100] block of features with the [100, 32] weights into a zero accumulator, and
  that product times a [5000, 1] column spread over the 32 lanes. At the ideal values a change of format is the identity
  and the product at (p, c) is the plain sum over the contracted coordinate k of x (p, k) · w (k, c); the column spread
  over the lanes reads, at (p, c), the column's entry of row p.
-/
import proofs.«175213_j3616362463494_2_alg».proof.Proof.Gen.KernelIdeal.Skeleton
import proofs.«175213_j3616362463494_2_alg».proof.Proof.Spec
import proofs.«175213_j3616362463494_2_alg».proof.Proof.LibMlpAt
import proofs.«175213_j3616362463494_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gcn.Payload

open Cert.KernelIdeal Cert.KernelIdeal.Gen Idealize.ShloMosaic Idealize.ShloMosaic.ValueIdx

/-! ## Body 0 -/

/-- The projected features at (p, c): the sum over k of x (p, k) · w (k, c). -/
theorem pay_h_at (v0 : Vec Ideal S5000x100 .f32) (v2 : Vec Ideal S100x32 .f32) (p : Fin 5000) (c : Fin 32) :
    k0_pay1 (F := Ideal) v0 v2 (ix2 p c) = ∑ k : Fin 100, v0 (ix2 p k) * v2 (ix2 k c) := by
  unfold k0_pay1
  refine (Cert.Mlp.matmul_zero_at dot_S5000x100_S100x32_S5000x32_1_0_0_1_n_n_wf none _ _ p c).trans ?_
  refine Finset.sum_congr rfl fun k _ => ?_
  rw [truncf_apply, truncf_apply]

/-- The projected features scaled by the row's factor: the same sum times the column's entry of row p. -/
theorem pay_hs_at (v0 : Vec Ideal S5000x100 .f32) (v2 : Vec Ideal S100x32 .f32) (v6 : Vec Ideal S5000x1 .f32) (p : Fin 5000) (c : Fin 32) :
    k0_pay2 (F := Ideal) v0 v2 v6 (ix2 p c) = (∑ k : Fin 100, v0 (ix2 p k) * v2 (ix2 k c)) * v6 (ix2 p (0 : Fin 1)) := by
  unfold k0_pay2
  rw [truncf_apply, mulf_apply, pay_h_at, Cert.Lib.Keepdims.broadcastTo_a1_ab_apply, shapeCast_self]

end Cert.Gcn.Payload

end
-- ==== Proof.KRegion0.lean ====
/-
  The projection region: what its two output arrays hold when it ends, as whole-array functions of the arrays it finds.
  The grid has 20 points; point t reads rows 5000·t … 5000·t + 4999 of the features and of the inverse-square-root
  column, reads the whole weight matrix, and writes the same rows of the two outputs: the product h = x · W, and h with
  row r scaled by the column's entry r. The 20 blocks tile the 100000 rows, so each output array ends as one function.
-/
import proofs.«175213_j3616362463494_2_alg».proof.Proof.Gen.KernelIdeal.Frame
import proofs.«175213_j3616362463494_2_alg».proof.Proof.Payload0
import proofs.«175213_j3616362463494_2_alg».proof.Proof.Spec
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row p of point t's block is row 5000·t + p of the array. -/
def row (t : Fin 20) (p : Fin 5000) : Fin 100000 := ⟨t.val * 5000 + p.val, by have := t.isLt; have := p.isLt; omega⟩

/-- The printed index maps over the grid: the row-blocked windows are at block (t, 0), the weights at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Where each window's block sits in its array. -/
theorem emb0 (t : Fin cfg0.N) (p : Fin 5000) (k : Fin 100) :
    ((cfg0.win 0).blk t).view.emb (ix2 p k) = ix2 (row t p) k := by
  obtain ⟨e0, e1, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 100 + 1 * k.val = k.val; omega

theorem emb1 (t : Fin cfg0.N) (k : Fin 100) (q : Fin 32) :
    ((cfg0.win 1).blk t).view.emb (ix2 k q) = ix2 k q := by
  obtain ⟨-, -, e0, e1, -⟩ := idx_facts t
  funext a; apply Fin.ext
  match a with
  | ⟨0, _⟩ => show win0_1.index t (0 : Fin 2) * 100 + 1 * k.val = k.val; omega
  | ⟨1, _⟩ => show win0_1.index t (1 : Fin 2) * 32 + 1 * q.val = q.val; omega

theorem emb2 (t : Fin cfg0.N) (p : Fin 5000) (u : Fin 1) :
    ((cfg0.win 2).blk t).view.emb (ix2 p u) = ix2 (row t p) u := by
  obtain ⟨-, -, -, -, e0, e1, -⟩ := idx_facts t
  funext a; apply Fin.ext
  match a with
  | ⟨0, _⟩ => show win0_2.index t (0 : Fin 2) * 5000 + 1 * p.val = t.val * 5000 + p.val; omega
  | ⟨1, _⟩ => show win0_2.index t (1 : Fin 2) * 1 + 1 * u.val = u.val; omega

theorem emb3 (t : Fin cfg0.N) (p : Fin 5000) (q : Fin 32) :
    ((cfg0.win 3).blk t).view.emb (ix2 p q) = ix2 (row t p) q := by
  obtain ⟨-, -, -, -, -, -, e0, e1, -⟩ := idx_facts t
  funext a; apply Fin.ext
  match a with
  | ⟨0, _⟩ => show win0_3.index t (0 : Fin 2) * 5000 + 1 * p.val = t.val * 5000 + p.val; omega
  | ⟨1, _⟩ => show win0_3.index t (1 : Fin 2) * 32 + 1 * q.val = q.val; omega

theorem emb4 (t : Fin cfg0.N) (p : Fin 5000) (q : Fin 32) :
    ((cfg0.win 4).blk t).view.emb (ix2 p q) = ix2 (row t p) q := by
  obtain ⟨-, -, -, -, -, -, -, -, e0, e1⟩ := idx_facts t
  funext a; apply Fin.ext
  match a with
  | ⟨0, _⟩ => show win0_4.index t (0 : Fin 2) * 5000 + 1 * p.val = t.val * 5000 + p.val; omega
  | ⟨1, _⟩ => show win0_4.index t (1 : Fin 2) * 32 + 1 * q.val = q.val; omega

/-! ## The two whole-array functions -/

/-- h = x · W. -/
def hArr (x : S100000x100.Idx → EReal) (w : S100x32.Idx → EReal) : S100000x32.Idx → EReal :=
  fun i => Cert.Gcn.hlin x w (i 0) (i 1)

/-- h with each row scaled by the column's entry of that row. -/
def hsArr (x : S100000x100.Idx → EReal) (w : S100x32.Idx → EReal) (d : S100000x1.Idx → EReal) : S100000x32.Idx → EReal :=
  fun i => Cert.Gcn.hlin x w (i 0) (i 1) * d (ix2 (i 0) (0 : Fin 1))

/-! ## What a point writes back is its block of the whole-array function -/

/-- A block of rows times the whole weight matrix, read at (p, q), is h at the block's row: stated over plain arrays. -/
theorem hsum_of (X : S100000x100.Idx → EReal) (Wt : S100x32.Idx → EReal) (bx : S5000x100.Idx → EReal) (bw : S100x32.Idx → EReal)
    (r : Fin 100000) (p : Fin 5000) (q : Fin 32) (hx : ∀ k : Fin 100, bx (ix2 p k) = X (ix2 r k))
    (hw : ∀ k : Fin 100, bw (ix2 k q) = Wt (ix2 k q)) :
    (∑ k : Fin 100, bx (ix2 p k) * bw (ix2 k q)) = Cert.Gcn.hlin X Wt r q := by
  unfold Cert.Gcn.hlin
  exact Finset.sum_congr rfl fun k _ => by rw [hx k, hw k]

/-- The same product scaled by the block's column entry. -/
theorem hssum_of (X : S100000x100.Idx → EReal) (Wt : S100x32.Idx → EReal) (D : S100000x1.Idx → EReal) (bx : S5000x100.Idx → EReal)
    (bw : S100x32.Idx → EReal) (bd : S5000x1.Idx → EReal) (r : Fin 100000) (p : Fin 5000) (q : Fin 32)
    (hx : ∀ k : Fin 100, bx (ix2 p k) = X (ix2 r k)) (hw : ∀ k : Fin 100, bw (ix2 k q) = Wt (ix2 k q))
    (hd : bd (ix2 p (0 : Fin 1)) = D (ix2 r (0 : Fin 1))) :
    (∑ k : Fin 100, bx (ix2 p k) * bw (ix2 k q)) * bd (ix2 p (0 : Fin 1)) = Cert.Gcn.hlin X Wt r q * D (ix2 r (0 : Fin 1)) := by
  rw [hd, hsum_of X Wt bx bw r p q hx hw]

/-- Point t's blocks are the rows 5000·t … of the arrays the region finds. -/
theorem blk0_at (c : Dev nD) (t : Fin cfg0.N) (p : Fin 5000) (k : Fin 100) :
    iblk0 V c 0 t (ix2 p k) = V c main_arg0 (ix2 (row t p) k) := by
  show V c main_arg0 (((cfg0.win 0).blk t).view.emb (ix2 p k)) = _
  rw [emb0 t p k]
theorem blk1_at (c : Dev nD) (t : Fin cfg0.N) (k : Fin 100) (q : Fin 32) :
    iblk0 V c 1 t (ix2 k q) = V c main_arg3 (ix2 k q) := by
  show V c main_arg3 (((cfg0.win 1).blk t).view.emb (ix2 k q)) = _
  rw [emb1 t k q]
theorem blk2_at (c : Dev nD) (t : Fin cfg0.N) (p : Fin 5000) :
    iblk0 V c 2 t (ix2 p (0 : Fin 1)) = V c main_v13 (ix2 (row t p) (0 : Fin 1)) := by
  show V c main_v13 (((cfg0.win 2).blk t).view.emb (ix2 p (0 : Fin 1))) = _
  rw [emb2 t p 0]

theorem flushed3_eq (c : Dev nD) (t : Fin cfg0.N) :
    (dat0 V c).flushed 3 t = ((cfg0.win 3).blk t).view.read (Elt Ideal) (hArr (V c main_arg0) (V c main_arg3)) := by
  show (cfg0.win 3).cut (grid0.coords t) ((dat0 V c).after 3 t) = _
  rw [after0_3]
  unfold out0_3
  rw [View.canon_unit_zero hz]
  simp only [View.ld_unit_zero (S := S5000x100) hz, View.ld_unit_zero (S := S100x32) hz]
  funext j
  obtain ⟨p, q, rfl⟩ : ∃ (p : Fin 5000) (q : Fin 32), j = ix2 p q := ⟨j 0, j 1, eq_ix2 j⟩
  refine (Cert.Gcn.Payload.pay_h_at (iblk0 V c 0 t) (iblk0 V c 1 t) p q).trans ?_
  show _ = hArr (V c main_arg0) (V c main_arg3) (((cfg0.win 3).blk t).view.emb (ix2 p q))
  rw [emb3 t p q]
  exact hsum_of (V c main_arg0) (V c main_arg3) (iblk0 V c 0 t) (iblk0 V c 1 t) (row t p) p q
    (fun k => blk0_at V c t p k) (fun k => blk1_at V c t k q)

theorem flushed4_eq (c : Dev nD) (t : Fin cfg0.N) :
    (dat0 V c).flushed 4 t
      = ((cfg0.win 4).blk t).view.read (Elt Ideal) (hsArr (V c main_arg0) (V c main_arg3) (V c main_v13)) := by
  show (cfg0.win 4).cut (grid0.coords t) ((dat0 V c).after 4 t) = _
  rw [after0_4]
  unfold out0_4
  rw [View.canon_unit_zero hz]
  simp only [View.ld_unit_zero (S := S5000x100) hz, View.ld_unit_zero (S := S100x32) hz, View.ld_unit_zero (S := S5000x1) hz]
  funext j
  obtain ⟨p, q, rfl⟩ : ∃ (p : Fin 5000) (q : Fin 32), j = ix2 p q := ⟨j 0, j 1, eq_ix2 j⟩
  refine (Cert.Gcn.Payload.pay_hs_at (iblk0 V c 0 t) (iblk0 V c 1 t) (iblk0 V c 2 t) p q).trans ?_
  show _ = hsArr (V c main_arg0) (V c main_arg3) (V c main_v13) (((cfg0.win 4).blk t).view.emb (ix2 p q))
  rw [emb4 t p q]
  exact hssum_of (V c main_arg0) (V c main_arg3) (V c main_v13) (iblk0 V c 0 t) (iblk0 V c 1 t) (iblk0 V c 2 t) (row t p) p q
    (fun k => blk0_at V c t p k) (fun k => blk1_at V c t k q) (blk2_at V c t p)

/-! ## The blocks tile the rows -/

theorem mem_blk3 (t : Fin cfg0.N) (i : S100000x32.Idx) :
    i ∈ ((cfg0.win 3).blk t).view.set ↔ ∀ a : Fin 2, win0_3.index t a * S5000x32.size a ≤ (i a).val ∧ (i a).val < win0_3.index t a * S5000x32.size a + S5000x32.size a := by
  show i ∈ ((View.whole main_v14_0).slice (win0_3.rect t)).set ↔ _
  rw [View.set_slice_whole, Rect.mem_set_unit]
  exact Iff.rfl

theorem mem_blk4 (t : Fin cfg0.N) (i : S100000x32.Idx) :
    i ∈ ((cfg0.win 4).blk t).view.set ↔ ∀ a : Fin 2, win0_4.index t a * S5000x32.size a ≤ (i a).val ∧ (i a).val < win0_4.index t a * S5000x32.size a + S5000x32.size a := by
  show i ∈ ((View.whole main_v14_1).slice (win0_4.rect t)).set ↔ _
  rw [View.set_slice_whole, Rect.mem_set_unit]
  exact Iff.rfl

theorem cover3 (i : S100000x32.Idx) : ∃ t : Fin cfg0.N, (cfg0.win 3).flush t = true ∧ i ∈ ((cfg0.win 3).blk t).view.set := by
  have hi0 : (i 0).val < 100000 := (i 0).isLt
  have hi1 : (i 1).val < 32 := (i 1).isLt
  refine ⟨⟨(i 0).val / 5000, by show (i 0).val / 5000 < 20; omega⟩, flush0_3 _, ?_⟩
  rw [mem_blk3]
  obtain ⟨-, -, -, -, -, -, e0, e1, -⟩ := idx_facts ⟨(i 0).val / 5000, by show (i 0).val / 5000 < 20; omega⟩
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 32 ≤ (i 1).val ∧ (i 1).val < win0_3.index _ (1 : Fin 2) * 32 + 32
    rw [e1]; omega

theorem cover4 (i : S100000x32.Idx) : ∃ t : Fin cfg0.N, (cfg0.win 4).flush t = true ∧ i ∈ ((cfg0.win 4).blk t).view.set := by
  have hi0 : (i 0).val < 100000 := (i 0).isLt
  have hi1 : (i 1).val < 32 := (i 1).isLt
  refine ⟨⟨(i 0).val / 5000, by show (i 0).val / 5000 < 20; omega⟩, flush0_4 _, ?_⟩
  rw [mem_blk4]
  obtain ⟨-, -, -, -, -, -, -, -, e0, e1⟩ := idx_facts ⟨(i 0).val / 5000, by show (i 0).val / 5000 < 20; omega⟩
  intro a
  match a with
  | ⟨0, _⟩ =>
    show win0_4.index _ (0 : Fin 2) * 5000 ≤ (i 0).val ∧ (i 0).val < win0_4.index _ (0 : Fin 2) * 5000 + 5000
    rw [e0]; show (i 0).val / 5000 * 5000 ≤ (i 0).val ∧ (i 0).val < (i 0).val / 5000 * 5000 + 5000; omega
  | ⟨1, _⟩ =>
    show win0_4.index _ (1 : Fin 2) * 32 ≤ (i 1).val ∧ (i 1).val < win0_4.index _ (1 : Fin 2) * 32 + 32
    rw [e1]; omega

/-! ## The arrays when the region ends -/

theorem final3 (c : Dev nD) : (dat0 V c).arrAt 3 cfg0.N = hArr (V c main_arg0) (V c main_arg3) :=
  (dat0 V c).arrAt_eq_of_cover 3 _ (fun t _ => flushed3_eq V c t) cover3

theorem final4 (c : Dev nD) : (dat0 V c).arrAt 4 cfg0.N = hsArr (V c main_arg0) (V c main_arg3) (V c main_v13) :=
  (dat0 V c).arrAt_eq_of_cover 4 _ (fun t _ => flushed4_eq V c t) cover4

end Cert.KernelIdeal.Region0

end
-- ==== Proof.Payload1.lean ====
/-
  The second kernel body's arithmetic, read at one entry.

  The body combines three blocks into the aggregate row  d · s + h · (d · d)  (d a [5000, 1] column spread over the 32
  lanes), adds a one-row bias and rectifies, passes the row through three dense layers (each a product into a zero
  accumulator plus a one-row bias spread over the rows, the first two rectified), and takes the logarithmic softmax over
  the ten lanes: the row's maximum folded from minus infinity, the logits shifted by it, the sum of their exponentials
  from zero, and that sum's logarithm subtracted. At the ideal values a change of format is the identity, each product at
  (p, q) is the plain sum over the contracted coordinate, a reduction along the lanes of row p visits the entries (p, k),
  and a column spread over the lanes reads the column's entry of row p. So the stored value at (p, q) is the
  specification's head applied to the aggregate row of row p; nothing here needs the entries to be finite.
-/
import proofs.«175213_j3616362463494_2_alg».proof.Proof.Gen.KernelIdeal.Skeleton
import proofs.«175213_j3616362463494_2_alg».proof.Proof.Spec
import proofs.«175213_j3616362463494_2_alg».proof.Proof.LibMlpAt
import proofs.«175213_j3616362463494_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gcn.Payload

open Cert.KernelIdeal Cert.KernelIdeal.Gen Idealize.ShloMosaic Idealize.ShloMosaic.ValueIdx

/-! ## Body 1: the pieces -/

/-- The exponential at an index is the exponential of the element. -/
theorem exp_at {s : Shape} {φ : FTy} (a : FVec Ideal s φ) (i : s.Idx) : exp a i = Ideal.exp (a i) := rfl

/-- The logarithm at an index is the logarithm of the element. -/
theorem log_at {s : Shape} {φ : FTy} (a : FVec Ideal s φ) (i : s.Idx) : log a i = Ideal.log (a i) := rfl

/-- The maximum along the ten lanes of row p, folded from minus infinity. -/
theorem rowMax_at (z : FVec Ideal S5000x10 .f32) (p : Fin 5000) :
    multiReduction .maximumf [1] S5000 z 0xFF800000#32 reduces_S5000x10_S5000 (.inl rfl) rfl (ix1 p)
      = (Finset.univ : Finset (Fin 10)).fold max Cert.Gcn.ninf (fun k => z (ix2 p k)) := by
  refine (Ideal.multiReduction_maximumf_single z _ reduces_S5000x10_S5000 _ _ (ix1 p)).trans ?_
  show (Finset.univ : Finset (Fin 10)).fold max (Ideal.ofBits .f32 0xFF800000#32) (z ∘ reduces_S5000x10_S5000.lift (ix1 p)) = _
  refine congrArg (fun f => (Finset.univ : Finset (Fin 10)).fold max Cert.Gcn.ninf f) (funext fun k => ?_)
  exact congrArg z (Cert.Lib.Keepdims.lift_axis1 _ p k)

/-- The sum along the ten lanes of row p. -/
theorem rowSum_at (z : FVec Ideal S5000x10 .f32) (p : Fin 5000) :
    multiReduction .add [1] S5000 z 0x00000000#32 reduces_S5000x10_S5000 (.inl rfl) rfl (ix1 p)
      = ∑ k : Fin 10, z (ix2 p k) := by
  refine (Ideal.multiReduction_add_single z _ reduces_S5000x10_S5000 _ _ (ix1 p)).trans ?_
  show ∑ k : Fin 10, z (reduces_S5000x10_S5000.lift (ix1 p) k) = _
  refine Finset.sum_congr rfl fun k _ => ?_
  exact congrArg z (Cert.Lib.Keepdims.lift_axis1 _ p k)

/-- One dense layer: the product into zeros plus the one-row bias spread over the rows is the affine map of row p. -/
theorem dense_at {N K D : Nat} (w : DotDims.WF ⟨2, ![N, K]⟩ ⟨2, ![K, D]⟩ ⟨2, ![N, D]⟩ [1] [0] [0] [1] [] [])
    (hb : (⟨2, ![1, D]⟩ : Shape).Broadcasts ⟨2, ![N, D]⟩) (hc : (⟨2, ![1, D]⟩ : Shape).ShapeCasts ⟨2, ![1, D]⟩)
    (hlt : FTy.bf16.bits < FTy.f32.bits)
    (x : FVec Ideal ⟨2, ![N, K]⟩ .f32) (wa : FVec Ideal ⟨2, ![K, D]⟩ .f32) (ba : FVec Ideal ⟨2, ![1, D]⟩ .f32) (p : Fin N) (q : Fin D) :
    addf (matmul (Cert.Mlp.D2 w) none (truncf .bf16 x hlt) (truncf .bf16 wa hlt) (constant ⟨2, ![N, D]⟩ .f32 0x00000000#32))
        (broadcastTo ⟨2, ![N, D]⟩ (shapeCast ⟨2, ![1, D]⟩ ba hc) hb) (ix2 p q)
      = Cert.Gcn.affine (fun k => x (ix2 p k)) wa (fun q' => ba (ix2 (0 : Fin 1) q')) q := by
  unfold Cert.Gcn.affine
  rw [addf_apply, Cert.Mlp.matmul_zero_at, broadcastTo_1b_ab_apply, shapeCast_self]
  refine congrArg (fun t => t + ba (ix2 (0 : Fin 1) q)) ?_
  refine Finset.sum_congr rfl fun k _ => ?_
  rw [truncf_apply, truncf_apply]

/-- A rectified dense layer. -/
theorem relu_dense_at {N K D : Nat} (w : DotDims.WF ⟨2, ![N, K]⟩ ⟨2, ![K, D]⟩ ⟨2, ![N, D]⟩ [1] [0] [0] [1] [] [])
    (hb : (⟨2, ![1, D]⟩ : Shape).Broadcasts ⟨2, ![N, D]⟩) (hc : (⟨2, ![1, D]⟩ : Shape).ShapeCasts ⟨2, ![1, D]⟩)
    (hlt : FTy.bf16.bits < FTy.f32.bits)
    (x : FVec Ideal ⟨2, ![N, K]⟩ .f32) (wa : FVec Ideal ⟨2, ![K, D]⟩ .f32) (ba : FVec Ideal ⟨2, ![1, D]⟩ .f32) (p : Fin N) (q : Fin D) :
    maximumf (addf (matmul (Cert.Mlp.D2 w) none (truncf .bf16 x hlt) (truncf .bf16 wa hlt) (constant ⟨2, ![N, D]⟩ .f32 0x00000000#32))
        (broadcastTo ⟨2, ![N, D]⟩ (shapeCast ⟨2, ![1, D]⟩ ba hc) hb))
        (broadcast ⟨2, ![N, D]⟩ (Scalar.ofBits (F := Ideal) .f32 0x00000000#32)) (ix2 p q)
      = Cert.Gcn.relu (Cert.Gcn.affine (fun k => x (ix2 p k)) wa (fun q' => ba (ix2 (0 : Fin 1) q')) q) := by
  rw [maximumf_apply, broadcast_apply, dense_at]
  rfl

/-- The logits shifted by the row's maximum. -/
theorem shift_at (z : FVec Ideal S5000x10 .f32) (p : Fin 5000) (q : Fin 10) :
    subf z (broadcastTo S5000x10 (shapeCast S5000x1
        (multiReduction .maximumf [1] S5000 z 0xFF800000#32 reduces_S5000x10_S5000 (.inl rfl) rfl) shapeCasts_S5000_S5000x1)
        broadcasts_S5000x1_S5000x10) (ix2 p q)
      = z (ix2 p q) - (Finset.univ : Finset (Fin 10)).fold max Cert.Gcn.ninf (fun k => z (ix2 p k)) := by
  rw [subf_apply, Cert.Lib.Keepdims.column_spread_apply, rowMax_at]

/-- The shifted logits minus the logarithm of the sum of their exponentials. -/
theorem tail_at (y : FVec Ideal S5000x10 .f32) (p : Fin 5000) (q : Fin 10) :
    subf y (broadcastTo S5000x10 (log (shapeCast S5000x1
        (multiReduction .add [1] S5000 (exp y) 0x00000000#32 reduces_S5000x10_S5000 (.inl rfl) rfl) shapeCasts_S5000_S5000x1))
        broadcasts_S5000x1_S5000x10) (ix2 p q)
      = y (ix2 p q) - Ideal.log (∑ k : Fin 10, Ideal.exp (y (ix2 p k))) := by
  rw [subf_apply, Cert.Lib.Keepdims.broadcastTo_a1_ab_apply, log_at, Cert.Lib.Keepdims.shapeCast_a_a1_apply, rowSum_at]
  rfl

/-- The whole softmax tail over any logits z: row p's logarithmic softmax at lane q. -/
theorem lsm_at (z : FVec Ideal S5000x10 .f32) (p : Fin 5000) (q : Fin 10) :
    subf (subf z (broadcastTo S5000x10 (shapeCast S5000x1
          (multiReduction .maximumf [1] S5000 z 0xFF800000#32 reduces_S5000x10_S5000 (.inl rfl) rfl) shapeCasts_S5000_S5000x1)
          broadcasts_S5000x1_S5000x10))
        (broadcastTo S5000x10 (log (shapeCast S5000x1
          (multiReduction .add [1] S5000 (exp (subf z (broadcastTo S5000x10 (shapeCast S5000x1
              (multiReduction .maximumf [1] S5000 z 0xFF800000#32 reduces_S5000x10_S5000 (.inl rfl) rfl) shapeCasts_S5000_S5000x1)
              broadcasts_S5000x1_S5000x10))) 0x00000000#32 reduces_S5000x10_S5000 (.inl rfl) rfl) shapeCasts_S5000_S5000x1))
          broadcasts_S5000x1_S5000x10) (ix2 p q)
      = Cert.Gcn.logSoftmax (fun q' => z (ix2 p q')) q := by
  refine (tail_at _ p q).trans ?_
  unfold Cert.Gcn.logSoftmax
  exact congrArg₂ (fun a b => a - Ideal.log b) (shift_at z p q)
    (Finset.sum_congr rfl fun x _ => congrArg Ideal.exp (shift_at z p x))

/-! ## Body 1: the two payloads and the head -/

/-- The eight hidden values of row p after the second rectified layer. -/
theorem pay2_at (d : Vec Ideal S5000x1 .f32) (s h : Vec Ideal S5000x32 .f32) (bc : Vec Ideal S1x32 .f32) (w1 : Vec Ideal S32x16 .f32)
    (b1 : Vec Ideal S1x16 .f32) (w2 : Vec Ideal S16x8 .f32) (b2 : Vec Ideal S1x8 .f32) (p : Fin 5000) (k : Fin 8) :
    k1_pay2 (F := Ideal) d s h bc w1 b1 w2 b2 (ix2 p k)
      = Cert.Gcn.relu (Cert.Gcn.affine (fun j => Cert.Gcn.relu (Cert.Gcn.affine
          (fun c => Cert.Gcn.relu ((d (ix2 p (0 : Fin 1)) * s (ix2 p c) + h (ix2 p c) * (d (ix2 p (0 : Fin 1)) * d (ix2 p (0 : Fin 1))))
            + bc (ix2 (0 : Fin 1) c)))
          w1 (fun j' => b1 (ix2 (0 : Fin 1) j')) j)) w2 (fun k' => b2 (ix2 (0 : Fin 1) k')) k) := by
  unfold k1_pay2
  refine (relu_dense_at dot_S5000x16_S16x8_S5000x8_1_0_0_1_n_n_wf _ _ _ _ _ _ p k).trans ?_
  refine congrArg (fun z => Cert.Gcn.relu (Cert.Gcn.affine z w2 (fun k' => b2 (ix2 (0 : Fin 1) k')) k)) (funext fun j => ?_)
  refine (relu_dense_at dot_S5000x32_S32x16_S5000x16_1_0_0_1_n_n_wf _ _ _ _ _ _ p j).trans ?_
  refine congrArg (fun z => Cert.Gcn.relu (Cert.Gcn.affine z w1 (fun j' => b1 (ix2 (0 : Fin 1) j')) j)) (funext fun c => ?_)
  rw [maximumf_apply, broadcast_apply, addf_apply, addf_apply, mulf_apply, mulf_apply, broadcastTo_1b_ab_apply,
    Cert.Lib.Keepdims.broadcastTo_a1_ab_apply, Cert.Lib.Keepdims.broadcastTo_a1_ab_apply, mulf_apply]
  simp only [shapeCast_self]
  rfl

/-- The stored value at (p, q): the logarithmic softmax of the third layer's ten logits of row p. -/
theorem pay1_at (v37 : FVec Ideal S5000x8 .f32) (w3 : Vec Ideal S8x10 .f32) (b3 : Vec Ideal S1x10 .f32) (p : Fin 5000) (q : Fin 10) :
    k1_pay1 (F := Ideal) v37 w3 b3 (ix2 p q)
      = Cert.Gcn.logSoftmax (fun q' => Cert.Gcn.affine (fun k => v37 (ix2 p k)) w3 (fun q'' => b3 (ix2 (0 : Fin 1) q'')) q') q := by
  unfold k1_pay1
  refine (lsm_at _ p q).trans ?_
  refine congrArg (fun z => Cert.Gcn.logSoftmax z q) (funext fun q' => ?_)
  exact dense_at dot_S5000x8_S8x10_S5000x10_1_0_0_1_n_n_wf _ _ _ v37 w3 b3 p q'

/-- Body 1 at (p, q) is the specification's head applied to the aggregate row  d · s + h · (d · d)  of row p. -/
theorem pay_head_at (d : Vec Ideal S5000x1 .f32) (s h : Vec Ideal S5000x32 .f32) (bc : Vec Ideal S1x32 .f32) (w1 : Vec Ideal S32x16 .f32)
    (b1 : Vec Ideal S1x16 .f32) (w2 : Vec Ideal S16x8 .f32) (b2 : Vec Ideal S1x8 .f32) (w3 : Vec Ideal S8x10 .f32) (b3 : Vec Ideal S1x10 .f32)
    (p : Fin 5000) (q : Fin 10) :
    k1_pay1 (F := Ideal) (k1_pay2 (F := Ideal) d s h bc w1 b1 w2 b2) w3 b3 (ix2 p q)
      = Cert.Gcn.headRow (fun c => d (ix2 p (0 : Fin 1)) * s (ix2 p c) + h (ix2 p c) * (d (ix2 p (0 : Fin 1)) * d (ix2 p (0 : Fin 1))))
          (fun c => bc (ix2 (0 : Fin 1) c)) w1 (fun j => b1 (ix2 (0 : Fin 1) j)) w2 (fun k => b2 (ix2 (0 : Fin 1) k)) w3
          (fun q' => b3 (ix2 (0 : Fin 1) q')) q := by
  refine (pay1_at _ w3 b3 p q).trans ?_
  unfold Cert.Gcn.headRow Cert.Gcn.logits
  refine congrArg (fun z => Cert.Gcn.logSoftmax z q) (funext fun q' => ?_)
  refine congrArg (fun z => Cert.Gcn.affine z w3 (fun q'' => b3 (ix2 (0 : Fin 1) q'')) q') (funext fun k => ?_)
  exact pay2_at d s h bc w1 b1 w2 b2 p k

end Cert.Gcn.Payload

end
-- ==== Proof.KRegion1.lean ====
/-
  The head region: what its output array holds when it ends, as one whole-array function of the arrays it finds. The
  grid has 20 points; point t reads rows 5000·t … 5000·t + 4999 of the scattered sum, of the inverse-square-root column
  and of the projection, reads the biases and weights whole, and writes the same rows of the result: for each row, the
  aggregate d · s + h · (d · d) passed through the head (bias, rectifier, three dense layers, logarithmic softmax). The
  20 blocks tile the 100000 rows.
-/
import proofs.«175213_j3616362463494_2_alg».proof.Proof.Gen.KernelIdeal.Frame
import proofs.«175213_j3616362463494_2_alg».proof.Proof.Payload1
import proofs.«175213_j3616362463494_2_alg».proof.Proof.Spec
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row p of point t's block is row 5000·t + p of the array. -/
def row (t : Fin 20) (p : Fin 5000) : Fin 100000 := ⟨t.val * 5000 + p.val, by have := t.isLt; have := p.isLt; omega⟩

/-- The printed index maps over the grid: the row-blocked windows are at block (t, 0), the whole ones at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

/-! ## Where each window's block sits in its array -/

theorem emb0 (t : Fin cfg1.N) (p : Fin 5000) (q : Fin 32) :
    ((cfg1.win 0).blk t).view.emb (ix2 p q) = ix2 (row t p) q := by
  obtain ⟨e0, e1, -⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 32 + 1 * q.val = q.val; omega

theorem emb1 (t : Fin cfg1.N) (p : Fin 5000) (q : Fin 1) :
    ((cfg1.win 1).blk t).view.emb (ix2 p q) = ix2 (row t p) q := by
  obtain ⟨-, -, e0, e1, -⟩ := idx_facts t
  funext a; apply Fin.ext
  match a with
  | ⟨0, _⟩ => show win1_1.index t (0 : Fin 2) * 5000 + 1 * p.val = t.val * 5000 + p.val; omega
  | ⟨1, _⟩ => show win1_1.index t (1 : Fin 2) * 1 + 1 * q.val = q.val; omega

theorem emb2 (t : Fin cfg1.N) (p : Fin 5000) (q : Fin 32) :
    ((cfg1.win 2).blk t).view.emb (ix2 p q) = ix2 (row t p) q := by
  obtain ⟨-, -, -, -, e0, e1, -⟩ := idx_facts t
  funext a; apply Fin.ext
  match a with
  | ⟨0, _⟩ => show win1_2.index t (0 : Fin 2) * 5000 + 1 * p.val = t.val * 5000 + p.val; omega
  | ⟨1, _⟩ => show win1_2.index t (1 : Fin 2) * 32 + 1 * q.val = q.val; omega

theorem blk3_eq (c : Dev nD) (t : Fin cfg1.N) : iblk1 V c 3 t = V c main_v30 := by
  obtain ⟨-, -, -, -, -, -, e0, e1, -⟩ := idx_facts t
  funext j
  show V c main_v30 (((cfg1.win 3).blk t).view.emb j) = V c main_v30 j
  refine congrArg _ ?_
  funext a; apply Fin.ext
  match a with
  | ⟨0, _⟩ => show win1_3.index t (0 : Fin 2) * 1 + 1 * (j 0).val = (j 0).val; omega
  | ⟨1, _⟩ => show win1_3.index t (1 : Fin 2) * 32 + 1 * (j 1).val = (j 1).val; omega

theorem blk4_eq (c : Dev nD) (t : Fin cfg1.N) : iblk1 V c 4 t = V c main_arg5 := by
  obtain ⟨-, -, -, -, -, -, -, -, e0, e1, -⟩ := idx_facts t
  funext j
  show V c main_arg5 (((cfg1.win 4).blk t).view.emb j) = V c main_arg5 j
  refine congrArg _ ?_
  funext a; apply Fin.ext
  match a with
  | ⟨0, _⟩ => show win1_4.index t (0 : Fin 2) * 32 + 1 * (j 0).val = (j 0).val; omega
  | ⟨1, _⟩ => show win1_4.index t (1 : Fin 2) * 16 + 1 * (j 1).val = (j 1).val; omega

theorem blk5_eq (c : Dev nD) (t : Fin cfg1.N) : iblk1 V c 5 t = V c main_v31 := by
  obtain ⟨-, -, -, -, -, -, -, -, -, -, e0, e1, -⟩ := idx_facts t
  funext j
  show V c main_v31 (((cfg1.win 5).blk t).view.emb j) = V c main_v31 j
  refine congrArg _ ?_
  funext a; apply Fin.ext
  match a with
  | ⟨0, _⟩ => show win1_5.index t (0 : Fin 2) * 1 + 1 * (j 0).val = (j 0).val; omega
  | ⟨1, _⟩ => show win1_5.index t (1 : Fin 2) * 16 + 1 * (j 1).val = (j 1).val; omega

theorem blk6_eq (c : Dev nD) (t : Fin cfg1.N) : iblk1 V c 6 t = V c main_arg7 := by
  obtain ⟨-, -, -, -, -, -, -, -, -, -, -, -, e0, e1, -⟩ := idx_facts t
  funext j
  show V c main_arg7 (((cfg1.win 6).blk t).view.emb j) = V c main_arg7 j
  refine congrArg _ ?_
  funext a; apply Fin.ext
  match a with
  | ⟨0, _⟩ => show win1_6.index t (0 : Fin 2) * 16 + 1 * (j 0).val = (j 0).val; omega
  | ⟨1, _⟩ => show win1_6.index t (1 : Fin 2) * 8 + 1 * (j 1).val = (j 1).val; omega

theorem blk7_eq (c : Dev nD) (t : Fin cfg1.N) : iblk1 V c 7 t = V c main_v32 := by
  obtain ⟨-, -, -, -, -, -, -, -, -, -, -, -, -, -, e0, e1, -⟩ := idx_facts t
  funext j
  show V c main_v32 (((cfg1.win 7).blk t).view.emb j) = V c main_v32 j
  refine congrArg _ ?_
  funext a; apply Fin.ext
  match a with
  | ⟨0, _⟩ => show win1_7.index t (0 : Fin 2) * 1 + 1 * (j 0).val = (j 0).val; omega
  | ⟨1, _⟩ => show win1_7.index t (1 : Fin 2) * 8 + 1 * (j 1).val = (j 1).val; omega

theorem blk8_eq (c : Dev nD) (t : Fin cfg1.N) : iblk1 V c 8 t = V c main_arg9 := by
  obtain ⟨-, -, -, -, -, -, -, -, -, -, -, -, -, -, -, -, e0, e1, -⟩ := idx_facts t
  funext j
  show V c main_arg9 (((cfg1.win 8).blk t).view.emb j) = V c main_arg9 j
  refine congrArg _ ?_
  funext a; apply Fin.ext
  match a with
  | ⟨0, _⟩ => show win1_8.index t (0 : Fin 2) * 8 + 1 * (j 0).val = (j 0).val; omega
  | ⟨1, _⟩ => show win1_8.index t (1 : Fin 2) * 10 + 1 * (j 1).val = (j 1).val; omega

theorem blk9_eq (c : Dev nD) (t : Fin cfg1.N) : iblk1 V c 9 t = V c main_v33 := by
  obtain ⟨-, -, -, -, -, -, -, -, -, -, -, -, -, -, -, -, -, -, e0, e1, -⟩ := idx_facts t
  funext j
  show V c main_v33 (((cfg1.win 9).blk t).view.emb j) = V c main_v33 j
  refine congrArg _ ?_
  funext a; apply Fin.ext
  match a with
  | ⟨0, _⟩ => show win1_9.index t (0 : Fin 2) * 1 + 1 * (j 0).val = (j 0).val; omega
  | ⟨1, _⟩ => show win1_9.index t (1 : Fin 2) * 10 + 1 * (j 1).val = (j 1).val; omega

theorem emb10 (t : Fin cfg1.N) (p : Fin 5000) (q : Fin 10) :
    ((cfg1.win 10).blk t).view.emb (ix2 p q) = ix2 (row t p) q := by
  obtain ⟨-, -, -, -, -, -, -, -, -, -, -, -, -, -, -, -, -, -, -, -, e0, e1⟩ := idx_facts t
  funext a; apply Fin.ext
  match a with
  | ⟨0, _⟩ => show win1_10.index t (0 : Fin 2) * 5000 + 1 * p.val = t.val * 5000 + p.val; omega
  | ⟨1, _⟩ => show win1_10.index t (1 : Fin 2) * 10 + 1 * q.val = q.val; omega

/-! ## The whole-array function -/

/-- Row r of the result: the head of the aggregate d · s + h · (d · d) of that row. -/
def headArr (S : S100000x32.Idx → EReal) (D : S100000x1.Idx → EReal) (H : S100000x32.Idx → EReal) (bc : S1x32.Idx → EReal)
    (w1 : S32x16.Idx → EReal) (b1 : S1x16.Idx → EReal) (w2 : S16x8.Idx → EReal) (b2 : S1x8.Idx → EReal) (w3 : S8x10.Idx → EReal)
    (b3 : S1x10.Idx → EReal) : S100000x10.Idx → EReal :=
  fun i => Cert.Gcn.headRow
    (fun c => D (ix2 (i 0) (0 : Fin 1)) * S (ix2 (i 0) c) + H (ix2 (i 0) c) * (D (ix2 (i 0) (0 : Fin 1)) * D (ix2 (i 0) (0 : Fin 1))))
    (fun c => bc (ix2 (0 : Fin 1) c)) w1 (fun j => b1 (ix2 (0 : Fin 1) j)) w2 (fun k => b2 (ix2 (0 : Fin 1) k)) w3
    (fun q' => b3 (ix2 (0 : Fin 1) q')) (i 1)

/-- The head of a block's row p is the whole-array function at the array's row r, when the block's row p is the
    array's row r: stated over plain arrays. -/
theorem head_of (S : S100000x32.Idx → EReal) (D : S100000x1.Idx → EReal) (H : S100000x32.Idx → EReal) (bc : S1x32.Idx → EReal)
    (w1 : S32x16.Idx → EReal) (b1 : S1x16.Idx → EReal) (w2 : S16x8.Idx → EReal) (b2 : S1x8.Idx → EReal) (w3 : S8x10.Idx → EReal)
    (b3 : S1x10.Idx → EReal) (bs : S5000x32.Idx → EReal) (bd : S5000x1.Idx → EReal) (bh : S5000x32.Idx → EReal)
    (r : Fin 100000) (p : Fin 5000) (q : Fin 10)
    (hs : ∀ c : Fin 32, bs (ix2 p c) = S (ix2 r c)) (hd : bd (ix2 p (0 : Fin 1)) = D (ix2 r (0 : Fin 1)))
    (hh : ∀ c : Fin 32, bh (ix2 p c) = H (ix2 r c)) :
    Cert.Gcn.headRow (fun c => bd (ix2 p (0 : Fin 1)) * bs (ix2 p c) + bh (ix2 p c) * (bd (ix2 p (0 : Fin 1)) * bd (ix2 p (0 : Fin 1))))
        (fun c => bc (ix2 (0 : Fin 1) c)) w1 (fun j => b1 (ix2 (0 : Fin 1) j)) w2 (fun k => b2 (ix2 (0 : Fin 1) k)) w3
        (fun q' => b3 (ix2 (0 : Fin 1) q')) q
      = headArr S D H bc w1 b1 w2 b2 w3 b3 (ix2 r q) := by
  have ha : (fun c : Fin 32 => bd (ix2 p (0 : Fin 1)) * bs (ix2 p c) + bh (ix2 p c) * (bd (ix2 p (0 : Fin 1)) * bd (ix2 p (0 : Fin 1))))
      = fun c : Fin 32 => D (ix2 r (0 : Fin 1)) * S (ix2 r c) + H (ix2 r c) * (D (ix2 r (0 : Fin 1)) * D (ix2 r (0 : Fin 1))) :=
    funext fun c => by rw [hd, hs c, hh c]
  rw [ha]
  rfl

/-- Point t's row blocks are the rows 5000·t … of the arrays the region finds. -/
theorem blk0_at (c : Dev nD) (t : Fin cfg1.N) (p : Fin 5000) (k : Fin 32) :
    iblk1 V c 0 t (ix2 p k) = V c main_v29 (ix2 (row t p) k) := by
  show V c main_v29 (((cfg1.win 0).blk t).view.emb (ix2 p k)) = _
  rw [emb0 t p k]
theorem blk1_at (c : Dev nD) (t : Fin cfg1.N) (p : Fin 5000) :
    iblk1 V c 1 t (ix2 p (0 : Fin 1)) = V c main_v13 (ix2 (row t p) (0 : Fin 1)) := by
  show V c main_v13 (((cfg1.win 1).blk t).view.emb (ix2 p (0 : Fin 1))) = _
  rw [emb1 t p 0]
theorem blk2_at (c : Dev nD) (t : Fin cfg1.N) (p : Fin 5000) (k : Fin 32) :
    iblk1 V c 2 t (ix2 p k) = V c main_v14_0 (ix2 (row t p) k) := by
  show V c main_v14_0 (((cfg1.win 2).blk t).view.emb (ix2 p k)) = _
  rw [emb2 t p k]

/-! ## What a point writes back is its block of the whole-array function -/

theorem flushed10_eq (c : Dev nD) (t : Fin cfg1.N) :
    (dat1 V c).flushed 10 t = ((cfg1.win 10).blk t).view.read (Elt Ideal)
      (headArr (V c main_v29) (V c main_v13) (V c main_v14_0) (V c main_v30) (V c main_arg5) (V c main_v31) (V c main_arg7)
        (V c main_v32) (V c main_arg9) (V c main_v33)) := by
  show (cfg1.win 10).cut (grid1.coords t) ((dat1 V c).after 10 t) = _
  rw [after1_10]
  unfold out1_10
  rw [View.canon_unit_zero hz]
  simp only [View.ld_unit_zero (S := S5000x32) hz, View.ld_unit_zero (S := S5000x1) hz, View.ld_unit_zero (S := S1x32) hz,
    View.ld_unit_zero (S := S32x16) hz, View.ld_unit_zero (S := S1x16) hz, View.ld_unit_zero (S := S16x8) hz,
    View.ld_unit_zero (S := S1x8) hz, View.ld_unit_zero (S := S8x10) hz, View.ld_unit_zero (S := S1x10) hz]
  rw [blk3_eq V c t, blk4_eq V c t, blk5_eq V c t, blk6_eq V c t, blk7_eq V c t, blk8_eq V c t, blk9_eq V c t]
  funext j
  obtain ⟨p, q, rfl⟩ : ∃ (p : Fin 5000) (q : Fin 10), j = ix2 p q := ⟨j 0, j 1, eq_ix2 j⟩
  refine (Cert.Gcn.Payload.pay_head_at (iblk1 V c 1 t) (iblk1 V c 0 t) (iblk1 V c 2 t) (V c main_v30) (V c main_arg5) (V c main_v31)
    (V c main_arg7) (V c main_v32) (V c main_arg9) (V c main_v33) p q).trans ?_
  show _ = headArr (V c main_v29) (V c main_v13) (V c main_v14_0) (V c main_v30) (V c main_arg5) (V c main_v31) (V c main_arg7)
    (V c main_v32) (V c main_arg9) (V c main_v33) (((cfg1.win 10).blk t).view.emb (ix2 p q))
  rw [emb10 t p q]
  exact head_of (V c main_v29) (V c main_v13) (V c main_v14_0) (V c main_v30) (V c main_arg5) (V c main_v31) (V c main_arg7)
    (V c main_v32) (V c main_arg9) (V c main_v33) (iblk1 V c 0 t) (iblk1 V c 1 t) (iblk1 V c 2 t) (row t p) p q
    (fun k => blk0_at V c t p k) (blk1_at V c t p) (fun k => blk2_at V c t p k)

/-! ## The blocks tile the rows -/

theorem mem_blk10 (t : Fin cfg1.N) (i : S100000x10.Idx) :
    i ∈ ((cfg1.win 10).blk t).view.set ↔ ∀ a : Fin 2, win1_10.index t a * S5000x10.size a ≤ (i a).val ∧ (i a).val < win1_10.index t a * S5000x10.size a + S5000x10.size a := by
  show i ∈ ((View.whole main_v34).slice (win1_10.rect t)).set ↔ _
  rw [View.set_slice_whole, Rect.mem_set_unit]
  exact Iff.rfl

theorem cover10 (i : S100000x10.Idx) : ∃ t : Fin cfg1.N, (cfg1.win 10).flush t = true ∧ i ∈ ((cfg1.win 10).blk t).view.set := by
  have hi0 : (i 0).val < 100000 := (i 0).isLt
  have hi1 : (i 1).val < 10 := (i 1).isLt
  refine ⟨⟨(i 0).val / 5000, by show (i 0).val / 5000 < 20; omega⟩, flush1_10 _, ?_⟩
  rw [mem_blk10]
  obtain ⟨-, -, -, -, -, -, -, -, -, -, -, -, -, -, -, -, -, -, -, -, e0, e1⟩ := idx_facts ⟨(i 0).val / 5000, by show (i 0).val / 5000 < 20; omega⟩
  intro a
  match a with
  | ⟨0, _⟩ =>
    show win1_10.index _ (0 : Fin 2) * 5000 ≤ (i 0).val ∧ (i 0).val < win1_10.index _ (0 : Fin 2) * 5000 + 5000
    rw [e0]; show (i 0).val / 5000 * 5000 ≤ (i 0).val ∧ (i 0).val < (i 0).val / 5000 * 5000 + 5000; omega
  | ⟨1, _⟩ =>
    show win1_10.index _ (1 : Fin 2) * 10 ≤ (i 1).val ∧ (i 1).val < win1_10.index _ (1 : Fin 2) * 10 + 10
    rw [e1]; omega

/-! ## The array when the region ends -/

theorem final10 (c : Dev nD) : (dat1 V c).arrAt 10 cfg1.N
    = headArr (V c main_v29) (V c main_v13) (V c main_v14_0) (V c main_v30) (V c main_arg5) (V c main_v31) (V c main_arg7)
        (V c main_v32) (V c main_arg9) (V c main_v33) :=
  (dat1 V c).arrAt_eq_of_cover 10 _ (fun t _ => flushed10_eq V c t) cover10

end Cert.KernelIdeal.Region1

end
-- ==== Proof.KHostTerms.lean ====
/-
  The two arrays the idealized kernel's host code computes between its regions, as terms of the arrays they are computed
  from: the column of inverse square roots of the degrees (from the edge array alone), and the scattered sum (rows of
  the scaled projection gathered at the edges' sources and added into the rows the edges' targets name).
-/
import proofs.«175213_j3616362463494_2_alg».proof.KernelIdeal
import Idealize.ShloMosaic.PureOps.Ideal

noncomputable section

namespace Cert.KernelIdeal.HostTerms

open Cert.KernelIdeal Idealize.ShloMosaic

variable [Facts]
open Facts₀ Facts

/-- The source words and the target words of the edges, as vectors. -/
def srcVec (ei : IVec S2x1600000 32) : IVec S1600000 32 :=
  shapeCast S1600000 (extractStridedSlice S1x1600000 ![0, 0] ei slices_S2x1600000_S1x1600000_0_0) shapeCasts_S1x1600000_S1600000
def dstVec (ei : IVec S2x1600000 32) : IVec S1600000 32 :=
  shapeCast S1600000 (extractStridedSlice S1x1600000 ![1, 0] ei slices_S2x1600000_S1x1600000_1_0) shapeCasts_S1x1600000_S1600000

/-- (max (ones scattered at the targets into zeros, plus one) eps)^(-1/2), as a column. -/
def dinvCol (ei : IVec S2x1600000 32) : FVec Ideal S100000x1 .f32 :=
  shapeCast S100000x1 (Host.rsqrt (maximumf (addf
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 (dstVec ei))
        (broadcastInDim S1600000 ![] bcast_S_S1600000 (constant (F := Ideal) S_ .f32 0x3F800000#32)))
      (broadcastInDim S100000 ![] bcast_S_S100000 (constant (F := Ideal) S_ .f32 0x3F800000#32)))
    (broadcastInDim S100000 ![] bcast_S_S100000 (constant (F := Ideal) S_ .f32 0x2B8CBCCC#32)))) shapeCasts_S100000_S100000x1

/-- The source words normalised: a negative word has the number of nodes added. -/
def srcNorm (ei : IVec S2x1600000 32) : IVec S1600000 32 :=
  select (cmpi .slt (srcVec ei) (broadcastInDim S1600000 ![] bcast_S_S1600000 (constantI S_ 32 0#32)))
    (addi (srcVec ei) (broadcastInDim S1600000 ![] bcast_S_S1600000 (constantI S_ 32 100000#32))) (srcVec ei)

/-- Rows of `hs` gathered at the normalised sources, widened, and added into zeros at the rows the targets name. -/
def summed (hs : FVec Ideal S100000x32 .bf16) (ei : IVec S2x1600000 32) : FVec Ideal S100000x32 .f32 :=
  Host.scatterAdd scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 (dstVec ei))
    (extf .f32 (Host.gather gather_S100000x32_S1600000x1_S1600000x32_1_0_n_n_0_1_132 hs
      (broadcastInDim S1600000x1 ![0] bcast_S1600000_S1600000x1_0 (srcNorm ei))) bitsLt_bf16_f32)

end Cert.KernelIdeal.HostTerms

end
-- ==== Proof.KHost.lean ====
/-
  The two stretches of host operations of the idealized kernel, read as functions of the buffer contents they start
  from. The first computes the column of inverse square roots of the degrees from the edge array and touches no
  argument. The second gathers rows of the scaled projection at the edges' sources and adds them into the rows the
  edges' targets name, re-lays the four bias vectors as one-row arrays, and touches nothing else the head region reads.
-/
import proofs.«175213_j3616362463494_2_alg».proof.Proof.Gen.KernelIdeal.Launch
import proofs.«175213_j3616362463494_2_alg».proof.Proof.KHostTerms
import Idealize.ShloMosaic.Lib.StableHlo.Run

set_option maxRecDepth 16384

noncomputable section

namespace Cert.KernelIdeal.Host

open Cert.KernelIdeal Cert.KernelIdeal.Gen Cert.KernelIdeal.HostTerms Idealize.ShloMosaic Idealize.ShloMosaic.TcCoe Idealize.SL.Sem
open Idealize.ShloMosaic.StableHlo

variable (W : Valuation τ sig (Elt Ideal))

/-! ## The first stretch -/

/-- After the first stretch the column buffer holds the inverse square roots of the degrees of the edge array. -/
theorem after0_v13 : StableHlo.after hostOps0 W (Proc.devRef .tc main_v13) = dinvCol (W (Proc.devRef .tc main_arg1)) := by
  after_results; rfl

theorem after0_main_arg0 : StableHlo.after hostOps0 W (Proc.devRef .tc main_arg0) = W (Proc.devRef .tc main_arg0) := by
  after_results
theorem after0_main_arg1 : StableHlo.after hostOps0 W (Proc.devRef .tc main_arg1) = W (Proc.devRef .tc main_arg1) := by
  after_results
theorem after0_main_arg3 : StableHlo.after hostOps0 W (Proc.devRef .tc main_arg3) = W (Proc.devRef .tc main_arg3) := by
  after_results
theorem after0_main_arg4 : StableHlo.after hostOps0 W (Proc.devRef .tc main_arg4) = W (Proc.devRef .tc main_arg4) := by
  after_results
theorem after0_main_arg5 : StableHlo.after hostOps0 W (Proc.devRef .tc main_arg5) = W (Proc.devRef .tc main_arg5) := by
  after_results
theorem after0_main_arg6 : StableHlo.after hostOps0 W (Proc.devRef .tc main_arg6) = W (Proc.devRef .tc main_arg6) := by
  after_results
theorem after0_main_arg7 : StableHlo.after hostOps0 W (Proc.devRef .tc main_arg7) = W (Proc.devRef .tc main_arg7) := by
  after_results
theorem after0_main_arg8 : StableHlo.after hostOps0 W (Proc.devRef .tc main_arg8) = W (Proc.devRef .tc main_arg8) := by
  after_results
theorem after0_main_arg9 : StableHlo.after hostOps0 W (Proc.devRef .tc main_arg9) = W (Proc.devRef .tc main_arg9) := by
  after_results
theorem after0_main_arg10 : StableHlo.after hostOps0 W (Proc.devRef .tc main_arg10) = W (Proc.devRef .tc main_arg10) := by
  after_results

/-! ## The second stretch -/

/-- After the second stretch the sum buffer holds the rows of the scaled projection gathered and scattered. -/
theorem after1_v29 : StableHlo.after hostOps1 W (Proc.devRef .tc main_v29)
    = summed (W (Proc.devRef .tc main_v14_1)) (W (Proc.devRef .tc main_arg1)) := by
  after_results; rfl

/-- The four bias vectors re-laid as one-row arrays. -/
theorem after1_v30 : StableHlo.after hostOps1 W (Proc.devRef .tc main_v30)
    = shapeCast S1x32 (W (Proc.devRef .tc main_arg4)) Facts₀.shapeCasts_S32_S1x32 := by
  after_results; rfl
theorem after1_v31 : StableHlo.after hostOps1 W (Proc.devRef .tc main_v31)
    = shapeCast S1x16 (W (Proc.devRef .tc main_arg6)) Facts₀.shapeCasts_S16_S1x16 := by
  after_results; rfl
theorem after1_v32 : StableHlo.after hostOps1 W (Proc.devRef .tc main_v32)
    = shapeCast S1x8 (W (Proc.devRef .tc main_arg8)) Facts₀.shapeCasts_S8_S1x8 := by
  after_results; rfl
theorem after1_v33 : StableHlo.after hostOps1 W (Proc.devRef .tc main_v33)
    = shapeCast S1x10 (W (Proc.devRef .tc main_arg10)) Facts₀.shapeCasts_S10_S1x10 := by
  after_results; rfl

theorem after1_main_arg1 : StableHlo.after hostOps1 W (Proc.devRef .tc main_arg1) = W (Proc.devRef .tc main_arg1) := by
  after_results
theorem after1_main_arg5 : StableHlo.after hostOps1 W (Proc.devRef .tc main_arg5) = W (Proc.devRef .tc main_arg5) := by
  after_results
theorem after1_main_arg7 : StableHlo.after hostOps1 W (Proc.devRef .tc main_arg7) = W (Proc.devRef .tc main_arg7) := by
  after_results
theorem after1_main_arg9 : StableHlo.after hostOps1 W (Proc.devRef .tc main_arg9) = W (Proc.devRef .tc main_arg9) := by
  after_results
theorem after1_main_v13 : StableHlo.after hostOps1 W (Proc.devRef .tc main_v13) = W (Proc.devRef .tc main_v13) := by
  after_results
theorem after1_main_v14_0 : StableHlo.after hostOps1 W (Proc.devRef .tc main_v14_0) = W (Proc.devRef .tc main_v14_0) := by
  after_results

end Cert.KernelIdeal.Host

end
-- ==== Proof.KValue.lean ====
/-
  The idealized kernel's result as one function of its arguments. The buffer contents at the four boundaries of the run
  are walked back from the result: the head region's output is the head of the arrays it finds; those are the second
  host stretch's scattered sum, the column of inverse square roots, the projection and the re-laid biases; the sum is
  computed from the projection region's scaled output and the edge array; the column comes from the first host stretch;
  and every argument is still what was launched.
-/
import proofs.«175213_j3616362463494_2_alg».proof.Proof.Gen.KernelIdeal.Frame
import proofs.«175213_j3616362463494_2_alg».proof.Proof.KRegion0
import proofs.«175213_j3616362463494_2_alg».proof.Proof.KRegion1
import proofs.«175213_j3616362463494_2_alg».proof.Proof.KHost

set_option maxRecDepth 16384

noncomputable section

namespace Cert.KernelIdeal.Value

open Cert.KernelIdeal Cert.KernelIdeal.Gen Cert.KernelIdeal.HostTerms Idealize.ShloMosaic Idealize.ShloMosaic.TcCoe Idealize.SL.Sem
open Cert.KernelIdeal.Region0 (hArr hsArr)
open Cert.KernelIdeal.Region1 (headArr)

/-- The result array as a function of the argument arrays. -/
def kernelArr (x : S100000x100.Idx → EReal) (ei : IVec S2x1600000 32) (wc : S100x32.Idx → EReal) (b4 : S32.Idx → EReal)
    (w1 : S32x16.Idx → EReal) (b6 : S16.Idx → EReal) (w2 : S16x8.Idx → EReal) (b8 : S8.Idx → EReal) (w3 : S8x10.Idx → EReal)
    (b10 : S10.Idx → EReal) : S100000x10.Idx → EReal :=
  headArr (summed (hsArr x wc (dinvCol ei)) ei) (dinvCol ei) (hArr x wc)
    (shapeCast S1x32 b4 Facts₀.shapeCasts_S32_S1x32) w1 (shapeCast S1x16 b6 Facts₀.shapeCasts_S16_S1x16) w2
    (shapeCast S1x8 b8 Facts₀.shapeCasts_S8_S1x8) w3 (shapeCast S1x10 b10 Facts₀.shapeCasts_S10_S1x10)

/-- Equal arrays give equal results. -/
theorem headArr_congr {S S' : S100000x32.Idx → EReal} {D D' : S100000x1.Idx → EReal} {H H' : S100000x32.Idx → EReal}
    {bc bc' : S1x32.Idx → EReal} {w1 w1' : S32x16.Idx → EReal} {b1 b1' : S1x16.Idx → EReal} {w2 w2' : S16x8.Idx → EReal}
    {b2 b2' : S1x8.Idx → EReal} {w3 w3' : S8x10.Idx → EReal} {b3 b3' : S1x10.Idx → EReal}
    (h0 : S = S') (h1 : D = D') (h2 : H = H') (h3 : bc = bc') (h4 : w1 = w1') (h5 : b1 = b1') (h6 : w2 = w2') (h7 : b2 = b2')
    (h8 : w3 = w3') (h9 : b3 = b3') :
    headArr S D H bc w1 b1 w2 b2 w3 b3 = headArr S' D' H' bc' w1' b1' w2' b2' w3' b3' := by
  subst h0 h1 h2 h3 h4 h5 h6 h7 h8 h9; rfl

variable (m : (ℓ : Loc nD τ sig) → Buf (Elt Ideal) ℓ) (ρ : Dev nD → PrngReg)

/-! ## Entering the projection region -/

theorem V1_arg0 (c : Dev nD) : V1 m ρ c main_arg0 = m ((c : Thread nD τ).loc main_arg0) := Host.after0_main_arg0 (W0 m ρ c)
theorem V1_arg3 (c : Dev nD) : V1 m ρ c main_arg3 = m ((c : Thread nD τ).loc main_arg3) := Host.after0_main_arg3 (W0 m ρ c)
theorem V1_v13 (c : Dev nD) : V1 m ρ c main_v13 = dinvCol (m ((c : Thread nD τ).loc main_arg1)) := Host.after0_v13 (W0 m ρ c)

/-! ## Leaving it -/

theorem W2_v14_0 (c : Dev nD) : W2 m ρ c (Proc.devRef .tc main_v14_0)
    = hArr (m ((c : Thread nD τ).loc main_arg0)) (m ((c : Thread nD τ).loc main_arg3)) := by
  refine (W2_arr m ρ c 3).trans ((Region0.final3 (V1 m ρ) c).trans ?_)
  rw [V1_arg0, V1_arg3]

theorem W2_v14_1 (c : Dev nD) : W2 m ρ c (Proc.devRef .tc main_v14_1)
    = hsArr (m ((c : Thread nD τ).loc main_arg0)) (m ((c : Thread nD τ).loc main_arg3)) (dinvCol (m ((c : Thread nD τ).loc main_arg1))) := by
  refine (W2_arr m ρ c 4).trans ((Region0.final4 (V1 m ρ) c).trans ?_)
  rw [V1_arg0, V1_arg3, V1_v13]

theorem W2_v13 (c : Dev nD) : W2 m ρ c (Proc.devRef .tc main_v13) = dinvCol (m ((c : Thread nD τ).loc main_arg1)) :=
  (W2_arr m ρ c 2).trans ((((dat0 (V1 m ρ) c).arrAt_in 2 rfl _).trans (A_eq0 (V1 m ρ) c 2)).trans (V1_v13 m ρ c))

theorem W2_arg1 (c : Dev nD) : W2 m ρ c (Proc.devRef .tc main_arg1) = m ((c : Thread nD τ).loc main_arg1) :=
  (W2_of_ne m ρ c main_arg1 (by decide)).trans (Host.after0_main_arg1 (W0 m ρ c))
theorem W2_arg4 (c : Dev nD) : W2 m ρ c (Proc.devRef .tc main_arg4) = m ((c : Thread nD τ).loc main_arg4) :=
  (W2_of_ne m ρ c main_arg4 (by decide)).trans (Host.after0_main_arg4 (W0 m ρ c))
theorem W2_arg5 (c : Dev nD) : W2 m ρ c (Proc.devRef .tc main_arg5) = m ((c : Thread nD τ).loc main_arg5) :=
  (W2_of_ne m ρ c main_arg5 (by decide)).trans (Host.after0_main_arg5 (W0 m ρ c))
theorem W2_arg6 (c : Dev nD) : W2 m ρ c (Proc.devRef .tc main_arg6) = m ((c : Thread nD τ).loc main_arg6) :=
  (W2_of_ne m ρ c main_arg6 (by decide)).trans (Host.after0_main_arg6 (W0 m ρ c))
theorem W2_arg7 (c : Dev nD) : W2 m ρ c (Proc.devRef .tc main_arg7) = m ((c : Thread nD τ).loc main_arg7) :=
  (W2_of_ne m ρ c main_arg7 (by decide)).trans (Host.after0_main_arg7 (W0 m ρ c))
theorem W2_arg8 (c : Dev nD) : W2 m ρ c (Proc.devRef .tc main_arg8) = m ((c : Thread nD τ).loc main_arg8) :=
  (W2_of_ne m ρ c main_arg8 (by decide)).trans (Host.after0_main_arg8 (W0 m ρ c))
theorem W2_arg9 (c : Dev nD) : W2 m ρ c (Proc.devRef .tc main_arg9) = m ((c : Thread nD τ).loc main_arg9) :=
  (W2_of_ne m ρ c main_arg9 (by decide)).trans (Host.after0_main_arg9 (W0 m ρ c))
theorem W2_arg10 (c : Dev nD) : W2 m ρ c (Proc.devRef .tc main_arg10) = m ((c : Thread nD τ).loc main_arg10) :=
  (W2_of_ne m ρ c main_arg10 (by decide)).trans (Host.after0_main_arg10 (W0 m ρ c))

/-! ## Entering the head region -/

theorem V3_v29 (c : Dev nD) : V3 m ρ c main_v29
    = summed (hsArr (m ((c : Thread nD τ).loc main_arg0)) (m ((c : Thread nD τ).loc main_arg3)) (dinvCol (m ((c : Thread nD τ).loc main_arg1))))
        (m ((c : Thread nD τ).loc main_arg1)) := by
  refine (Host.after1_v29 (W2 m ρ c)).trans ?_
  rw [W2_v14_1, W2_arg1]
theorem V3_v13 (c : Dev nD) : V3 m ρ c main_v13 = dinvCol (m ((c : Thread nD τ).loc main_arg1)) :=
  (Host.after1_main_v13 (W2 m ρ c)).trans (W2_v13 m ρ c)
theorem V3_v14_0 (c : Dev nD) : V3 m ρ c main_v14_0
    = hArr (m ((c : Thread nD τ).loc main_arg0)) (m ((c : Thread nD τ).loc main_arg3)) :=
  (Host.after1_main_v14_0 (W2 m ρ c)).trans (W2_v14_0 m ρ c)
theorem V3_v30 (c : Dev nD) : V3 m ρ c main_v30 = shapeCast S1x32 (m ((c : Thread nD τ).loc main_arg4)) Facts₀.shapeCasts_S32_S1x32 := by
  refine (Host.after1_v30 (W2 m ρ c)).trans ?_
  rw [W2_arg4]
theorem V3_v31 (c : Dev nD) : V3 m ρ c main_v31 = shapeCast S1x16 (m ((c : Thread nD τ).loc main_arg6)) Facts₀.shapeCasts_S16_S1x16 := by
  refine (Host.after1_v31 (W2 m ρ c)).trans ?_
  rw [W2_arg6]
theorem V3_v32 (c : Dev nD) : V3 m ρ c main_v32 = shapeCast S1x8 (m ((c : Thread nD τ).loc main_arg8)) Facts₀.shapeCasts_S8_S1x8 := by
  refine (Host.after1_v32 (W2 m ρ c)).trans ?_
  rw [W2_arg8]
theorem V3_v33 (c : Dev nD) : V3 m ρ c main_v33 = shapeCast S1x10 (m ((c : Thread nD τ).loc main_arg10)) Facts₀.shapeCasts_S10_S1x10 := by
  refine (Host.after1_v33 (W2 m ρ c)).trans ?_
  rw [W2_arg10]
theorem V3_arg5 (c : Dev nD) : V3 m ρ c main_arg5 = m ((c : Thread nD τ).loc main_arg5) :=
  (Host.after1_main_arg5 (W2 m ρ c)).trans (W2_arg5 m ρ c)
theorem V3_arg7 (c : Dev nD) : V3 m ρ c main_arg7 = m ((c : Thread nD τ).loc main_arg7) :=
  (Host.after1_main_arg7 (W2 m ρ c)).trans (W2_arg7 m ρ c)
theorem V3_arg9 (c : Dev nD) : V3 m ρ c main_arg9 = m ((c : Thread nD τ).loc main_arg9) :=
  (Host.after1_main_arg9 (W2 m ρ c)).trans (W2_arg9 m ρ c)

/-! ## The result -/

/-- The result buffer at the last boundary is the result function of the launched arguments. -/
theorem result_eq (c : Dev nD) : W4 m ρ c (Proc.devRef .tc main_v34)
    = kernelArr (m ((c : Thread nD τ).loc main_arg0)) (m ((c : Thread nD τ).loc main_arg1)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 10).trans ((Region1.final10 (V3 m ρ) c).trans ?_)
  exact headArr_congr (V3_v29 m ρ c) (V3_v13 m ρ c) (V3_v14_0 m ρ c) (V3_v30 m ρ c) (V3_arg5 m ρ c) (V3_v31 m ρ c) (V3_arg7 m ρ c)
    (V3_v32 m ρ c) (V3_arg9 m ρ c) (V3_v33 m ρ c)

end Cert.KernelIdeal.Value

end
-- ==== Proof.LibRowGatherScatter.lean ====
/- Rows gathered and rows scattered, read at an index. A gather of whole rows of an [N, C] array at an [E, 1] table
   of row numbers gives an [E, C] array whose row e is the row the table names, the number read signed and clamped
   into [0, N - 1]. A scatter of the rows of an [E, C] array into an [N, C] array by addition, at an [E, 1] table of
   row numbers, adds row e to the row the table names, the number read signed and NOT clamped: a row whose number
   falls outside [0, N) is dropped. At the ideal values the scattered array at (n, c) is therefore the operand's
   entry plus the sum, over the rows e that land on n, of the update's entry (e, c). Stated over abstract sizes. -/
import Idealize.ShloMosaic.Lib.ValueIdx
import Idealize.ShloMosaic.PureOps.Ideal.Laws

noncomputable section

open scoped BigOperators

namespace Cert.Lib.RowGatherScatter

open Idealize.ShloMosaic Idealize.ShloMosaic.ValueIdx

variable {N E C w : Nat}

/-! ## The gather of rows -/

/-- The dimension numbers of a gather of whole rows: axis 0 collapsed and named by the one-component start index,
    axis 1 the offset axis, a slice one row long. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that result row e reads: the table's entry e as a signed integer, clamped into [0, N - 1]. -/
def gatherPos (hN : 0 < N) (idx : IVec ⟨2, ![E, 1]⟩ w) (e : Fin E) : Fin N :=
  ⟨min (idx (ix2 e (0 : Fin 1))).toInt.toNat (N - 1), by omega⟩

/-- THE GATHER READ AT (e, c): the operand at the row the table names for e, same column. -/
theorem gather_rows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (gatherPos hN idx e) c) := by
  unfold Host.gather
  congr 1
  funext a
  refine Fin.ext ?_
  match a with
  | ⟨0, _⟩ =>
    show (rowGatherDims N E C wf).start (ix2 e c) idx (0 : Fin 2) + (rowGatherDims N E C wf).batchCoord (ix2 e c) (0 : Fin 2)
      + (rowGatherDims N E C wf).offCoord (ix2 e c) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx (1 : Fin 2) + (rowGatherDims N E C wf).batchCoord (ix2 e c) (1 : Fin 2)
      + (rowGatherDims N E C wf).offCoord (ix2 e c) (1 : Fin 2) = c.val
    have hs : (rowGatherDims N E C wf).start (ix2 e c) idx (1 : Fin 2) = 0 := by
      unfold GatherDims.start
      rw [dif_neg (show (1 : Fin 2) ∉ (rowGatherDims N E C wf).startIndexMap from
        fun h => absurd (List.mem_singleton.mp h) (show ¬ ((1 : Fin 2) = 0) by decide))]
    have hk : (1 : Fin 2) ∈ (rowGatherDims N E C wf).sKept :=
      (GatherDims.mem_sKept _ _).mpr ⟨fun h => absurd (List.mem_singleton.mp h) (show ¬ ((1 : Fin 2) = 0) by decide), List.not_mem_nil⟩
    have ho : (rowGatherDims N E C wf).offCoord (ix2 e c) (1 : Fin 2) = c.val := by
      unfold GatherDims.offCoord
      rw [dif_pos hk]
      rfl
    rw [hs, GatherDims.batchCoord_eq_zero _ _ _ List.not_mem_nil, ho]
    omega

/-! ## The scatter of rows by addition -/

/-- The dimension numbers of a scatter of whole rows: the operand's axis 0 inserted and named by the one-component
    scatter index, the update's axis 1 its window axis. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row that update row e lands on: the table's entry e as a signed integer when it lies in [0, N), no row
    otherwise (the update row is dropped). -/
def landPos (N : Nat) (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- Update entry (e, c) lands on operand entry (n, c') exactly when the table sends e to n and c = c'. -/
theorem resultIdx_rows (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C) :
    (rowScatterDims N E C wf).resultIdx? (ix2 e c) idx = some (ix2 n c') ↔ (landPos N idx e = some n ∧ c = c') := by
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have s0 : (rowScatterDims N E C wf).start (ix2 e c) idx (0 : Fin 2) = (idx (ix2 e (0 : Fin 1))).toInt := by
    unfold ScatterDims.start
    rw [dif_pos (show (0 : Fin 2) ∈ (rowScatterDims N E C wf).scatterDimsToOperandDims from List.mem_singleton.mpr rfl), hsi]
  have s1 : (rowScatterDims N E C wf).start (ix2 e c) idx (1 : Fin 2) = 0 := by
    unfold ScatterDims.start
    rw [dif_neg (show (1 : Fin 2) ∉ (rowScatterDims N E C wf).scatterDimsToOperandDims from
      fun h => absurd (List.mem_singleton.mp h) (show ¬ ((1 : Fin 2) = 0) by decide))]
  have k0 : (0 : Fin 2) ∉ (rowScatterDims N E C wf).sKept := by
    simp [ScatterDims.sKept, Shape.kept, List.mem_filter]
  have k1 : (1 : Fin 2) ∈ (rowScatterDims N E C wf).sKept := by
    refine List.mem_filter.mpr ⟨List.mem_finRange _, ?_⟩
    simpa using (show ¬ ((1 : Fin 2) = 0) by decide)
  have w0 : (rowScatterDims N E C wf).window (ix2 e c) (0 : Fin 2) = 0 := by
    unfold ScatterDims.window
    rw [dif_neg k0]
  have w1 : (rowScatterDims N E C wf).window (ix2 e c) (1 : Fin 2) = c.val := by
    unfold ScatterDims.window
    rw [dif_pos k1]
    rfl
  have hc := c.isLt
  unfold ScatterDims.resultIdx? landPos
  by_cases hl : 0 ≤ (idx (ix2 e (0 : Fin 1))).toInt ∧ (idx (ix2 e (0 : Fin 1))).toInt < (N : Int)
  · have hall : ∀ a, 0 ≤ (rowScatterDims N E C wf).start (ix2 e c) idx a + (rowScatterDims N E C wf).window (ix2 e c) a
        ∧ (rowScatterDims N E C wf).start (ix2 e c) idx a + (rowScatterDims N E C wf).window (ix2 e c) a < ((⟨2, ![N, C]⟩ : Shape).size a : Int) := by
      intro a
      match a with
      | ⟨0, _⟩ =>
        show 0 ≤ (rowScatterDims N E C wf).start (ix2 e c) idx (0 : Fin 2) + ((rowScatterDims N E C wf).window (ix2 e c) (0 : Fin 2) : Int)
          ∧ (rowScatterDims N E C wf).start (ix2 e c) idx (0 : Fin 2) + ((rowScatterDims N E C wf).window (ix2 e c) (0 : Fin 2) : Int) < (N : Int)
        rw [s0, w0]; omega
      | ⟨1, _⟩ =>
        show 0 ≤ (rowScatterDims N E C wf).start (ix2 e c) idx (1 : Fin 2) + ((rowScatterDims N E C wf).window (ix2 e c) (1 : Fin 2) : Int)
          ∧ (rowScatterDims N E C wf).start (ix2 e c) idx (1 : Fin 2) + ((rowScatterDims N E C wf).window (ix2 e c) (1 : Fin 2) : Int) < (C : Int)
        rw [s1, w1]; omega
    rw [dif_pos hall, dif_pos hl]
    simp only [Option.some.injEq]
    constructor
    · intro h
      have e0 := congrArg (fun i => (i (0 : Fin 2)).val) h
      have e1 := congrArg (fun i => (i (1 : Fin 2)).val) h
      simp only at e0 e1
      have e0' : ((rowScatterDims N E C wf).start (ix2 e c) idx (0 : Fin 2) + ((rowScatterDims N E C wf).window (ix2 e c) (0 : Fin 2) : Int)).toNat = n.val := e0
      have e1' : ((rowScatterDims N E C wf).start (ix2 e c) idx (1 : Fin 2) + ((rowScatterDims N E C wf).window (ix2 e c) (1 : Fin 2) : Int)).toNat = c'.val := e1
      rw [s0, w0] at e0'
      rw [s1, w1] at e1'
      exact ⟨Fin.ext (by simp only; omega), Fin.ext (by omega)⟩
    · rintro ⟨hn, rfl⟩
      have hn' : (idx (ix2 e (0 : Fin 1))).toInt.toNat = n.val := congrArg Fin.val hn
      funext a; refine Fin.ext ?_
      match a with
      | ⟨0, _⟩ =>
        show ((rowScatterDims N E C wf).start (ix2 e c) idx (0 : Fin 2) + ((rowScatterDims N E C wf).window (ix2 e c) (0 : Fin 2) : Int)).toNat = n.val
        rw [s0, w0]; omega
      | ⟨1, _⟩ =>
        show ((rowScatterDims N E C wf).start (ix2 e c) idx (1 : Fin 2) + ((rowScatterDims N E C wf).window (ix2 e c) (1 : Fin 2) : Int)).toNat = c.val
        rw [s1, w1]; omega
  · have hnot : ¬ ∀ a, 0 ≤ (rowScatterDims N E C wf).start (ix2 e c) idx a + (rowScatterDims N E C wf).window (ix2 e c) a
        ∧ (rowScatterDims N E C wf).start (ix2 e c) idx a + (rowScatterDims N E C wf).window (ix2 e c) a < ((⟨2, ![N, C]⟩ : Shape).size a : Int) := by
      intro h
      have h0 := h (0 : Fin 2)
      rw [s0, w0] at h0
      have h0' : 0 ≤ (idx (ix2 e (0 : Fin 1))).toInt + ((0 : Nat) : Int) ∧ (idx (ix2 e (0 : Fin 1))).toInt + ((0 : Nat) : Int) < (N : Int) := h0
      exact hl (by omega)
    rw [dif_neg hnot, dif_neg hl]
    simp

/-- THE SCATTER BY ADDITION READ AT (n, c), at the ideal values: the operand's entry plus the sum, over the update
    rows that land on n, of the update's entry in column c. -/
theorem scatterAdd_rows_apply (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd (rowScatterDims N E C wf) x idx upd (ix2 n c)
      = x (ix2 n c) + ∑ e ∈ Finset.univ.filter (fun e : Fin E => landPos N idx e = some n), upd (ix2 e c) := by
  unfold Ideal.hostScatterAdd
  congr 1
  rw [Finset.sum_filter, sum_idx2, Finset.sum_filter]
  refine Finset.sum_congr rfl fun e _ => ?_
  by_cases hL : landPos N idx e = some n
  · simp [resultIdx_rows, hL]
  · simp [resultIdx_rows, hL]

/-- The same, stated of the host operation's own spelling (at the ideal values it is that exact sum). -/
theorem host_scatterAdd_rows_apply {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (rowScatterDims N E C wf) x idx upd (ix2 n c)
      = x (ix2 n c) + ∑ e ∈ Finset.univ.filter (fun e : Fin E => landPos N idx e = some n), upd (ix2 e c) :=
  scatterAdd_rows_apply wf x idx upd n c

end Cert.Lib.RowGatherScatter

end
-- ==== Proof.LibVectorGatherScatter.lean ====
/- A vector gathered and a vector scattered, read at an index. A gather of single entries of an [N] array at an
   [E, 1] table of positions gives an [E] array whose entry e is the entry the table names, the number read signed
   and clamped into [0, N - 1]. A scatter of the entries of an [E] array into an [N] array by addition, at an [E, 1]
   table of positions, adds entry e to the position the table names, the number read signed and NOT clamped: an
   entry whose position falls outside [0, N) is dropped. At the ideal values the scattered array at n is therefore
   the operand's entry plus the sum over the entries e that land on n of the update's entry e. Stated over abstract
   sizes. -/
import Idealize.ShloMosaic.Lib.ValueIdx
import Idealize.ShloMosaic.PureOps.Ideal.Laws

noncomputable section

open scoped BigOperators

namespace Cert.Lib.VectorGatherScatter

open Idealize.ShloMosaic Idealize.ShloMosaic.ValueIdx

variable {N E w : Nat}

/-! ## A one-axis index set is its one coordinate range -/

/-- A rank-1 index is its one coordinate … -/
def idxEquiv1 {n : Nat} : (⟨1, ![n]⟩ : Shape).Idx ≃ Fin n where
  toFun i := i 0
  invFun a := ix1 a
  left_inv i := (eq_ix1 i).symm
  right_inv _ := rfl

/-- … so a sum over the index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The gather of entries -/

/-- The dimension numbers of a gather of single entries of a vector: the one axis collapsed and named by the
    one-component start index, no offset axis, a slice one entry long. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The position that result entry e reads: the table's entry e as a signed integer, clamped into [0, N - 1]. -/
def gatherPos (hN : 0 < N) (idx : IVec ⟨2, ![E, 1]⟩ w) (e : Fin E) : Fin N :=
  ⟨min (idx (ix2 e (0 : Fin 1))).toInt.toNat (N - 1), by omega⟩

/-- THE GATHER READ AT e: the operand at the position the table names for e. -/
theorem gather_vec_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (gatherPos hN idx e)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- A table entry that already lies in [0, N) is its own clamped position. -/
theorem gatherPos_val_of_inRange (hN : 0 < N) (idx : IVec ⟨2, ![E, 1]⟩ w) (e : Fin E)
    (h0 : 0 ≤ (idx (ix2 e (0 : Fin 1))).toInt) (h1 : (idx (ix2 e (0 : Fin 1))).toInt < (N : Int)) :
    (gatherPos hN idx e).val = (idx (ix2 e (0 : Fin 1))).toInt.toNat := by
  show min (idx (ix2 e (0 : Fin 1))).toInt.toNat (N - 1) = _
  omega

/-- THE GATHER READ AT e WHEN THE TABLE'S ENTRY LIES IN [0, N): the operand at that very position. -/
theorem gather_vec_apply_of_inRange {α : Type}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E)
    (h0 : 0 ≤ (idx (ix2 e (0 : Fin 1))).toInt) (h1 : (idx (ix2 e (0 : Fin 1))).toInt < (N : Int)) :
    Host.gather (vecGatherDims N E wf) x idx (ix1 e)
      = x (ix1 ⟨(idx (ix2 e (0 : Fin 1))).toInt.toNat, by omega⟩) := by
  have hN : 0 < N := by omega
  rw [gather_vec_apply hN wf x idx e]
  congr 2
  exact Fin.ext (gatherPos_val_of_inRange hN idx e h0 h1)

/-! ## The scatter of entries by addition -/

/-- The dimension numbers of a scatter of single entries into a vector: the operand's one axis inserted and named by
    the one-component scatter index, the update without window axes. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The position that update entry e lands on: the table's entry e as a signed integer when it lies in [0, N), no
    position otherwise (the update entry is dropped). -/
def landPos (N : Nat) (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- Update entry e lands on operand entry n exactly when the table sends e to n. -/
theorem resultIdx_vec (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n) ↔ landPos N idx e = some n := by
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have s0 : (vecScatterDims N E wf).start (ix1 e) idx (0 : Fin 1) = (idx (ix2 e (0 : Fin 1))).toInt := by
    unfold ScatterDims.start
    rw [dif_pos (show (0 : Fin 1) ∈ (vecScatterDims N E wf).scatterDimsToOperandDims from List.mem_singleton.mpr rfl), hsi]
  have k0 : (0 : Fin 1) ∉ (vecScatterDims N E wf).sKept := by
    simp [ScatterDims.sKept, Shape.kept, List.mem_filter]
  have w0 : (vecScatterDims N E wf).window (ix1 e) (0 : Fin 1) = 0 := by
    unfold ScatterDims.window
    rw [dif_neg k0]
  unfold ScatterDims.resultIdx? landPos
  by_cases hl : 0 ≤ (idx (ix2 e (0 : Fin 1))).toInt ∧ (idx (ix2 e (0 : Fin 1))).toInt < (N : Int)
  · have hall : ∀ a, 0 ≤ (vecScatterDims N E wf).start (ix1 e) idx a + (vecScatterDims N E wf).window (ix1 e) a
        ∧ (vecScatterDims N E wf).start (ix1 e) idx a + (vecScatterDims N E wf).window (ix1 e) a
          < ((⟨1, ![N]⟩ : Shape).size a : Int) := by
      intro a
      obtain rfl : a = 0 := Subsingleton.elim _ _
      show 0 ≤ (vecScatterDims N E wf).start (ix1 e) idx (0 : Fin 1) + ((vecScatterDims N E wf).window (ix1 e) (0 : Fin 1) : Int)
        ∧ (vecScatterDims N E wf).start (ix1 e) idx (0 : Fin 1) + ((vecScatterDims N E wf).window (ix1 e) (0 : Fin 1) : Int) < (N : Int)
      rw [s0, w0]; omega
    rw [dif_pos hall, dif_pos hl]
    simp only [Option.some.injEq]
    constructor
    · intro h
      have e0 := congrArg (fun i => (i (0 : Fin 1)).val) h
      simp only at e0
      have e0' : ((vecScatterDims N E wf).start (ix1 e) idx (0 : Fin 1) + ((vecScatterDims N E wf).window (ix1 e) (0 : Fin 1) : Int)).toNat = n.val := e0
      rw [s0, w0] at e0'
      exact Fin.ext (by simp only; omega)
    · intro hn
      have hn' : (idx (ix2 e (0 : Fin 1))).toInt.toNat = n.val := congrArg Fin.val hn
      funext a; refine Fin.ext ?_
      obtain rfl : a = 0 := Subsingleton.elim _ _
      show ((vecScatterDims N E wf).start (ix1 e) idx (0 : Fin 1) + ((vecScatterDims N E wf).window (ix1 e) (0 : Fin 1) : Int)).toNat = n.val
      rw [s0, w0]; omega
  · have hnot : ¬ ∀ a, 0 ≤ (vecScatterDims N E wf).start (ix1 e) idx a + (vecScatterDims N E wf).window (ix1 e) a
        ∧ (vecScatterDims N E wf).start (ix1 e) idx a + (vecScatterDims N E wf).window (ix1 e) a
          < ((⟨1, ![N]⟩ : Shape).size a : Int) := by
      intro h
      have h0 := h (0 : Fin 1)
      rw [s0, w0] at h0
      have h0' : 0 ≤ (idx (ix2 e (0 : Fin 1))).toInt + ((0 : Nat) : Int) ∧ (idx (ix2 e (0 : Fin 1))).toInt + ((0 : Nat) : Int) < (N : Int) := h0
      exact hl (by omega)
    rw [dif_neg hnot, dif_neg hl]
    simp

/-- THE SCATTER BY ADDITION READ AT n, at the ideal values: the operand's entry plus the sum, over the update
    entries that land on n, of the update's entry. -/
theorem scatterAdd_vec_apply (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (vecScatterDims N E wf) x idx upd (ix1 n)
      = x (ix1 n) + ∑ e ∈ Finset.univ.filter (fun e : Fin E => landPos N idx e = some n), upd (ix1 e) := by
  unfold Ideal.hostScatterAdd
  congr 1
  rw [Finset.sum_filter, sum_idx1, Finset.sum_filter]
  refine Finset.sum_congr rfl fun e _ => ?_
  by_cases hL : landPos N idx e = some n
  · simp [resultIdx_vec, hL]
  · simp [resultIdx_vec, hL]

/-- The same, stated of the host operation's own spelling (at the ideal values it is that exact sum). -/
theorem host_scatterAdd_vec_apply {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatterDims N E wf) x idx upd (ix1 n)
      = x (ix1 n) + ∑ e ∈ Finset.univ.filter (fun e : Fin E => landPos N idx e = some n), upd (ix1 e) :=
  scatterAdd_vec_apply wf x idx upd n

end Cert.Lib.VectorGatherScatter

end
-- ==== Proof.KHostRead.lean ====
/-
  The idealized kernel's two host terms, read at an index.

  The edge array's two rows, sliced out and re-laid as vectors, read the edge array's entries. A vector spread to a
  one-column table reads the vector. The column of inverse square roots at node v is (max (deg v) eps)^(-1/2) with
  deg v the ones scattered at the targets into zeros, plus one: the specification's dinvK. The scattered sum at
  (v, c) is zero plus the sum, over the edges landing on v, of the gathered entry (source of the edge, c).
-/
import proofs.«175213_j3616362463494_2_alg».proof.Proof.KHostTerms
import proofs.«175213_j3616362463494_2_alg».proof.Proof.Spec
import proofs.«175213_j3616362463494_2_alg».proof.Proof.LibRowGatherScatter
import proofs.«175213_j3616362463494_2_alg».proof.Proof.LibVectorGatherScatter
import proofs.«175213_j3616362463494_2_alg».proof.Proof.LibKeepdims
import Idealize.ShloMosaic.Lib.Pipeline.Value
import Idealize.ShloMosaic.Lib.ValueIdx
import Idealize.ShloMosaic.Lib.ValueLayout
import Idealize.ShloMosaic.Lib.IdealHost

noncomputable section

open scoped BigOperators

namespace Cert.KernelIdeal.HostRead

open Cert.KernelIdeal Cert.KernelIdeal.HostTerms Idealize.ShloMosaic Idealize.ShloMosaic.ValueIdx

variable [Facts]
open Facts₀ Facts

/-! ## The words -/

/-- Row r of the edge array, sliced out and re-laid as a vector, reads the edge array at (r, e). -/
theorem srcVec_at (ei : IVec S2x1600000 32) (e : Fin 1600000) : srcVec ei (ix1 e) = ei (ix2 (0 : Fin 2) e) := by
  unfold srcVec
  refine (shapeCast_apply _ shapeCasts_S1x1600000_S1600000 (ix1 e) (ix2 (0 : Fin 1) e) ?_).trans ?_
  · rw [Shape.rowMajor_val_two, Shape.rowMajor_val_one]
    show 0 * 1600000 + e.val = e.val
    omega
  · exact extractStridedSlice_apply ![0, 0] ei slices_S2x1600000_S1x1600000_0_0 (ix2 (0 : Fin 1) e) (ix2 (0 : Fin 2) e)
      (fun a => match a with
        | ⟨0, _⟩ => by show (0 : Nat) = 0 + 0; rfl
        | ⟨1, _⟩ => by show e.val = 0 + e.val; omega)

theorem dstVec_at (ei : IVec S2x1600000 32) (e : Fin 1600000) : dstVec ei (ix1 e) = ei (ix2 (1 : Fin 2) e) := by
  unfold dstVec
  refine (shapeCast_apply _ shapeCasts_S1x1600000_S1600000 (ix1 e) (ix2 (0 : Fin 1) e) ?_).trans ?_
  · rw [Shape.rowMajor_val_two, Shape.rowMajor_val_one]
    show 0 * 1600000 + e.val = e.val
    omega
  · exact extractStridedSlice_apply ![1, 0] ei slices_S2x1600000_S1x1600000_1_0 (ix2 (0 : Fin 1) e) (ix2 (1 : Fin 2) e)
      (fun a => match a with
        | ⟨0, _⟩ => by show (1 : Nat) = 1 + 0; rfl
        | ⟨1, _⟩ => by show e.val = 0 + e.val; omega)

/-- A vector spread to a one-column table reads, at (e, 0), the vector at e. -/
theorem column_at {α : Type} (x : S1600000.Idx → α) (e : Fin 1600000) (u : Fin 1) :
    broadcastInDim S1600000x1 ![0] bcast_S1600000_S1600000x1_0 x (ix2 e u) = x (ix1 e) :=
  broadcastInDim_apply _ bcast_S1600000_S1600000x1_0 x (ix2 e u) (ix1 e) (fun a => match a with
    | ⟨0, _⟩ => by
      show e.val = if (1600000 : Nat) = 1 then 0 else e.val
      rw [if_neg (by decide)])

/-- The normalised source word of edge e. -/
theorem srcNorm_at (ei : IVec S2x1600000 32) (e : Fin 1600000) :
    srcNorm ei (ix1 e) = Cert.Gcn.norm (Cert.Gcn.srcW ei e) := by
  unfold srcNorm Cert.Gcn.norm Cert.Gcn.srcW
  rw [select_apply, ← srcVec_at ei e]
  rfl

/-! ## Where an edge reads and where it adds -/

/-- The table of targets sends edge e where the specification's lp does (entries scattered into a vector). -/
theorem landPos_vec (ei : IVec S2x1600000 32) (e : Fin 1600000) :
    Cert.Lib.VectorGatherScatter.landPos 100000
        (broadcastInDim S1600000x1 ![0] bcast_S1600000_S1600000x1_0 (dstVec ei)) e = Cert.Gcn.lp ei e := by
  have hw : broadcastInDim S1600000x1 ![0] bcast_S1600000_S1600000x1_0 (dstVec ei) (ix2 e (0 : Fin 1))
      = Cert.Gcn.dstW ei e := (column_at (dstVec ei) e 0).trans (dstVec_at ei e)
  show Cert.Gcn.landOf 100000 (broadcastInDim S1600000x1 ![0] bcast_S1600000_S1600000x1_0 (dstVec ei) (ix2 e (0 : Fin 1)))
    = Cert.Gcn.lp ei e
  rw [hw]
  rfl

/-- The same for rows scattered into a matrix. -/
theorem landPos_rows (ei : IVec S2x1600000 32) (e : Fin 1600000) :
    Cert.Lib.RowGatherScatter.landPos 100000
        (broadcastInDim S1600000x1 ![0] bcast_S1600000_S1600000x1_0 (dstVec ei)) e = Cert.Gcn.lp ei e := by
  have hw : broadcastInDim S1600000x1 ![0] bcast_S1600000_S1600000x1_0 (dstVec ei) (ix2 e (0 : Fin 1))
      = Cert.Gcn.dstW ei e := (column_at (dstVec ei) e 0).trans (dstVec_at ei e)
  show Cert.Gcn.landOf 100000 (broadcastInDim S1600000x1 ![0] bcast_S1600000_S1600000x1_0 (dstVec ei) (ix2 e (0 : Fin 1)))
    = Cert.Gcn.lp ei e
  rw [hw]
  rfl

/-- The table of normalised sources makes edge e read the row the specification's sp names. -/
theorem gatherPos_rows (ei : IVec S2x1600000 32) (e : Fin 1600000) :
    Cert.Lib.RowGatherScatter.gatherPos Cert.Gcn.nodes_pos
        (broadcastInDim S1600000x1 ![0] bcast_S1600000_S1600000x1_0 (srcNorm ei)) e = Cert.Gcn.sp ei e := by
  have hw : broadcastInDim S1600000x1 ![0] bcast_S1600000_S1600000x1_0 (srcNorm ei) (ix2 e (0 : Fin 1))
      = Cert.Gcn.norm (Cert.Gcn.srcW ei e) := (column_at (srcNorm ei) e 0).trans (srcNorm_at ei e)
  apply Fin.ext
  show min (broadcastInDim S1600000x1 ![0] bcast_S1600000_S1600000x1_0 (srcNorm ei) (ix2 e (0 : Fin 1))).toInt.toNat (100000 - 1)
    = min (Cert.Gcn.norm (Cert.Gcn.srcW ei e)).toInt.toNat (100000 - 1)
  rw [hw]

/-! ## The column of inverse square roots -/

/-- Ones scattered at the targets into zeros: zero plus one per edge landing on v. -/
theorem count_at (ei : IVec S2x1600000 32) (v : Fin 100000) :
    Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 (dstVec ei))
        (broadcastInDim S1600000 ![] bcast_S_S1600000 (constant (F := Ideal) S_ .f32 0x3F800000#32)) (ix1 v)
      = Cert.Gcn.zero + ∑ e ∈ Finset.univ.filter (fun e : Fin 1600000 => Cert.Gcn.lp ei e = some v), Cert.Gcn.one := by
  refine (Cert.Lib.VectorGatherScatter.host_scatterAdd_vec_apply (N := 100000) (E := 1600000)
    scatter_S100000_S1600000x1_S1600000_n_0_0_1_wf _ _ _ v).trans ?_
  have hf : Finset.univ.filter (fun e : Fin 1600000 => Cert.Lib.VectorGatherScatter.landPos 100000
        (broadcastInDim S1600000x1 ![0] bcast_S1600000_S1600000x1_0 (dstVec ei)) e = some v)
      = Finset.univ.filter (fun e : Fin 1600000 => Cert.Gcn.lp ei e = some v) :=
    Finset.filter_congr (fun e _ => by rw [landPos_vec ei e])
  rw [hf]
  have hz : broadcastInDim S100000 ![] bcast_S_S100000 (constant (F := Ideal) S_ .f32 0x00000000#32) (ix1 v) = Cert.Gcn.zero :=
    broadcastInDim_scalar_apply _ _ _
  have ho : ∀ e ∈ Finset.univ.filter (fun e : Fin 1600000 => Cert.Gcn.lp ei e = some v),
      broadcastInDim S1600000 ![] bcast_S_S1600000 (constant (F := Ideal) S_ .f32 0x3F800000#32) (ix1 e) = Cert.Gcn.one :=
    fun e _ => broadcastInDim_scalar_apply _ _ _
  rw [hz, Finset.sum_congr rfl ho]

theorem dinvCol_at (ei : IVec S2x1600000 32) (v : Fin 100000) (u : Fin 1) : dinvCol ei (ix2 v u) = Cert.Gcn.dinvK ei v := by
  unfold dinvCol
  refine (Cert.Lib.Keepdims.shapeCast_a_a1_apply _ shapeCasts_S100000_S100000x1 v u).trans ?_
  have h1 : ∀ (x : FVec Ideal S100000 .f32) (i : S100000.Idx), Host.rsqrt x i = Ideal.rsqrt (x i) := fun _ _ => rfl
  rw [h1, maximumf_apply, addf_apply, count_at]
  have ho : broadcastInDim S100000 ![] bcast_S_S100000 (constant (F := Ideal) S_ .f32 0x3F800000#32) (ix1 v) = Cert.Gcn.one :=
    broadcastInDim_scalar_apply _ _ _
  have he : broadcastInDim S100000 ![] bcast_S_S100000 (constant (F := Ideal) S_ .f32 0x2B8CBCCC#32) (ix1 v) = Cert.Gcn.eps :=
    broadcastInDim_scalar_apply _ _ _
  rw [ho, he]
  rfl

/-! ## The scattered sum -/

theorem summed_at (hs : FVec Ideal S100000x32 .bf16) (ei : IVec S2x1600000 32) (v : Fin 100000) (c : Fin 32) :
    summed hs ei (ix2 v c)
      = Cert.Gcn.zero + ∑ e ∈ Finset.univ.filter (fun e : Fin 1600000 => Cert.Gcn.lp ei e = some v), hs (ix2 (Cert.Gcn.sp ei e) c) := by
  unfold summed
  refine (Cert.Lib.RowGatherScatter.host_scatterAdd_rows_apply (N := 100000) (E := 1600000) (C := 32)
    scatter_S100000x32_S1600000x1_S1600000x32_1_0_0_1_wf _ _ _ v c).trans ?_
  have hf : Finset.univ.filter (fun e : Fin 1600000 => Cert.Lib.RowGatherScatter.landPos 100000
        (broadcastInDim S1600000x1 ![0] bcast_S1600000_S1600000x1_0 (dstVec ei)) e = some v)
      = Finset.univ.filter (fun e : Fin 1600000 => Cert.Gcn.lp ei e = some v) :=
    Finset.filter_congr (fun e _ => by rw [landPos_rows ei e])
  rw [hf]
  have hb : ∀ e ∈ Finset.univ.filter (fun e : Fin 1600000 => Cert.Gcn.lp ei e = some v),
      (extf .f32 (Host.gather gather_S100000x32_S1600000x1_S1600000x32_1_0_n_n_0_1_132 hs
          (broadcastInDim S1600000x1 ![0] bcast_S1600000_S1600000x1_0 (srcNorm ei))) bitsLt_bf16_f32 : FVec Ideal S1600000x32 .f32) (ix2 e c)
        = hs (ix2 (Cert.Gcn.sp ei e) c) := by
    intro e _
    rw [extf_apply]
    refine (Cert.Lib.RowGatherScatter.gather_rows_apply (N := 100000) (E := 1600000) (C := 32) Cert.Gcn.nodes_pos
      gather_S100000x32_S1600000x1_S1600000x32_1_0_n_n_0_1_132_wf hs _ e c).trans ?_
    rw [gatherPos_rows ei e]
  rw [Finset.sum_congr rfl hb]
  have hz : broadcastInDim S100000x32 ![] bcast_S_S100000x32 (constant (F := Ideal) S_ .f32 0x00000000#32) (ix2 v c) = Cert.Gcn.zero :=
    broadcastInDim_scalar_apply _ _ _
  rw [hz]

/-! ## A vector viewed as its one row -/

omit [Facts] in
theorem rowCast_at {D : Nat} (b : (⟨1, ![D]⟩ : Shape).Idx → EReal) (h : (⟨1, ![D]⟩ : Shape).ShapeCasts ⟨2, ![1, D]⟩) (q : Fin D) :
    shapeCast ⟨2, ![1, D]⟩ b h (ix2 (0 : Fin 1) q) = b (ix1 q) :=
  shapeCast_a_1a_apply b h 0 q

end Cert.KernelIdeal.HostRead

end
-- ==== Proof.KFinal.lean ====
/-
  The idealized kernel's result at an entry. Row v of the result is the head applied to the row
      d v · (0 + sum over the edges e landing on v of h (source e) c · d (source e)) + h v c · (d v · d v),   c < 32,
  where d is the inverse square root of the degree and h the projection: the specification's `aggK`.
-/
import proofs.«175213_j3616362463494_2_alg».proof.Proof.KValue
import proofs.«175213_j3616362463494_2_alg».proof.Proof.KHostRead
import proofs.«175213_j3616362463494_2_alg».proof.Proof.Spec

noncomputable section

open scoped BigOperators

namespace Cert.KernelIdeal.Value

open Cert.KernelIdeal Cert.KernelIdeal.HostTerms Cert.KernelIdeal.HostRead Idealize.ShloMosaic Idealize.ShloMosaic.ValueIdx
open Cert.KernelIdeal.Region0 (hArr hsArr)
open Cert.KernelIdeal.Region1 (headArr)

/-- The aggregate row the head region forms at node v is the specification's. -/
theorem agg_row (x : S100000x100.Idx → EReal) (ei : IVec S2x1600000 32) (wc : S100x32.Idx → EReal) (v : Fin 100000) (c : Fin 32) :
    dinvCol ei (ix2 v (0 : Fin 1)) * summed (hsArr x wc (dinvCol ei)) ei (ix2 v c)
        + hArr x wc (ix2 v c) * (dinvCol ei (ix2 v (0 : Fin 1)) * dinvCol ei (ix2 v (0 : Fin 1)))
      = Cert.Gcn.aggK ei x wc v c := by
  rw [dinvCol_at, summed_at]
  unfold Cert.Gcn.aggK
  have hs : ∀ e ∈ Finset.univ.filter (fun e : Fin 1600000 => Cert.Gcn.lp ei e = some v),
      hsArr x wc (dinvCol ei) (ix2 (Cert.Gcn.sp ei e) c) = Cert.Gcn.hlin x wc (Cert.Gcn.sp ei e) c * Cert.Gcn.dinvK ei (Cert.Gcn.sp ei e) := by
    intro e _
    show Cert.Gcn.hlin x wc (Cert.Gcn.sp ei e) c * dinvCol ei (ix2 (Cert.Gcn.sp ei e) (0 : Fin 1)) = _
    rw [dinvCol_at]
  rw [Finset.sum_congr rfl hs]
  rfl

theorem kernelArr_at (x : S100000x100.Idx → EReal) (ei : IVec S2x1600000 32) (wc : S100x32.Idx → EReal) (b4 : S32.Idx → EReal)
    (w1 : S32x16.Idx → EReal) (b6 : S16.Idx → EReal) (w2 : S16x8.Idx → EReal) (b8 : S8.Idx → EReal) (w3 : S8x10.Idx → EReal)
    (b10 : S10.Idx → EReal) (v : Fin 100000) (q : Fin 10) :
    kernelArr x ei wc b4 w1 b6 w2 b8 w3 b10 (ix2 v q)
      = Cert.Gcn.headRow (fun c => Cert.Gcn.aggK ei x wc v c) (fun c => b4 (ix1 c)) w1 (fun j => b6 (ix1 j)) w2 (fun k => b8 (ix1 k)) w3
          (fun q' => b10 (ix1 q')) q := by
  have ha : (fun c : Fin 32 => dinvCol ei (ix2 v (0 : Fin 1)) * summed (hsArr x wc (dinvCol ei)) ei (ix2 v c)
        + hArr x wc (ix2 v c) * (dinvCol ei (ix2 v (0 : Fin 1)) * dinvCol ei (ix2 v (0 : Fin 1))))
      = fun c : Fin 32 => Cert.Gcn.aggK ei x wc v c := funext fun c => agg_row x ei wc v c
  have h4 : (fun c : Fin 32 => shapeCast S1x32 b4 Facts₀.shapeCasts_S32_S1x32 (ix2 (0 : Fin 1) c)) = fun c => b4 (ix1 c) :=
    funext fun c => rowCast_at b4 _ c
  have h6 : (fun j : Fin 16 => shapeCast S1x16 b6 Facts₀.shapeCasts_S16_S1x16 (ix2 (0 : Fin 1) j)) = fun j => b6 (ix1 j) :=
    funext fun j => rowCast_at b6 _ j
  have h8 : (fun k : Fin 8 => shapeCast S1x8 b8 Facts₀.shapeCasts_S8_S1x8 (ix2 (0 : Fin 1) k)) = fun k => b8 (ix1 k) :=
    funext fun k => rowCast_at b8 _ k
  have h10 : (fun q' : Fin 10 => shapeCast S1x10 b10 Facts₀.shapeCasts_S10_S1x10 (ix2 (0 : Fin 1) q')) = fun q' => b10 (ix1 q') :=
    funext fun q' => rowCast_at b10 _ q'
  show Cert.Gcn.headRow
      (fun c : Fin 32 => dinvCol ei (ix2 v (0 : Fin 1)) * summed (hsArr x wc (dinvCol ei)) ei (ix2 v c)
        + hArr x wc (ix2 v c) * (dinvCol ei (ix2 v (0 : Fin 1)) * dinvCol ei (ix2 v (0 : Fin 1))))
      (fun c : Fin 32 => shapeCast S1x32 b4 Facts₀.shapeCasts_S32_S1x32 (ix2 (0 : Fin 1) c)) w1
      (fun j : Fin 16 => shapeCast S1x16 b6 Facts₀.shapeCasts_S16_S1x16 (ix2 (0 : Fin 1) j)) w2
      (fun k : Fin 8 => shapeCast S1x8 b8 Facts₀.shapeCasts_S8_S1x8 (ix2 (0 : Fin 1) k)) w3
      (fun q' : Fin 10 => shapeCast S1x10 b10 Facts₀.shapeCasts_S10_S1x10 (ix2 (0 : Fin 1) q')) q = _
  rw [ha, h4, h6, h8, h10]

end Cert.KernelIdeal.Value

end
-- ==== Proof.RefHead.lean ====
/-
  The reference's head, read at one entry.

  After the aggregated array a : [100000, 32] the reference adds a bias, rectifies, applies three dense layers (each a
  product with a weight matrix plus a bias, the first two rectified) and takes the logarithmic softmax over the ten
  classes. A bias vector [D] is made a row [1, D] and the row spread over the 100000 rows, so at (v, q) it reads the bias
  at q; a rectifier is the maximum with a zero spread everywhere; a product at (v, q) is the plain sum over the contracted
  coordinate. The softmax takes the row's maximum as a reduction from minus infinity, then once more the maximum with
  minus infinity, which changes nothing because a fold of maxima is at least its initial value; the logits are shifted by
  it, their exponentials summed from zero (and zero plus a sum is the sum), and the sum's logarithm subtracted. So the
  result at (v, q) is the specification's head applied to row v of the aggregated array; nothing here needs the entries
  to be finite.
-/
import proofs.«175213_j3616362463494_2_alg».proof.Proof.ReadP
import proofs.«175213_j3616362463494_2_alg».proof.Proof.Spec
import proofs.«175213_j3616362463494_2_alg».proof.Proof.LibMlpAt
import proofs.«175213_j3616362463494_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gcn.Ref

open Cert.ReferenceIdeal Cert.ReferenceIdeal.ReadP Idealize.ShloMosaic Idealize.ShloMosaic.ValueIdx

/-! ## Layout operations at an entry -/

/-- A [D] bias made a row and the row spread over the rows of [N, D] reads, at (r, q), the bias at q. -/
theorem biasRows_at {N D : Nat} {α : Type} (h1 : (⟨1, ![D]⟩ : Shape).BroadcastsInDim ⟨2, ![1, D]⟩ (![1] : Fin 1 → Fin 2))
    (h2 : (⟨2, ![1, D]⟩ : Shape).BroadcastsInDim ⟨2, ![N, D]⟩ (![0, 1] : Fin 2 → Fin 2)) (b : (⟨1, ![D]⟩ : Shape).Idx → α)
    (r : Fin N) (q : Fin D) :
    broadcastInDim ⟨2, ![N, D]⟩ (![0, 1] : Fin 2 → Fin 2) h2 (broadcastInDim ⟨2, ![1, D]⟩ (![1] : Fin 1 → Fin 2) h1 b) (ix2 r q)
      = b (ix1 q) := by
  rw [Cert.Mlp.bcastRow_at]
  refine broadcastInDim_apply _ h1 b (ix2 (0 : Fin 1) q) (ix1 q) fun ax => ?_
  match ax with
  | ⟨0, _⟩ =>
    show q.val = if D = 1 then 0 else q.val
    split
    · have := q.isLt; omega
    · rfl

/-- An [N] vector made a column reads, at (r, u), the vector at r. -/
theorem vecCol_at {N : Nat} {α : Type} (h : (⟨1, ![N]⟩ : Shape).BroadcastsInDim ⟨2, ![N, 1]⟩ (![0] : Fin 1 → Fin 2))
    (x : (⟨1, ![N]⟩ : Shape).Idx → α) (r : Fin N) (u : Fin 1) :
    broadcastInDim ⟨2, ![N, 1]⟩ (![0] : Fin 1 → Fin 2) h x (ix2 r u) = x (ix1 r) := by
  refine broadcastInDim_apply _ h x (ix2 r u) (ix1 r) fun ax => ?_
  match ax with
  | ⟨0, _⟩ =>
    show r.val = if N = 1 then 0 else r.val
    split
    · have := r.isLt; omega
    · rfl

/-- An [N, 1] column spread over D lanes reads, at (r, q), the column's entry of row r. -/
theorem colLanes_at {N D : Nat} {α : Type} (h : (⟨2, ![N, 1]⟩ : Shape).BroadcastsInDim ⟨2, ![N, D]⟩ (![0, 1] : Fin 2 → Fin 2))
    (w : (⟨2, ![N, 1]⟩ : Shape).Idx → α) (r : Fin N) (q : Fin D) :
    broadcastInDim ⟨2, ![N, D]⟩ (![0, 1] : Fin 2 → Fin 2) h w (ix2 r q) = w (ix2 r (0 : Fin 1)) := by
  refine broadcastInDim_apply _ h w (ix2 r q) (ix2 r (0 : Fin 1)) fun ax => ?_
  match ax with
  | ⟨0, _⟩ =>
    show r.val = if N = 1 then 0 else r.val
    split
    · have := r.isLt; omega
    · rfl
  | ⟨1, _⟩ => rfl

/-- A scalar spread over a vector reads the scalar everywhere. -/
theorem scalarVec_at {N : Nat} {α : Type} (h : (⟨0, ![]⟩ : Shape).BroadcastsInDim ⟨1, ![N]⟩ (![] : Fin 0 → Fin 1))
    (c : (⟨0, ![]⟩ : Shape).Idx → α) (i : (⟨1, ![N]⟩ : Shape).Idx) :
    broadcastInDim ⟨1, ![N]⟩ (![] : Fin 0 → Fin 1) h c i = c ix0 :=
  broadcastInDim_apply _ h c i ix0 fun ax => ax.elim0

/-! ## A dense layer of the reference at an entry -/

/-- The product plus the bias spread over the rows is the affine map of row r. -/
theorem dense_at {N K D : Nat} (w : DotDims.WF ⟨2, ![N, K]⟩ ⟨2, ![K, D]⟩ ⟨2, ![N, D]⟩ [1] [0] [0] [1] [] [])
    (h1 : (⟨1, ![D]⟩ : Shape).BroadcastsInDim ⟨2, ![1, D]⟩ (![1] : Fin 1 → Fin 2))
    (h2 : (⟨2, ![1, D]⟩ : Shape).BroadcastsInDim ⟨2, ![N, D]⟩ (![0, 1] : Fin 2 → Fin 2))
    (x : FVec Ideal ⟨2, ![N, K]⟩ .f32) (wa : FVec Ideal ⟨2, ![K, D]⟩ .f32) (b : FVec Ideal ⟨1, ![D]⟩ .f32) (r : Fin N) (q : Fin D) :
    addf (Host.dotGeneral (Cert.Mlp.D2 w) none x wa)
        (broadcastInDim ⟨2, ![N, D]⟩ (![0, 1] : Fin 2 → Fin 2) h2 (broadcastInDim ⟨2, ![1, D]⟩ (![1] : Fin 1 → Fin 2) h1 b)) (ix2 r q)
      = Cert.Gcn.affine (fun k => x (ix2 r k)) wa (fun q' => b (ix1 q')) q := by
  unfold Cert.Gcn.affine
  rw [addf_apply, Cert.Mlp.dotGeneral_at, biasRows_at]

/-- A rectified dense layer: the maximum with a zero spread everywhere. -/
theorem relu_dense_at {N K D : Nat} (w : DotDims.WF ⟨2, ![N, K]⟩ ⟨2, ![K, D]⟩ ⟨2, ![N, D]⟩ [1] [0] [0] [1] [] [])
    (h1 : (⟨1, ![D]⟩ : Shape).BroadcastsInDim ⟨2, ![1, D]⟩ (![1] : Fin 1 → Fin 2))
    (h2 : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (b : FVec Ideal ⟨1, ![D]⟩ .f32) (r : Fin N) (q : Fin D) :
    maximumf (addf (Host.dotGeneral (Cert.Mlp.D2 w) none x wa)
        (broadcastInDim ⟨2, ![N, D]⟩ (![0, 1] : Fin 2 → Fin 2) h2 (broadcastInDim ⟨2, ![1, D]⟩ (![1] : Fin 1 → Fin 2) h1 b)))
        (broadcastInDim ⟨2, ![N, D]⟩ (![] : Fin 0 → Fin 2) hz (constant (F := Ideal) ⟨0, ![]⟩ .f32 0x00000000#32)) (ix2 r q)
      = Cert.Gcn.relu (Cert.Gcn.affine (fun k => x (ix2 r k)) wa (fun q' => b (ix1 q')) q) := by
  rw [maximumf_apply, Cert.Mlp.bcastScalar_at, dense_at]
  rfl

/-! ## The logarithmic softmax of the reference at an entry -/

/-- The reference's exponential at an index is the exponential of the element. -/
theorem hostExp_at {s : Shape} {φ : FTy} (a : FVec Ideal s φ) (i : s.Idx) : Host.exp a i = Ideal.exp (a i) := rfl

/-- The reference's logarithm at an index is the logarithm of the element. -/
theorem hostLog_at {s : Shape} {φ : FTy} (a : FVec Ideal s φ) (i : s.Idx) : Host.log a i = Ideal.log (a i) := rfl

/-- The reduction with a maximum body along the ten lanes of row v, from minus infinity. -/
theorem hostRowMax_at (rt : S100000x10.ReducesTo [1] S100000) (hS : 0 < S_.numel) (z : FVec Ideal S100000x10 .f32) (v : Fin 100000) :
    Host.reduce (FloatOps.maximumf (F := Ideal) (φ := .f32)) z (constant (F := Ideal) S_ .f32 0xFF800000#32) rt hS (ix1 v)
      = (Finset.univ : Finset (Fin 10)).fold max Cert.Gcn.ninf (fun k => z (ix2 v k)) := by
  have h : S100000x10.Reduces [1] S100000 := by decide
  refine (Host.reduce_eq_fold_single (FloatOps.maximumf (F := Ideal) (φ := .f32)) z _ rt h hS (ix1 v)).trans ?_
  show (Finset.univ : Finset (Fin 10)).fold max (Ideal.ofBits .f32 0xFF800000#32) (z ∘ h.lift (ix1 v)) = _
  refine congrArg (fun f => (Finset.univ : Finset (Fin 10)).fold max Cert.Gcn.ninf f) (funext fun k => ?_)
  exact congrArg z (Cert.Lib.Keepdims.lift_axis1 h v k)

/-- The sum along the ten lanes of row v, from zero. -/
theorem hostRowSum_at (rt : S100000x10.ReducesTo [1] S100000) (hS : 0 < S_.numel) (y : FVec Ideal S100000x10 .f32) (v : Fin 100000) :
    Host.reduceAdd y (constant (F := Ideal) S_ .f32 0x00000000#32) rt hS (ix1 v) = ∑ k : Fin 10, y (ix2 v k) := by
  have h : S100000x10.Reduces [1] S100000 := by decide
  show Ideal.hostReduceAdd rt y (Ideal.ofBits .f32 0x00000000#32) (ix1 v) = _
  rw [Ideal.hostReduceAdd_single rt h, Ideal.ofBits_zero_f32, zero_add]
  show ∑ k : Fin 10, y (h.lift (ix1 v) k) = _
  exact Finset.sum_congr rfl fun k _ => congrArg y (Cert.Lib.Keepdims.lift_axis1 h v k)

/-- The logits shifted by the row's maximum; the maximum with minus infinity taken first changes nothing, a fold of
    maxima being at least its initial value. -/
theorem hostShift_at (rt : S100000x10.ReducesTo [1] S100000) (hS : 0 < S_.numel)
    (hs : S_.BroadcastsInDim S100000 (![] : Fin 0 → Fin 1)) (hc : S100000.BroadcastsInDim S100000x1 (![0] : Fin 1 → Fin 2))
    (hl : S100000x1.BroadcastsInDim S100000x10 (![0, 1] : Fin 2 → Fin 2)) (z : FVec Ideal S100000x10 .f32) (v : Fin 100000) (q : Fin 10) :
    subf z (broadcastInDim S100000x10 (![0, 1] : Fin 2 → Fin 2) hl (broadcastInDim S100000x1 (![0] : Fin 1 → Fin 2) hc
        (maximumf (broadcastInDim S100000 (![] : Fin 0 → Fin 1) hs (constant (F := Ideal) S_ .f32 0xFF800000#32))
          (Host.reduce (FloatOps.maximumf (F := Ideal) (φ := .f32)) z (constant (F := Ideal) S_ .f32 0xFF800000#32) rt hS)))) (ix2 v q)
      = z (ix2 v q) - (Finset.univ : Finset (Fin 10)).fold max Cert.Gcn.ninf (fun k => z (ix2 v k)) := by
  rw [subf_apply, colLanes_at, vecCol_at, maximumf_apply, scalarVec_at, constant_apply]
  refine congrArg (fun m => z (ix2 v q) - m) ?_
  refine (congrArg (max (Ideal.ofBits .f32 0xFF800000#32)) (hostRowMax_at rt hS z v)).trans ?_
  exact max_eq_right ((Finset.le_fold_max _).mpr (Or.inl le_rfl))

/-- The shifted logits minus the logarithm of the sum of their exponentials. -/
theorem hostTail_at (rt : S100000x10.ReducesTo [1] S100000) (hS : 0 < S_.numel)
    (hc : S100000.BroadcastsInDim S100000x1 (![0] : Fin 1 → Fin 2))
    (hl : S100000x1.BroadcastsInDim S100000x10 (![0, 1] : Fin 2 → Fin 2)) (y : FVec Ideal S100000x10 .f32) (v : Fin 100000) (q : Fin 10) :
    subf y (broadcastInDim S100000x10 (![0, 1] : Fin 2 → Fin 2) hl (Host.log (broadcastInDim S100000x1 (![0] : Fin 1 → Fin 2) hc
        (Host.reduceAdd (Host.exp y) (constant (F := Ideal) S_ .f32 0x00000000#32) rt hS)))) (ix2 v q)
      = y (ix2 v q) - Ideal.log (∑ k : Fin 10, Ideal.exp (y (ix2 v k))) := by
  rw [subf_apply, colLanes_at, hostLog_at, vecCol_at, hostRowSum_at]
  rfl

/-- The whole softmax over any logits z: row v's logarithmic softmax at lane q. -/
theorem hostLsm_at (rt : S100000x10.ReducesTo [1] S100000) (hS : 0 < S_.numel)
    (hs : S_.BroadcastsInDim S100000 (![] : Fin 0 → Fin 1)) (hc : S100000.BroadcastsInDim S100000x1 (![0] : Fin 1 → Fin 2))
    (hl : S100000x1.BroadcastsInDim S100000x10 (![0, 1] : Fin 2 → Fin 2)) (z : FVec Ideal S100000x10 .f32) (v : Fin 100000) (q : Fin 10) :
    subf (subf z (broadcastInDim S100000x10 (![0, 1] : Fin 2 → Fin 2) hl (broadcastInDim S100000x1 (![0] : Fin 1 → Fin 2) hc
          (maximumf (broadcastInDim S100000 (![] : Fin 0 → Fin 1) hs (constant (F := Ideal) S_ .f32 0xFF800000#32))
            (Host.reduce (FloatOps.maximumf (F := Ideal) (φ := .f32)) z (constant (F := Ideal) S_ .f32 0xFF800000#32) rt hS)))))
        (broadcastInDim S100000x10 (![0, 1] : Fin 2 → Fin 2) hl (Host.log (broadcastInDim S100000x1 (![0] : Fin 1 → Fin 2) hc
          (Host.reduceAdd (Host.exp (subf z (broadcastInDim S100000x10 (![0, 1] : Fin 2 → Fin 2) hl
              (broadcastInDim S100000x1 (![0] : Fin 1 → Fin 2) hc
                (maximumf (broadcastInDim S100000 (![] : Fin 0 → Fin 1) hs (constant (F := Ideal) S_ .f32 0xFF800000#32))
                  (Host.reduce (FloatOps.maximumf (F := Ideal) (φ := .f32)) z (constant (F := Ideal) S_ .f32 0xFF800000#32) rt hS))))))
            (constant (F := Ideal) S_ .f32 0x00000000#32) rt hS)))) (ix2 v q)
      = Cert.Gcn.logSoftmax (fun q' => z (ix2 v q')) q := by
  refine (hostTail_at rt hS hc hl _ v q).trans ?_
  unfold Cert.Gcn.logSoftmax
  exact congrArg₂ (fun a b => a - Ideal.log b) (hostShift_at rt hS hs hc hl z v q)
    (Finset.sum_congr rfl fun k _ => congrArg Ideal.exp (hostShift_at rt hS hs hc hl z v k))

/-! ## The reference's stages after the aggregate -/

section Stages

variable (x0 : (⟨S100000x100, .f32⟩ : BufTy).Contents (Elt Ideal)) (x1 : (⟨S2x1600000, .i32⟩ : BufTy).Contents (Elt Ideal))
  (x3 : (⟨S100x32, .f32⟩ : BufTy).Contents (Elt Ideal)) (x4 : (⟨S32, .f32⟩ : BufTy).Contents (Elt Ideal))
  (x5 : (⟨S32x16, .f32⟩ : BufTy).Contents (Elt Ideal)) (x6 : (⟨S16, .f32⟩ : BufTy).Contents (Elt Ideal))
  (x7 : (⟨S16x8, .f32⟩ : BufTy).Contents (Elt Ideal)) (x8 : (⟨S8, .f32⟩ : BufTy).Contents (Elt Ideal))
  (x9 : (⟨S8x10, .f32⟩ : BufTy).Contents (Elt Ideal)) (x10 : (⟨S10, .f32⟩ : BufTy).Contents (Elt Ideal))

/-- The aggregate plus its bias, rectified. -/
theorem v46_at (v : Fin 100000) (c : Fin 32) :
    val_main_v46 (F := Ideal) x0 x1 x3 x4 (ix2 v c)
      = Cert.Gcn.relu (val_main_v42 (F := Ideal) x0 x1 x3 (ix2 v c) + x4 (ix1 c)) := by
  unfold val_main_v46 val_main_v45 val_main_v44 val_main_v43 val_main_call0_v0 val_main_call0_cst
  rw [maximumf_apply, addf_apply, biasRows_at, Cert.Mlp.bcastScalar_at]
  rfl

/-- The first dense layer, rectified. -/
theorem v51_at (v : Fin 100000) (j : Fin 16) :
    val_main_v51 (F := Ideal) x0 x1 x3 x4 x5 x6 (ix2 v j)
      = Cert.Gcn.relu (Cert.Gcn.affine (fun c => val_main_v46 (F := Ideal) x0 x1 x3 x4 (ix2 v c)) x5 (fun j' => x6 (ix1 j')) j) := by
  unfold val_main_v51 val_main_v50 val_main_v49 val_main_v48 val_main_v47 val_main_call1_v0 val_main_call1_cst
  exact relu_dense_at dot_S100000x32_S32x16_S100000x16_1_0_0_1_n_n.wf _ _ _ (val_main_v46 (F := Ideal) x0 x1 x3 x4) x5 x6 v j

/-- The second dense layer, rectified. -/
theorem v56_at (v : Fin 100000) (k : Fin 8) :
    val_main_v56 (F := Ideal) x0 x1 x3 x4 x5 x6 x7 x8 (ix2 v k)
      = Cert.Gcn.relu (Cert.Gcn.affine (fun j => val_main_v51 (F := Ideal) x0 x1 x3 x4 x5 x6 (ix2 v j)) x7 (fun k' => x8 (ix1 k')) k) := by
  unfold val_main_v56 val_main_v55 val_main_v54 val_main_v53 val_main_v52 val_main_call2_v0 val_main_call2_cst
  exact relu_dense_at dot_S100000x16_S16x8_S100000x8_1_0_0_1_n_n.wf _ _ _ (val_main_v51 (F := Ideal) x0 x1 x3 x4 x5 x6) x7 x8 v k

/-- The third dense layer: the ten logits. -/
theorem v60_at (v : Fin 100000) (q : Fin 10) :
    val_main_v60 (F := Ideal) x0 x1 x3 x4 x5 x6 x7 x8 x9 x10 (ix2 v q)
      = Cert.Gcn.affine (fun k => val_main_v56 (F := Ideal) x0 x1 x3 x4 x5 x6 x7 x8 (ix2 v k)) x9 (fun q' => x10 (ix1 q')) q := by
  unfold val_main_v60 val_main_v59 val_main_v58 val_main_v57
  exact dense_at dot_S100000x8_S8x10_S100000x10_1_0_0_1_n_n.wf _ _ (val_main_v56 (F := Ideal) x0 x1 x3 x4 x5 x6 x7 x8) x9 x10 v q

/-- The reference's result at (v, q) is the specification's head applied to the aggregate row of node v. -/
theorem ref_head_at (x0 : (⟨S100000x100, .f32⟩ : BufTy).Contents (Elt Ideal)) (x1 : (⟨S2x1600000, .i32⟩ : BufTy).Contents (Elt Ideal))
    (x3 : (⟨S100x32, .f32⟩ : BufTy).Contents (Elt Ideal)) (x4 : (⟨S32, .f32⟩ : BufTy).Contents (Elt Ideal)) (x5 : (⟨S32x16, .f32⟩ : BufTy).Contents (Elt Ideal))
    (x6 : (⟨S16, .f32⟩ : BufTy).Contents (Elt Ideal)) (x7 : (⟨S16x8, .f32⟩ : BufTy).Contents (Elt Ideal)) (x8 : (⟨S8, .f32⟩ : BufTy).Contents (Elt Ideal))
    (x9 : (⟨S8x10, .f32⟩ : BufTy).Contents (Elt Ideal)) (x10 : (⟨S10, .f32⟩ : BufTy).Contents (Elt Ideal)) (v : Fin 100000) (q : Fin 10) :
    val_main_v61 (F := Ideal) x0 x1 x3 x4 x5 x6 x7 x8 x9 x10 (ix2 v q)
      = Cert.Gcn.headRow (fun c => val_main_v42 (F := Ideal) x0 x1 x3 (ix2 v c)) (fun c => x4 (ix1 c)) x5 (fun j => x6 (ix1 j)) x7
          (fun k => x8 (ix1 k)) x9 (fun q' => x10 (ix1 q')) q := by
  unfold val_main_v61 val_main_call3_v10 val_main_call3_v9 val_main_call3_v8 val_main_call3_v7 val_main_call3_v6 val_main_call3_v5
    val_main_call3_v4 val_main_call3_v3 val_main_call3_v2 val_main_call3_v1 val_main_call3_v0 val_main_call3_cst val_main_call3_cst_0
    val_main_call3_cst_1
  refine (hostLsm_at _ _ _ _ _ (val_main_v60 (F := Ideal) x0 x1 x3 x4 x5 x6 x7 x8 x9 x10) v q).trans ?_
  unfold Cert.Gcn.headRow Cert.Gcn.logits
  refine congrArg (fun z => Cert.Gcn.logSoftmax z q) (funext fun q' => ?_)
  refine (v60_at x0 x1 x3 x4 x5 x6 x7 x8 x9 x10 v q').trans ?_
  refine congrArg (fun z => Cert.Gcn.affine z x9 (fun q'' => x10 (ix1 q'')) q') (funext fun k => ?_)
  refine (v56_at x0 x1 x3 x4 x5 x6 x7 x8 v k).trans ?_
  refine congrArg (fun z => Cert.Gcn.relu (Cert.Gcn.affine z x7 (fun k' => x8 (ix1 k')) k)) (funext fun j => ?_)
  refine (v51_at x0 x1 x3 x4 x5 x6 v j).trans ?_
  refine congrArg (fun z => Cert.Gcn.relu (Cert.Gcn.affine z x5 (fun j' => x6 (ix1 j')) j)) (funext fun c => ?_)
  exact v46_at x0 x1 x3 x4 v c

end Stages

end Cert.Gcn.Ref

end
-- ==== Proof.RefAgg.lean ====
/-
  The reference program's aggregate, read at one entry.

  The reference joins each row of the edge array with the node numbers 0 … 99999 ("edges, then self-loops"), counts
  the degree of every node by adding a one at each joined target word, takes dinv = (max deg eps)^(-1/2), reads dinv at
  the normalised and clamped joined source and target words, reads the rows of h = x · W at the joined source words,
  multiplies row e by dinv[source e] · dinv[target e] in every channel, and adds the weighted rows at the raw joined
  target words into zeros. Each of these steps is read here at explicit coordinates and identified with the
  corresponding piece of the specification; together they say that the value at (v, c) is the literal sum
        zero + sum over the joined rows e landing on v of  h (source e) c · (dinv (source e) · dinv (target e)).
-/
import proofs.«175213_j3616362463494_2_alg».proof.Proof.ReadP
import proofs.«175213_j3616362463494_2_alg».proof.Proof.Spec
import proofs.«175213_j3616362463494_2_alg».proof.Proof.LibRowGatherScatter
import proofs.«175213_j3616362463494_2_alg».proof.Proof.LibVectorGatherScatter
import proofs.«175213_j3616362463494_2_alg».proof.Proof.LibMlpAt
import Idealize.ShloMosaic.Lib.Pipeline.Value
import Idealize.ShloMosaic.Lib.ValueIdx
import Idealize.ShloMosaic.PureOps.Ideal.Laws

noncomputable section

open scoped BigOperators

namespace Cert.Gcn.Ref

open Cert.ReferenceIdeal Cert.ReferenceIdeal.ReadP Idealize.ShloMosaic Idealize.ShloMosaic.ValueIdx

namespace Agg

/-! ## The joined words: row r of the edge array followed by the node numbers -/

/-- Row 0 of the edge array, flattened, followed by 0 … 99999 is the joined source list. -/
theorem v3_at (x1 : (⟨S2x1600000, .i32⟩ : BufTy).Contents (Elt Ideal)) (e : Fin 1700000) :
    val_main_v3 (F := Ideal) x1 (ix1 e) = Cert.Gcn.catW x1 0 e := by
  unfold val_main_v3 Cert.Gcn.catW
  by_cases h : e.val < 1600000
  · rw [dif_pos h]
    refine (concatenate_pair_apply_left (t := S1700000) (s₁ := S1600000) (s₂ := S100000) (0 : Fin 1) _ _ _ (ix1 e) rfl (ix1 (⟨e.val, h⟩ : Fin 1600000)) ?_).trans ?_
    · intro b
      obtain rfl : b = 0 := Subsingleton.elim _ _
      rfl
    · rw [val_main_v2_apply, val_main_v1_apply]
      refine congrArg x1 (funext fun a => Fin.ext ?_)
      match a with
      | ⟨0, _⟩ => rfl
      | ⟨1, _⟩ => exact Nat.mod_eq_of_lt h
  · rw [dif_neg h]
    have he := e.isLt
    refine (concatenate_pair_apply_right (t := S1700000) (s₁ := S1600000) (s₂ := S100000) (0 : Fin 1) _ _ _ (ix1 e) rfl rfl (ix1 (⟨e.val - 1600000, by omega⟩ : Fin 100000)) ?_ ?_).trans ?_
    · intro b hb
      obtain rfl : b = 0 := Subsingleton.elim _ _
      exact absurd rfl hb
    · show e.val - 1600000 + 1600000 = e.val
      omega
    · rfl

/-- Row 1 of the edge array, flattened, followed by 0 … 99999 is the joined target list. -/
theorem v6_at (x1 : (⟨S2x1600000, .i32⟩ : BufTy).Contents (Elt Ideal)) (e : Fin 1700000) :
    val_main_v6 (F := Ideal) x1 (ix1 e) = Cert.Gcn.catW x1 1 e := by
  unfold val_main_v6 Cert.Gcn.catW
  by_cases h : e.val < 1600000
  · rw [dif_pos h]
    refine (concatenate_pair_apply_left (t := S1700000) (s₁ := S1600000) (s₂ := S100000) (0 : Fin 1) _ _ _ (ix1 e) rfl (ix1 (⟨e.val, h⟩ : Fin 1600000)) ?_).trans ?_
    · intro b
      obtain rfl : b = 0 := Subsingleton.elim _ _
      rfl
    · rw [val_main_v5_apply, val_main_v4_apply]
      refine congrArg x1 (funext fun a => Fin.ext ?_)
      match a with
      | ⟨0, _⟩ => rfl
      | ⟨1, _⟩ => exact Nat.mod_eq_of_lt h
  · rw [dif_neg h]
    have he := e.isLt
    refine (concatenate_pair_apply_right (t := S1700000) (s₁ := S1600000) (s₂ := S100000) (0 : Fin 1) _ _ _ (ix1 e) rfl rfl (ix1 (⟨e.val - 1600000, by omega⟩ : Fin 100000)) ?_ ?_).trans ?_
    · intro b hb
      obtain rfl : b = 0 := Subsingleton.elim _ _
      exact absurd rfl hb
    · show e.val - 1600000 + 1600000 = e.val
      omega
    · rfl

/-! ## The index columns: a vector laid as a column is read at (e, 0) where the vector is read at e -/

theorem col_v9 (e : Fin 1700000) : idx_main_v9 (ix2 e (0 : Fin 1)) = ix1 e :=
  funext fun a => by match a with | ⟨0, _⟩ => rfl
theorem col_v19 (e : Fin 1700000) : idx_main_v19 (ix2 e (0 : Fin 1)) = ix1 e :=
  funext fun a => by match a with | ⟨0, _⟩ => rfl
theorem col_v26 (e : Fin 1700000) : idx_main_v26 (ix2 e (0 : Fin 1)) = ix1 e :=
  funext fun a => by match a with | ⟨0, _⟩ => rfl
theorem col_v35 (e : Fin 1700000) : idx_main_v35 (ix2 e (0 : Fin 1)) = ix1 e :=
  funext fun a => by match a with | ⟨0, _⟩ => rfl
theorem col_v37 (e : Fin 1700000) : idx_main_v37 (ix2 e (0 : Fin 1)) = ix1 e :=
  funext fun a => by match a with | ⟨0, _⟩ => rfl
theorem col_v41 (e : Fin 1700000) : idx_main_v41 (ix2 e (0 : Fin 1)) = ix1 e :=
  funext fun a => by match a with | ⟨0, _⟩ => rfl

/-- The table of raw joined target words, as a column. -/
theorem v9_at (x1 : (⟨S2x1600000, .i32⟩ : BufTy).Contents (Elt Ideal)) (e : Fin 1700000) :
    val_main_v9 (F := Ideal) x1 (ix2 e (0 : Fin 1)) = Cert.Gcn.catW x1 1 e := by
  rw [val_main_v9_apply, col_v9]
  exact v6_at x1 e

theorem v41_at (x1 : (⟨S2x1600000, .i32⟩ : BufTy).Contents (Elt Ideal)) (e : Fin 1700000) :
    val_main_v41 (F := Ideal) x1 (ix2 e (0 : Fin 1)) = Cert.Gcn.catW x1 1 e := by
  rw [val_main_v41_apply, col_v41]
  exact v6_at x1 e

/-! ## The degree and its inverse square root -/

/-- Ones scattered at the raw joined target words into zeros: the degree counted over the joined list. -/
theorem v10_at (x1 : (⟨S2x1600000, .i32⟩ : BufTy).Contents (Elt Ideal)) (v : Fin 100000) :
    val_main_v10 (F := Ideal) x1 (ix1 v) = Cert.Gcn.degR x1 v := by
  unfold val_main_v10 Cert.Gcn.degR
  refine (Cert.Lib.VectorGatherScatter.host_scatterAdd_vec_apply (N := 100000) (E := 1700000) (φ := .f32) _
    (val_main_v8 (F := Ideal)) (val_main_v9 (F := Ideal) x1) (val_main_v7 (F := Ideal)) v).trans ?_
  have h0 : val_main_v8 (F := Ideal) (ix1 v) = Cert.Gcn.zero := by rw [val_main_v8_apply]; rfl
  rw [h0]
  refine congrArg (fun s => Cert.Gcn.zero + s) ?_
  refine Finset.sum_congr (Finset.filter_congr fun e _ => ?_) fun e _ => ?_
  · show Cert.Gcn.landOf 100000 (val_main_v9 (F := Ideal) x1 (ix2 e (0 : Fin 1))) = some v ↔ _
    rw [v9_at]
    rfl
  · rw [val_main_v7_apply]
    rfl

theorem v13_at (x1 : (⟨S2x1600000, .i32⟩ : BufTy).Contents (Elt Ideal)) (v : Fin 100000) :
    val_main_v13 (F := Ideal) x1 (ix1 v) = Cert.Gcn.dinvR x1 v := by
  rw [val_main_v13_apply, val_main_v12_apply, v10_at, val_main_v11_apply, val_main_cst_1_apply,
    Ideal.hostUnary_rsqrt_def, Ideal.maximumf_def, Ideal.ofBits_def]
  unfold Cert.Gcn.dinvR Cert.Gcn.dinvOf
  rfl

/-! ## The normalised joined words and the two gathers of the inverse square root -/

theorem v18_at (x1 : (⟨S2x1600000, .i32⟩ : BufTy).Contents (Elt Ideal)) (e : Fin 1700000) :
    val_main_v18 (F := Ideal) x1 (ix1 e) = Cert.Gcn.norm (Cert.Gcn.catW x1 0 e) := by
  rw [val_main_v18_apply, val_main_v15_apply, val_main_v17_apply, val_main_v14_apply, val_main_v16_apply, v3_at]
  rfl

theorem v25_at (x1 : (⟨S2x1600000, .i32⟩ : BufTy).Contents (Elt Ideal)) (e : Fin 1700000) :
    val_main_v25 (F := Ideal) x1 (ix1 e) = Cert.Gcn.norm (Cert.Gcn.catW x1 1 e) := by
  rw [val_main_v25_apply, val_main_v22_apply, val_main_v24_apply, val_main_v21_apply, val_main_v23_apply, v6_at]
  rfl

theorem v34_at (x1 : (⟨S2x1600000, .i32⟩ : BufTy).Contents (Elt Ideal)) (e : Fin 1700000) :
    val_main_v34 (F := Ideal) x1 (ix1 e) = Cert.Gcn.norm (Cert.Gcn.catW x1 0 e) := by
  rw [val_main_v34_apply, val_main_v31_apply, val_main_v33_apply, val_main_v30_apply, val_main_v32_apply, v3_at]
  rfl

theorem v19_at (x1 : (⟨S2x1600000, .i32⟩ : BufTy).Contents (Elt Ideal)) (e : Fin 1700000) :
    val_main_v19 (F := Ideal) x1 (ix2 e (0 : Fin 1)) = Cert.Gcn.norm (Cert.Gcn.catW x1 0 e) := by
  rw [val_main_v19_apply, col_v19]
  exact v18_at x1 e

theorem v26_at (x1 : (⟨S2x1600000, .i32⟩ : BufTy).Contents (Elt Ideal)) (e : Fin 1700000) :
    val_main_v26 (F := Ideal) x1 (ix2 e (0 : Fin 1)) = Cert.Gcn.norm (Cert.Gcn.catW x1 1 e) := by
  rw [val_main_v26_apply, col_v26]
  exact v25_at x1 e

theorem v35_at (x1 : (⟨S2x1600000, .i32⟩ : BufTy).Contents (Elt Ideal)) (e : Fin 1700000) :
    val_main_v35 (F := Ideal) x1 (ix2 e (0 : Fin 1)) = Cert.Gcn.norm (Cert.Gcn.catW x1 0 e) := by
  rw [val_main_v35_apply, col_v35]
  exact v34_at x1 e

/-- The inverse square root gathered at the normalised, clamped source word. -/
theorem v20_at (x1 : (⟨S2x1600000, .i32⟩ : BufTy).Contents (Elt Ideal)) (e : Fin 1700000) :
    val_main_v20 (F := Ideal) x1 (ix1 e) = Cert.Gcn.dinvR x1 (Cert.Gcn.spR x1 e) := by
  unfold val_main_v20
  refine (Cert.Lib.VectorGatherScatter.gather_vec_apply (N := 100000) (E := 1700000) Cert.Gcn.nodes_pos _
    (val_main_v13 (F := Ideal) x1) (val_main_v19 (F := Ideal) x1) e).trans ?_
  have hp : Cert.Lib.VectorGatherScatter.gatherPos Cert.Gcn.nodes_pos (val_main_v19 (F := Ideal) x1) e = Cert.Gcn.spR x1 e := by
    show Cert.Gcn.clampPos 100000 Cert.Gcn.nodes_pos (val_main_v19 (F := Ideal) x1 (ix2 e (0 : Fin 1))) = _
    rw [v19_at]
    rfl
  rw [hp]
  exact v13_at x1 _

/-- The inverse square root gathered at the normalised, clamped target word. -/
theorem v27_at (x1 : (⟨S2x1600000, .i32⟩ : BufTy).Contents (Elt Ideal)) (e : Fin 1700000) :
    val_main_v27 (F := Ideal) x1 (ix1 e) = Cert.Gcn.dinvR x1 (Cert.Gcn.dpR x1 e) := by
  unfold val_main_v27
  refine (Cert.Lib.VectorGatherScatter.gather_vec_apply (N := 100000) (E := 1700000) Cert.Gcn.nodes_pos _
    (val_main_v13 (F := Ideal) x1) (val_main_v26 (F := Ideal) x1) e).trans ?_
  have hp : Cert.Lib.VectorGatherScatter.gatherPos Cert.Gcn.nodes_pos (val_main_v26 (F := Ideal) x1) e = Cert.Gcn.dpR x1 e := by
    show Cert.Gcn.clampPos 100000 Cert.Gcn.nodes_pos (val_main_v26 (F := Ideal) x1 (ix2 e (0 : Fin 1))) = _
    rw [v26_at]
    rfl
  rw [hp]
  exact v13_at x1 _

/-! ## The projected features, their gathered rows, and the weighted rows -/

theorem v29_at (x0 : (⟨S100000x100, .f32⟩ : BufTy).Contents (Elt Ideal)) (x3 : (⟨S100x32, .f32⟩ : BufTy).Contents (Elt Ideal))
    (p : Fin 100000) (c : Fin 32) :
    val_main_v29 (F := Ideal) x0 x3 (ix2 p c) = Cert.Gcn.hlin x0 x3 p c := by
  unfold val_main_v29 Cert.Gcn.hlin
  exact Cert.Mlp.dotGeneral_at (m := 100000) (k := 100) (n := 32) _ none x0 x3 p c

theorem v36_at (x0 : (⟨S100000x100, .f32⟩ : BufTy).Contents (Elt Ideal)) (x1 : (⟨S2x1600000, .i32⟩ : BufTy).Contents (Elt Ideal))
    (x3 : (⟨S100x32, .f32⟩ : BufTy).Contents (Elt Ideal)) (e : Fin 1700000) (c : Fin 32) :
    val_main_v36 (F := Ideal) x0 x1 x3 (ix2 e c) = Cert.Gcn.hlin x0 x3 (Cert.Gcn.spR x1 e) c := by
  unfold val_main_v36
  refine (Cert.Lib.RowGatherScatter.gather_rows_apply (N := 100000) (E := 1700000) (C := 32) Cert.Gcn.nodes_pos _
    (val_main_v29 (F := Ideal) x0 x3) (val_main_v35 (F := Ideal) x1) e c).trans ?_
  have hp : Cert.Lib.RowGatherScatter.gatherPos Cert.Gcn.nodes_pos (val_main_v35 (F := Ideal) x1) e = Cert.Gcn.spR x1 e := by
    show Cert.Gcn.clampPos 100000 Cert.Gcn.nodes_pos (val_main_v35 (F := Ideal) x1 (ix2 e (0 : Fin 1))) = _
    rw [v35_at]
    rfl
  rw [hp]
  exact v29_at x0 x3 _ c

theorem col_v38 (e : Fin 1700000) (c : Fin 32) : idx_main_v38 (ix2 e c) = ix2 e (0 : Fin 1) :=
  funext fun a => by match a with | ⟨0, _⟩ => rfl | ⟨1, _⟩ => rfl

theorem v38_at (x1 : (⟨S2x1600000, .i32⟩ : BufTy).Contents (Elt Ideal)) (e : Fin 1700000) (c : Fin 32) :
    val_main_v38 (F := Ideal) x1 (ix2 e c)
      = Cert.Gcn.dinvR x1 (Cert.Gcn.spR x1 e) * Cert.Gcn.dinvR x1 (Cert.Gcn.dpR x1 e) := by
  rw [val_main_v38_apply, col_v38, val_main_v37_apply, col_v37, val_main_v28_apply, v20_at, v27_at]
  rfl

theorem v39_at (x0 : (⟨S100000x100, .f32⟩ : BufTy).Contents (Elt Ideal)) (x1 : (⟨S2x1600000, .i32⟩ : BufTy).Contents (Elt Ideal))
    (x3 : (⟨S100x32, .f32⟩ : BufTy).Contents (Elt Ideal)) (e : Fin 1700000) (c : Fin 32) :
    val_main_v39 (F := Ideal) x0 x1 x3 (ix2 e c)
      = Cert.Gcn.hlin x0 x3 (Cert.Gcn.spR x1 e) c
          * (Cert.Gcn.dinvR x1 (Cert.Gcn.spR x1 e) * Cert.Gcn.dinvR x1 (Cert.Gcn.dpR x1 e)) := by
  rw [val_main_v39_apply, v36_at, v38_at]
  rfl

/-! ## The aggregate: the weighted rows added at the raw joined target words into zeros -/

theorem v42_at (x0 : (⟨S100000x100, .f32⟩ : BufTy).Contents (Elt Ideal)) (x1 : (⟨S2x1600000, .i32⟩ : BufTy).Contents (Elt Ideal))
    (x3 : (⟨S100x32, .f32⟩ : BufTy).Contents (Elt Ideal)) (v : Fin 100000) (c : Fin 32) :
    val_main_v42 (F := Ideal) x0 x1 x3 (ix2 v c) = Cert.Gcn.aggR x1 x0 x3 v c := by
  unfold val_main_v42 Cert.Gcn.aggR
  refine (Cert.Lib.RowGatherScatter.host_scatterAdd_rows_apply (N := 100000) (E := 1700000) (C := 32) (φ := .f32) _
    (val_main_v40 (F := Ideal)) (val_main_v41 (F := Ideal) x1) (val_main_v39 (F := Ideal) x0 x1 x3) v c).trans ?_
  have h0 : val_main_v40 (F := Ideal) (ix2 v c) = Cert.Gcn.zero := by rw [val_main_v40_apply]; rfl
  rw [h0]
  refine congrArg (fun s => Cert.Gcn.zero + s) ?_
  refine Finset.sum_congr (Finset.filter_congr fun e _ => ?_) fun e _ => ?_
  · show Cert.Gcn.landOf 100000 (val_main_v41 (F := Ideal) x1 (ix2 e (0 : Fin 1))) = some v ↔ _
    rw [v41_at]
    rfl
  · exact v39_at x0 x1 x3 e c

end Agg

/-- The reference's aggregate, read at (v, c), is the literal sum over the joined list. -/
theorem ref_agg_at (x0 : (⟨S100000x100, .f32⟩ : BufTy).Contents (Elt Ideal)) (x1 : (⟨S2x1600000, .i32⟩ : BufTy).Contents (Elt Ideal))
    (x3 : (⟨S100x32, .f32⟩ : BufTy).Contents (Elt Ideal)) (v : Fin 100000) (c : Fin 32) :
    val_main_v42 (F := Ideal) x0 x1 x3 (ix2 v c) = Cert.Gcn.aggR x1 x0 x3 v c :=
  Agg.v42_at x0 x1 x3 v c

end Cert.Gcn.Ref

end
-- ==== Proof.LibIndexWords.lean ====
/- Row numbers kept in 32-bit words. A program that indexes an array by such a word first adds the array's extent to
   a negative word (so that -1 names the last row) and then uses the word read as a signed integer. When the word is
   already known to be non-negative that first step changes nothing; and the word written for a natural number
   below 2^31 reads back as that number. Also the two truth values of a signed comparison, and what a comparison's
   bit counts for when it is turned into a number: one when it holds, zero when it does not. -/
import Idealize.ShloMosaic.Lib.ValueIdx

noncomputable section

namespace Cert.Lib.IndexWords

open Idealize.ShloMosaic Idealize.ShloMosaic.ValueIdx

/-- The word written for a natural number below 2^31 reads back, signed, as that number. -/
theorem toInt_ofNat_small (n : Nat) (h : n < 2 ^ 31) : (BitVec.ofNat 32 n).toInt = (n : Int) := by
  have hm : n % 2 ^ 32 = n := Nat.mod_eq_of_lt (by omega)
  have h2 : 2 * (BitVec.ofNat 32 n).toNat < 2 ^ 32 := by
    rw [BitVec.toNat_ofNat, hm]; omega
  rw [BitVec.toInt_eq_toNat_of_lt h2, BitVec.toNat_ofNat, hm]

/-- A signed "less than" that does not hold is the bit 0. -/
theorem cmpi_slt_of_not_lt (x y : BitVec 32) (h : ¬ x.toInt < y.toInt) : IntOp.cmpi .slt x y = 0#1 := by
  show BitVec.ofBool (x.slt y) = 0#1
  rw [BitVec.slt_eq_decide, decide_eq_false h]
  rfl

/-- A signed "less than" that holds is the bit 1. -/
theorem cmpi_slt_of_lt (x y : BitVec 32) (h : x.toInt < y.toInt) : IntOp.cmpi .slt x y = 1#1 := by
  show BitVec.ofBool (x.slt y) = 1#1
  rw [BitVec.slt_eq_decide, decide_eq_true h]
  rfl

/-- NORMALISING A ROW NUMBER THAT IS NOT NEGATIVE changes nothing: "if the word is below zero take the word plus the
    extent, else the word" is the word. -/
theorem normalize_of_nonneg (w k : BitVec 32) (h : 0 ≤ w.toInt) :
    Scalar.select (IntOp.cmpi .slt w 0#32) (IntOp.addi w k) w = w := by
  rw [cmpi_slt_of_not_lt w 0#32 (by rw [BitVec.toInt_zero]; omega)]
  exact select_zero _ _

/-- The word of a natural number below 2^31 is not negative, so normalising it changes nothing. -/
theorem normalize_ofNat (n : Nat) (h : n < 2 ^ 31) (k : BitVec 32) :
    Scalar.select (IntOp.cmpi .slt (BitVec.ofNat 32 n) 0#32) (IntOp.addi (BitVec.ofNat 32 n) k) (BitVec.ofNat 32 n)
      = BitVec.ofNat 32 n :=
  normalize_of_nonneg _ k (by rw [toInt_ofNat_small n h]; omega)

end Cert.Lib.IndexWords

end
-- ==== Proof.Algebra.lean ====
/-
  The two spellings of the normalised aggregate agree where every feature and every weight is a real number.

  The literal spelling sums over the 1700000 rows "edges, then self-loops"; the other sums over the 1600000 edges, pulls
  the target's factor out, and adds the self-loop's term separately. A sum over the joined list splits into the sum over
  its first 1600000 rows and the sum over its last 100000. On the first rows the joined words are the edge words. The
  row 1600000 + u holds the word of the number u < 100000: it is not negative and in range, so it reads row u and adds
  into row u; the self-loops landing on v are therefore the single row u = v. That makes the two degrees equal (a
  regrouping of one sum), and a degree is a real number that is at least one, so its inverse square root is a real
  number; the projected features are finite sums of products of reals. With every quantity real the two spellings are
  the two sides of the distributive law.
-/
import proofs.«175213_j3616362463494_2_alg».proof.Proof.Spec
import proofs.«175213_j3616362463494_2_alg».proof.Proof.LibIndexWords
import Idealize.ShloMosaic.Lib.IdealHost
import Idealize.ShloMosaic.PureOps.Ideal.Laws

noncomputable section

open scoped BigOperators

namespace Cert.Gcn

open Idealize.ShloMosaic Idealize.ShloMosaic.ValueIdx

/-! ## Splitting a sum over a joined list -/

/-- A filtered sum over Fin (E + N) is the filtered sum over the first E plus the filtered sum over the last N. -/
theorem sum_filter_add {M : Type} [AddCommMonoid M] (E N : Nat) (p : Fin (E + N) → Prop) [DecidablePred p]
    (f : Fin (E + N) → M) :
    ∑ e ∈ Finset.univ.filter p, f e
      = (∑ e ∈ Finset.univ.filter (fun e : Fin E => p (Fin.castAdd N e)), f (Fin.castAdd N e))
        + ∑ u ∈ Finset.univ.filter (fun u : Fin N => p (Fin.natAdd E u)), f (Fin.natAdd E u) := by
  simp only [Finset.sum_filter]
  exact Fin.sum_univ_add _

/-- The first 1600000 of the 1700000 rows, and the last 100000. -/
def edgeRow (e : Fin 1600000) : Fin 1700000 := Fin.castAdd 100000 e
def loopRow (u : Fin 100000) : Fin 1700000 := Fin.natAdd 1600000 u

theorem sum_filter_rows {M : Type} [AddCommMonoid M] (p : Fin 1700000 → Prop) [DecidablePred p] (f : Fin 1700000 → M) :
    ∑ e ∈ Finset.univ.filter p, f e
      = (∑ e ∈ Finset.univ.filter (fun e : Fin 1600000 => p (edgeRow e)), f (edgeRow e))
        + ∑ u ∈ Finset.univ.filter (fun u : Fin 100000 => p (loopRow u)), f (loopRow u) :=
  sum_filter_add 1600000 100000 p f

/-- Among the rows u ↦ some u, those equal to some v are the single row v. -/
theorem sum_filter_self {M : Type} [AddCommMonoid M] {n : Nat} (v : Fin n) (l : Fin n → Option (Fin n))
    (hl : ∀ u, l u = some u) (g : Fin n → M) :
    ∑ u ∈ Finset.univ.filter (fun u => l u = some v), g u = g v := by
  have hs : Finset.univ.filter (fun u => l u = some v) = {v} := by
    ext u
    simp [hl]
  rw [hs, Finset.sum_singleton]

/-! ## The words of the joined list -/

variable (ei : (⟨2, ![2, 1600000]⟩ : Shape).Idx → BitVec 32)

theorem catW_edgeRow (r : Fin 2) (e : Fin 1600000) : catW ei r (edgeRow e) = ei (ix2 r e) := by
  unfold catW
  rw [dif_pos (show (edgeRow e).val < 1600000 from e.isLt)]
  rfl

theorem catW_loopRow (r : Fin 2) (u : Fin 100000) : catW ei r (loopRow u) = BitVec.ofNat 32 u.val := by
  unfold catW
  have hv : (loopRow u).val = 1600000 + u.val := rfl
  rw [dif_neg (by rw [hv]; omega), hv, Nat.add_sub_cancel_left]

/-- The word of a node number is not negative: normalising it changes nothing. -/
theorem norm_ofNat (u : Fin 100000) : norm (BitVec.ofNat 32 u.val) = BitVec.ofNat 32 u.val :=
  Cert.Lib.IndexWords.normalize_ofNat u.val (by have := u.isLt; omega) 100000#32

/-- Read as a row, the word of a node number is that node. -/
theorem clampPos_ofNat (u : Fin 100000) : clampPos 100000 nodes_pos (BitVec.ofNat 32 u.val) = u := by
  apply Fin.ext
  show min (BitVec.ofNat 32 u.val).toInt.toNat (100000 - 1) = u.val
  rw [Cert.Lib.IndexWords.toInt_ofNat_small u.val (by have := u.isLt; omega)]
  have := u.isLt
  omega

/-- Added into a row, the word of a node number is that node. -/
theorem landOf_ofNat (u : Fin 100000) : landOf 100000 (BitVec.ofNat 32 u.val) = some u := by
  have ht := Cert.Lib.IndexWords.toInt_ofNat_small u.val (by have := u.isLt; omega)
  unfold landOf
  rw [dif_pos (by rw [ht]; have := u.isLt; omega)]
  congr 1
  apply Fin.ext
  show (BitVec.ofNat 32 u.val).toInt.toNat = u.val
  rw [ht]
  omega

/-- A word that lands on row v is not negative and in range: read as a row it is v as well. -/
theorem clampPos_norm_of_landOf (w : BitVec 32) (v : Fin 100000) (h : landOf 100000 w = some v) :
    clampPos 100000 nodes_pos (norm w) = v := by
  unfold landOf at h
  split at h
  · rename_i hr
    have hv : (⟨w.toInt.toNat, by omega⟩ : Fin 100000) = v := Option.some.inj h
    have hn : norm w = w := Cert.Lib.IndexWords.normalize_of_nonneg w 100000#32 hr.1
    rw [hn, ← hv]
    apply Fin.ext
    show min w.toInt.toNat (100000 - 1) = w.toInt.toNat
    omega
  · exact absurd h (by simp)

theorem spR_edgeRow (e : Fin 1600000) : spR ei (edgeRow e) = sp ei e := by
  unfold spR sp srcW
  rw [catW_edgeRow]

theorem lpR_edgeRow (e : Fin 1600000) : lpR ei (edgeRow e) = lp ei e := by
  unfold lpR lp dstW
  rw [catW_edgeRow]

theorem dpR_edgeRow (e : Fin 1600000) (v : Fin 100000) (h : lp ei e = some v) : dpR ei (edgeRow e) = v := by
  unfold dpR
  rw [catW_edgeRow]
  exact clampPos_norm_of_landOf _ v h

theorem spR_loopRow (u : Fin 100000) : spR ei (loopRow u) = u := by
  unfold spR
  rw [catW_loopRow, norm_ofNat, clampPos_ofNat]

theorem dpR_loopRow (u : Fin 100000) : dpR ei (loopRow u) = u := by
  unfold dpR
  rw [catW_loopRow, norm_ofNat, clampPos_ofNat]

theorem lpR_loopRow (u : Fin 100000) : lpR ei (loopRow u) = some u := by
  unfold lpR
  rw [catW_loopRow, landOf_ofNat]

/-! ## The constants -/

theorem zero_eq : zero = 0 := Ideal.ofBits_zero_f32
theorem one_eq : one = ((1 : ℝ) : EReal) := by
  rw [EReal.coe_one]
  exact Ideal.ofBits_one_f32

/-- The pattern of eps has exponent field 87, not 255: it denotes a real number. -/
theorem eps_real : ∃ r : ℝ, eps = (r : EReal) := by
  show ∃ r : ℝ, Ideal.ieee 8 23 (0x2B8CBCCC#32) = (r : EReal)
  unfold Ideal.ieee
  simp only []
  rw [if_neg (by decide)]
  split_ifs <;> exact ⟨_, rfl⟩

/-! ## Finite sums of reals -/

/-- A finite sum of real numbers, taken in the extended reals, is the real sum. -/
theorem coe_sum {ι : Type} (s : Finset ι) (f : ι → ℝ) : ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

/-! ## The two degrees are equal, and a degree's inverse square root is a real number -/

theorem degR_eq_degK (v : Fin 100000) : degR ei v = degK ei v := by
  unfold degR degK
  rw [sum_filter_rows, sum_filter_self v (fun u => lpR ei (loopRow u)) (fun u => lpR_loopRow ei u) (fun _ => one)]
  simp only [lpR_edgeRow]
  rw [add_assoc]

theorem dinvR_eq_dinvK : dinvR ei = dinvK ei := by
  funext v
  unfold dinvR dinvK
  rw [degR_eq_degK]

/-- The inverse square root of max(d, eps) for a real d ≥ 1 is a real number. -/
theorem dinvOf_real (d : ℝ) (hd : 1 ≤ d) : ∃ t : ℝ, dinvOf (d : EReal) = (t : EReal) := by
  obtain ⟨r, hr⟩ := eps_real
  unfold dinvOf
  rw [hr, ← EReal.coe_strictMono.monotone.map_max, Ideal.rsqrt_coe]
  have hpos : 0 < max d r := lt_of_lt_of_le (by linarith) (le_max_left d r)
  rw [if_neg (not_lt.mpr hpos.le), if_neg (ne_of_gt hpos)]
  exact ⟨_, rfl⟩

theorem degK_real (v : Fin 100000) : ∃ d : ℝ, 1 ≤ d ∧ degK ei v = (d : EReal) := by
  unfold degK
  rw [zero_eq, one_eq, coe_sum, zero_add, ← EReal.coe_add]
  refine ⟨_, ?_, rfl⟩
  have : (0 : ℝ) ≤ ∑ e ∈ Finset.univ.filter (fun e : Fin 1600000 => lp ei e = some v), (1 : ℝ) :=
    Finset.sum_nonneg (fun _ _ => zero_le_one)
  linarith

theorem dinvK_real (v : Fin 100000) : ∃ t : ℝ, dinvK ei v = (t : EReal) := by
  obtain ⟨d, hd, he⟩ := degK_real ei v
  unfold dinvK
  rw [he]
  exact dinvOf_real d hd

/-! ## The projected features are real -/

variable (x : (⟨2, ![100000, 100]⟩ : Shape).Idx → EReal) (wc : (⟨2, ![100, 32]⟩ : Shape).Idx → EReal)

theorem hlin_real (hx : ∀ i, ∃ r : ℝ, x i = (r : EReal)) (hw : ∀ i, ∃ r : ℝ, wc i = (r : EReal))
    (u : Fin 100000) (c : Fin 32) : ∃ t : ℝ, hlin x wc u c = (t : EReal) := by
  choose X hX using hx
  choose W hW using hw
  unfold hlin
  simp only [hX, hW, ← EReal.coe_mul]
  rw [coe_sum]
  exact ⟨_, rfl⟩

/-! ## The two spellings -/

/-- The literal spelling, split into the edges landing on v and the self-loop of v. -/
theorem aggR_split (v : Fin 100000) (c : Fin 32) :
    aggR ei x wc v c
      = zero + ((∑ e ∈ Finset.univ.filter (fun e : Fin 1600000 => lp ei e = some v),
            hlin x wc (sp ei e) c * (dinvK ei (sp ei e) * dinvK ei v))
          + hlin x wc v c * (dinvK ei v * dinvK ei v)) := by
  unfold aggR
  rw [dinvR_eq_dinvK, sum_filter_rows,
    sum_filter_self v (fun u => lpR ei (loopRow u)) (fun u => lpR_loopRow ei u)
      (fun u => hlin x wc (spR ei (loopRow u)) c * (dinvK ei (spR ei (loopRow u)) * dinvK ei (dpR ei (loopRow u))))]
  simp only [lpR_edgeRow, spR_edgeRow, spR_loopRow, dpR_loopRow]
  have hs : ∀ e ∈ Finset.univ.filter (fun e : Fin 1600000 => lp ei e = some v),
      hlin x wc (sp ei e) c * (dinvK ei (sp ei e) * dinvK ei (dpR ei (edgeRow e)))
        = hlin x wc (sp ei e) c * (dinvK ei (sp ei e) * dinvK ei v) := by
    intro e he
    rw [dpR_edgeRow ei e v (Finset.mem_filter.mp he).2]
  rw [Finset.sum_congr rfl hs]

theorem aggK_eq_aggR (ei : (⟨2, ![2, 1600000]⟩ : Shape).Idx → BitVec 32) (x : (⟨2, ![100000, 100]⟩ : Shape).Idx → EReal)
    (wc : (⟨2, ![100, 32]⟩ : Shape).Idx → EReal) (hx : ∀ i, ∃ r : ℝ, x i = (r : EReal)) (hw : ∀ i, ∃ r : ℝ, wc i = (r : EReal))
    (v : Fin 100000) (c : Fin 32) : aggK ei x wc v c = aggR ei x wc v c := by
  rw [aggR_split]
  unfold aggK
  choose D hD using dinvK_real ei
  choose H hH using fun u => hlin_real x wc hx hw u c
  simp only [hD, hH, zero_eq, zero_add, ← EReal.coe_mul]
  rw [coe_sum, coe_sum, ← EReal.coe_mul, ← EReal.coe_add, ← EReal.coe_add]
  apply congrArg Real.toEReal
  rw [Finset.mul_sum]
  have hs : ∀ e ∈ Finset.univ.filter (fun e : Fin 1600000 => lp ei e = some v),
      D v * (H (sp ei e) * D (sp ei e)) = H (sp ei e) * (D (sp ei e) * D v) := by
    intro e _
    ring
  rw [Finset.sum_congr rfl hs]

end Cert.Gcn

end
-- ==== Proof.LibFiniteCheck.lean ====
/-
  One finiteness check of a printed precondition, read back (general: any shape, any reduced axes).

  A precondition "every float input is finite" prints, per argument x, as a reduction by "and" over all axes of the
  one-bit array (|x| < +inf), started from the constant 1, and the claim states that the result is 1. Then the
  comparison is 1 at every index; an extended real whose absolute value max(x, -x) is below plus infinity is neither
  infinity; so every entry of x is a real number.
-/
import Idealize.ShloMosaic.Lib.ReduceAll
import Idealize.ShloMosaic.Lib.ValueIdx
import Idealize.ShloMosaic.Lib.Pipeline.Value
import Idealize.ShloMosaic.PureOps.Ideal

noncomputable section

namespace Cert.Lib.FiniteCheck

open Idealize.ShloMosaic Idealize.ShloMosaic.ValueIdx

/-- `Cert.Lib.FiniteCheck.scalarIdx_subsingleton`: the result of a reduction over all axes has one index. -/
instance scalarIdx_subsingleton : Subsingleton (⟨0, ![]⟩ : Shape).Idx := ⟨fun a b => funext fun d => d.elim0⟩

/-- `Cert.Lib.FiniteCheck.ofBits_inf`: the f32 pattern of plus infinity denotes plus infinity. -/
theorem ofBits_inf : Ideal.ofBits .f32 0x7F800000#32 = (⊤ : EReal) := by
  simp [Ideal.ofBits, Ideal.ieee]

/-- `Cert.Lib.FiniteCheck.real_of_abs_lt_top`: an extended real whose absolute value is below plus infinity is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- `Cert.Lib.FiniteCheck.all_real`: one check of the precondition. If "all entries have absolute value below plus
    infinity" came out 1, every entry is a real number. The shape relations are whatever the program states. -/
theorem all_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x)
        (broadcastInDim s (![] : Fin 0 → Fin s.rank) hb (constant (F := Ideal) ⟨0, ![]⟩ .f32 0x7F800000#32)))
        (constantI ⟨0, ![]⟩ 1 1#1) hr hu ix0 = 1#1) (i : s.Idx) : ∃ r : ℝ, x i = (r : EReal) := by
  have h1 := Host.reduce_andi_all _ _ hr hu ix0 e i
  rw [cmpf_apply, broadcastInDim_apply _ hb _ i ix0 (fun ax => ax.elim0)] at h1
  apply real_of_abs_lt_top
  have h2 : Ideal.cmp .olt (max (x i) (-(x i))) (Ideal.ofBits .f32 0x7F800000#32) = 1#1 := h1
  rw [ofBits_inf] at h2
  unfold Ideal.cmp at h2
  by_contra hn
  simp [hn] at h2

end Cert.Lib.FiniteCheck

end
-- ==== Proof.Finite.lean ====
/-
  The printed precondition "every float input is finite", read back for the two inputs the aggregate uses.

  The precondition is one bit: per float argument, the "and" over all entries of (|entry| < +inf), and these ten bits
  joined by "and" in a chain. The claim that the result is 1 makes every bit of the chain 1; the features' bit is the
  innermost left one and the projection weights' bit is the third of the chain. A check that came out 1 says that
  every entry of its argument is a real number.
-/
import proofs.«175213_j3616362463494_2_alg».proof.Pre_finite_inputs
import proofs.«175213_j3616362463494_2_alg».proof.Proof.LibFiniteCheck
import Idealize.ShloMosaic.Lib.Affine

noncomputable section

namespace Cert.Gcn.Finite

open Idealize.ShloMosaic Idealize.ShloMosaic.ValueIdx
open Cert.Pre_finite_inputs Cert.Pre_finite_inputs.Facts

/-- An "and" of two one-bit arrays is 1 at an index only where both are. -/
theorem andi_at {s : Shape} (x y : IVec s 1) (i : s.Idx) (h : andi x y i = 1#1) : x i = 1#1 ∧ y i = 1#1 :=
  IntOp.andi_eq_one.1 h

theorem real_inputs [Cert.Pre_finite_inputs.Facts]
    (a0 : FVec Ideal S100000x100 .f32) (a1 : IVec S2x1600000 32) (a2 : FVec Ideal S1600000 .f32) (a3 : FVec Ideal S100x32 .f32)
    (a4 : FVec Ideal S32 .f32) (a5 : FVec Ideal S32x16 .f32) (a6 : FVec Ideal S16 .f32) (a7 : FVec Ideal S16x8 .f32) (a8 : FVec Ideal S8 .f32)
    (a9 : FVec Ideal S8x10 .f32) (a10 : FVec Ideal S10 .f32)
    (h : Cert.Pre_finite_inputs.fn (F := Ideal) a0 a1 a2 a3 a4 a5 a6 a7 a8 a9 a10 = (fun _ => 1#1)) :
    (∀ i, ∃ r : ℝ, a0 i = (r : EReal)) ∧ (∀ i, ∃ r : ℝ, a3 i = (r : EReal)) := by
  have h0 := congrFun h ix0
  dsimp only [Cert.Pre_finite_inputs.fn, Cert.Pre_finite_inputs.fn_part1, Cert.Pre_finite_inputs.fn_part2] at h0
  have h13 := (andi_at _ _ _ (andi_at _ _ _ (andi_at _ _ _ (andi_at _ _ _ (andi_at _ _ _ (andi_at _ _ _
    (andi_at _ _ _ h0).1).1).1).1).1).1).1
  have h12 := (andi_at _ _ _ h13).2
  have h3 := (andi_at _ _ _ (andi_at _ _ _ h13).1).1
  exact ⟨Cert.Lib.FiniteCheck.all_real a0 _ _ _ h3, Cert.Lib.FiniteCheck.all_real a3 _ _ _ h12⟩

end Cert.Gcn.Finite

end
-- ==== Proof.lean ====
/-
  The certificate of a graph-convolution classifier: a Pallas kernel pair (the projection h = x · W with its
  degree-scaled copy; the head: bias, rectifier, three dense layers, logarithmic softmax) with the edge gather and
  scatter-add on the host between them, against the plain jnp reference that joins the self-loops to the edge list.

  Frames: the two kernel programs' frames are the generated ones; the reference's is its run with the result dropped.
  The ideal pass rewrote nothing, so the idealization claim is trivial.
  Values: at the ideal instance the kernel's result at (v, q) is the head of the row
      d v · (0 + sum over edges e into v of h (src e) · d (src e)) + h v · (d v · d v)
  and the reference's is the head of the row
      0 + sum over edges and self-loops e into v of h (src e) · (d (src e) · d (dst e)),
  with d = (max deg eps)^(-1/2) and deg counted with the self-loop. The two rows agree where the features and the
  projection weights are real numbers — which the precondition grants — because then every factor is real and
  multiplication distributes over the sum; the head is the same function on both sides.
-/
import proofs.«175213_j3616362463494_2_alg».proof.Defs
import proofs.«175213_j3616362463494_2_alg».proof.Proof.Gen.Kernel
import proofs.«175213_j3616362463494_2_alg».proof.Proof.Gen.Kernel.Frame
import proofs.«175213_j3616362463494_2_alg».proof.Proof.Gen.KernelIdeal
import proofs.«175213_j3616362463494_2_alg».proof.Proof.Gen.KernelIdeal.Frame
import proofs.«175213_j3616362463494_2_alg».proof.Proof.Gen.ReferenceIdeal
import proofs.«175213_j3616362463494_2_alg».proof.Proof.Gen.Pre_finite_inputs
import proofs.«175213_j3616362463494_2_alg».proof.Proof.RunP
import proofs.«175213_j3616362463494_2_alg».proof.Proof.ReadP
import proofs.«175213_j3616362463494_2_alg».proof.Proof.KRun
import proofs.«175213_j3616362463494_2_alg».proof.Proof.KFinal
import proofs.«175213_j3616362463494_2_alg».proof.Proof.RefHead
import proofs.«175213_j3616362463494_2_alg».proof.Proof.RefAgg
import proofs.«175213_j3616362463494_2_alg».proof.Proof.Algebra
import proofs.«175213_j3616362463494_2_alg».proof.Proof.Finite
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The reference's result and the kernel's are one array when the features and the projection weights are real:
    entry by entry, the same head of two rows that distributivity identifies. -/
theorem values_agree (x0 : Cert.KernelIdeal.S100000x100.Idx → EReal) (x1 : IVec Cert.KernelIdeal.S2x1600000 32)
    (x3 : Cert.KernelIdeal.S100x32.Idx → EReal) (x4 : Cert.KernelIdeal.S32.Idx → EReal) (x5 : Cert.KernelIdeal.S32x16.Idx → EReal)
    (x6 : Cert.KernelIdeal.S16.Idx → EReal) (x7 : Cert.KernelIdeal.S16x8.Idx → EReal) (x8 : Cert.KernelIdeal.S8.Idx → EReal)
    (x9 : Cert.KernelIdeal.S8x10.Idx → EReal) (x10 : Cert.KernelIdeal.S10.Idx → EReal)
    (hx : ∀ i, ∃ r : ℝ, x0 i = (r : EReal)) (hw : ∀ i, ∃ r : ℝ, x3 i = (r : EReal)) :
    Cert.ReferenceIdeal.ReadP.val_main_v61 (F := Ideal) x0 x1 x3 x4 x5 x6 x7 x8 x9 x10
      = Cert.KernelIdeal.Value.kernelArr x0 x1 x3 x4 x5 x6 x7 x8 x9 x10 := by
  funext i
  obtain ⟨v, q, rfl⟩ : ∃ (v : Fin 100000) (q : Fin 10), i = ix2 v q := ⟨i 0, i 1, eq_ix2 i⟩
  have hrow : (fun c : Fin 32 => Cert.ReferenceIdeal.ReadP.val_main_v42 (F := Ideal) x0 x1 x3 (ix2 v c))
      = fun c : Fin 32 => Cert.Gcn.aggK x1 x0 x3 v c :=
    funext fun c => (Cert.Gcn.Ref.ref_agg_at x0 x1 x3 v c).trans (Cert.Gcn.aggK_eq_aggR x1 x0 x3 hx hw v c).symm
  refine (Cert.Gcn.Ref.ref_head_at x0 x1 x3 x4 x5 x6 x7 x8 x9 x10 v q).trans ?_
  rw [hrow]
  exact (Cert.KernelIdeal.Value.kernelArr_at x0 x1 x3 x4 x5 x6 x7 x8 x9 x10 v q).symm

theorem algebraic : Cert.algebraic_KernelIdeal_ReferenceIdeal := by
  intro m ρ m' ρ' hpre hagree
  refine ⟨fun c => Cert.KernelIdeal.Value.kernelArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Value.result_eq m ρ c), (h c).2⟩)
      (Cert.KernelIdeal.ValueRun.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6, a7, a8, a9, a10⟩ := hagree c
    obtain ⟨hx, hw⟩ := Cert.Gcn.Finite.real_inputs _ _ _ _ _ _ _ _ _ _ _ (hpre c)
    rw [Cert.ReferenceIdeal.ReadP.val_main_v61_eq, a0, a1, a3, a4, a5, a6, a7, a8, a9, a10]
    exact values_agree _ _ _ _ _ _ _ _ _ _ hx hw

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
